-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_temp" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_arg2)) (v1 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg2) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg2) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x32x512 : Shape := ⟨4, ![64, 16, 32, 512]⟩
abbrev S2x524288 : Shape := ⟨2, ![2, 524288]⟩
abbrev S32x1 : Shape := ⟨2, ![32, 1]⟩
abbrev S1 : Shape := ⟨1, ![1]⟩
abbrev S1x32 : Shape := ⟨2, ![1, 32]⟩
abbrev S32 : Shape := ⟨1, ![32]⟩
abbrev S_ : Shape := ⟨0, ![]⟩

class Facts : Prop where
  bcast_S_S64x16x32x512 : S_.BroadcastsInDim S64x16x32x512 (![] : Fin 0 → Fin S64x16x32x512.rank)
  reducesTo_S64x16x32x512_S_d0_1_2_3 : S64x16x32x512.ReducesTo [0, 1, 2, 3] S_
  h_S_ : 0 < S_.numel
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S1 .f32) (main_arg6 : FVec F S1x32 .f32) (main_arg7 : FVec F S32 .f32) (main_arg8 : FVec F S32x1 .f32) (main_arg9 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x32 .f32 := Host.absf main_arg6
  let main_cst_8 : FVec F S_ .f32 := constant S_ .f32 0x7F800000#32
  let main_v25 : FVec F S1x32 .f32 := broadcastInDim S1x32 ![] bcast_S_S1x32 main_cst_8
  let main_v26 : IVec S1x32 1 := cmpf .olt main_v24 main_v25
  let main_c_9 : IVec S_ 1 := constantI S_ 1 1#1
  let main_v27 : IVec S_ 1 := (fun x v => Host.reduce IntOp.andi x v reducesTo_S1x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S64x16x32x512 .f32) (main_arg1 : FVec F S64x16x32x512 .f32) (main_arg2 : FVec F S64x16x32x512 .f32) (main_arg3 : IVec S2x524288 32) (main_arg4 : FVec F S32x1 .f32) (main_arg5 : FVec F S1 .f32) (main_arg6 : FVec F S1x32 .f32) (main_arg7 : FVec F S32 .f32) (main_arg8 : FVec F S32x1 .f32) (main_arg9 : FVec F S1 .f32) : IVec S_ 1 :=
  let main_v0 : FVec F S64x16x32x512 .f32 := Host.absf main_arg0
  let main_cst : FVec F S_ .f32 := constant S_ .f32 0x7F800000#32
  let main_v1 : FVec F S64x16x32x512 .f32 := broadcastInDim S64x16x32x512 ![] bcast_S_S64x16x32x512 main_cst
  let main_v2 : IVec S64x16x32x512 1 := cmpf .olt main_v0 main_v1
  let main_c : IVec S_ 1 := constantI S_ 1 1#1
  let main_v3 : IVec S_ 1 := (fun x v => Host.reduce IntOp.andi x v reducesTo_S64x16x32x512_S_d0_1_2_3 h_S_) main_v2 main_c
  let main_v4 : FVec F S64x16x32x512 .f32 := Host.absf main_arg1
  let main_cst_0 : FVec F S_ .f32 := constant S_ .f32 0x7F800000#32
  let main_v5 : FVec F S64x16x32x512 .f32 := broadcastInDim S64x16x32x512 ![] bcast_S_S64x16x32x512 main_cst_0
  let main_v6 : IVec S64x16x32x512 1 := cmpf .olt main_v4 main_v5
  let main_c_1 : IVec S_ 1 := constantI S_ 1 1#1
  let main_v7 : IVec S_ 1 := (fun x v => Host.reduce IntOp.andi x v reducesTo_S64x16x32x512_S_d0_1_2_3 h_S_) main_v6 main_c_1
  let main_v8 : IVec S_ 1 := andi main_v3 main_v7
  let main_v9 : FVec F S64x16x32x512 .f32 := Host.absf main_arg2
  let main_cst_2 : FVec F S_ .f32 := constant S_ .f32 0x7F800000#32
  let main_v10 : FVec F S64x16x32x512 .f32 := broadcastInDim S64x16x32x512 ![] bcast_S_S64x16x32x512 main_cst_2
  let main_v11 : IVec S64x16x32x512 1 := cmpf .olt main_v9 main_v10
  let main_c_3 : IVec S_ 1 := constantI S_ 1 1#1
  let main_v12 : IVec S_ 1 := (fun x v => Host.reduce IntOp.andi x v reducesTo_S64x16x32x512_S_d0_1_2_3 h_S_) main_v11 main_c_3
  let main_v13 : IVec S_ 1 := andi main_v8 main_v12
  let main_v14 : FVec F S32x1 .f32 := Host.absf main_arg4
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg5 main_arg6 main_arg7 main_arg8 main_arg9 main_v13 main_v16
-- ==== Kernel.lean ====
abbrev S64x16x32x512 : Shape := ⟨4, ![64, 16, 32, 512]⟩
abbrev S2x524288 : Shape := ⟨2, ![2, 524288]⟩
abbrev S32x1 : Shape := ⟨2, ![32, 1]⟩
abbrev S1 : Shape := ⟨1, ![1]⟩
abbrev S1x32 : Shape := ⟨2, ![1, 32]⟩
abbrev S32 : Shape := ⟨1, ![32]⟩
abbrev S1x524288 : Shape := ⟨2, ![1, 524288]⟩
abbrev S524288 : Shape := ⟨1, ![524288]⟩
abbrev S_ : Shape := ⟨0, ![]⟩
abbrev S32768 : Shape := ⟨1, ![32768]⟩
abbrev S524288x1 : Shape := ⟨2, ![524288, 1]⟩
abbrev S4096 : Shape := ⟨1, ![4096]⟩
abbrev S1024x32x512 : Shape := ⟨3, ![1024, 32, 512]⟩
abbrev S1024x32x1 : Shape := ⟨3, ![1024, 32, 1]⟩
abbrev S64x32x512 : Shape := ⟨3, ![64, 32, 512]⟩
abbrev S64x32x1 : Shape := ⟨3, ![64, 32, 1]⟩
abbrev S1x32x1 : Shape := ⟨3, ![1, 32, 1]⟩
abbrev S64x512 : Shape := ⟨2, ![64, 512]⟩
abbrev S64x1x512 : Shape := ⟨3, ![64, 1, 512]⟩
abbrev S64x32 : Shape := ⟨2, ![64, 32]⟩
abbrev S32768x1 : Shape := ⟨2, ![32768, 1]⟩
abbrev S4096x1 : Shape := ⟨2, ![4096, 1]⟩
abbrev S1x1 : Shape := ⟨2, ![1, 1]⟩
abbrev S32768x32 : Shape := ⟨2, ![32768, 32]⟩
abbrev S524288x32 : Shape := ⟨2, ![524288, 32]⟩
abbrev S4096x32 : Shape := ⟨2, ![4096, 32]⟩
abbrev S64x16x32x1 : Shape := ⟨4, ![64, 16, 32, 1]⟩

abbrev nBuf : Space → Nat
  | .hbm => 133
  | .vmem => 7
  | .smem => 0
  | _ => 0

abbrev hbmTy0_0 (i : Nat) : BufTy := match i % 128 with
  | 0 => ⟨S64x16x32x512, .f32⟩
  | 1 => ⟨S64x16x32x512, .f32⟩
  | 2 => ⟨S64x16x32x512, .f32⟩
  | 3 => ⟨S2x524288, .i32⟩
  | 4 => ⟨S32x1, .f32⟩
  | 5 => ⟨S1, .f32⟩
  | 6 => ⟨S1x32, .f32⟩
  | 7 => ⟨S32, .f32⟩
  | 8 => ⟨S32x1, .f32⟩
  | 9 => ⟨S1, .f32⟩
  | 10 => ⟨S1x524288, .i32⟩
  | 11 => ⟨S524288, .i32⟩
  | 12 => ⟨S1x524288, .i32⟩
  | 13 => ⟨S524288, .i32⟩
  | 14 => ⟨S_, .f32⟩
  | 15 => ⟨S524288, .f32⟩
  | 16 => ⟨S_, .f32⟩
  | 17 => ⟨S32768, .f32⟩
  | 18 => ⟨S524288x1, .i32⟩
  | 19 => ⟨S32768, .f32⟩
  | 20 => ⟨S_, .f32⟩
  | 21 => ⟨S32768, .f32⟩
  | 22 => ⟨S32768, .i1⟩
  | 23 => ⟨S_, .f32⟩
  | 24 => ⟨S32768, .f32⟩
  | 25 => ⟨S32768, .f32⟩
  | 26 => ⟨S_, .f32⟩
  | 27 => ⟨S_, .f32⟩
  | 28 => ⟨S32768, .f32⟩
  | 29 => ⟨S32768, .f32⟩
  | 30 => ⟨S_, .f32⟩
  | 31 => ⟨S4096, .f32⟩
  | 32 => ⟨S524288x1, .i32⟩
  | 33 => ⟨S4096, .f32⟩
  | 34 => ⟨S_, .f32⟩
  | 35 => ⟨S4096, .f32⟩
  | 36 => ⟨S4096, .i1⟩
  | 37 => ⟨S_, .f32⟩
  | 38 => ⟨S4096, .f32⟩
  | 39 => ⟨S4096, .f32⟩
  | 40 => ⟨S_, .f32⟩
  | 41 => ⟨S_, .f32⟩
  | 42 => ⟨S4096, .f32⟩
  | 43 => ⟨S4096, .f32⟩
  | 44 => ⟨S1024x32x512, .f32⟩
  | 45 => ⟨S1024x32x512, .f32⟩
  | 46 => ⟨S1024x32x1, .f32⟩
  | 47 => ⟨S32768x1, .f32⟩
  | 48 => ⟨S4096x1, .f32⟩
  | 49 => ⟨S_, .i32⟩
  | 50 => ⟨S524288, .i32⟩
  | 51 => ⟨S524288, .i1⟩
  | 52 => ⟨S_, .i32⟩
  | 53 => ⟨S524288, .i32⟩
  | 54 => ⟨S524288, .i32⟩
  | 55 => ⟨S524288, .i32⟩
  | 56 => ⟨S524288x1, .i32⟩
  | 57 => ⟨S524288x1, .f32⟩
  | 58 => ⟨S_, .f32⟩
  | 59 => ⟨S4096x1, .f32⟩
  | 60 => ⟨S524288x1, .i32⟩
  | 61 => ⟨S4096x1, .f32⟩
  | 62 => ⟨S4096x1, .f32⟩
  | 63 => ⟨S32768x1, .f32⟩
  | 64 => ⟨S_, .i32⟩
  | 65 => ⟨S524288, .i32⟩
  | 66 => ⟨S524288, .i1⟩
  | 67 => ⟨S_, .i32⟩
  | 68 => ⟨S524288, .i32⟩
  | 69 => ⟨S524288, .i32⟩
  | 70 => ⟨S524288, .i32⟩
  | 71 => ⟨S524288x1, .i32⟩
  | 72 => ⟨S524288x1, .f32⟩
  | 73 => ⟨S_, .f32⟩
  | 74 => ⟨S32768x1, .f32⟩
  | 75 => ⟨S524288x1, .i32⟩
  | 76 => ⟨S32768x1, .f32⟩
  | 77 => ⟨S32768x1, .f32⟩
  | 78 => ⟨S1x1, .f32⟩
  | 79 => ⟨S32768x1, .f32⟩
  | 80 => ⟨S32768x1, .f32⟩
  | 81 => ⟨S_, .f32⟩
  | 82 => ⟨S32768x1, .f32⟩
  | 83 => ⟨S32768x1, .f32⟩
  | 84 => ⟨S32768x32, .f32⟩
  | 85 => ⟨S4096x1, .f32⟩
  | 86 => ⟨S_, .i32⟩
  | 87 => ⟨S524288, .i32⟩
  | 88 => ⟨S524288, .i1⟩
  | 89 => ⟨S_, .i32⟩
  | 90 => ⟨S524288, .i32⟩
  | 91 => ⟨S524288, .i32⟩
  | 92 => ⟨S524288, .i32⟩
  | 93 => ⟨S524288x1, .i32⟩
  | 94 => ⟨S524288x32, .f32⟩
  | 95 => ⟨S_, .f32⟩
  | 96 => ⟨S4096x32, .f32⟩
  | 97 => ⟨S524288x1, .i32⟩
  | 98 => ⟨S4096x32, .f32⟩
  | 99 => ⟨S4096x32, .f32⟩
  | 100 => ⟨S4096x32, .f32⟩
  | 101 => ⟨S32768x1, .f32⟩
  | 102 => ⟨S_, .i32⟩
  | 103 => ⟨S524288, .i32⟩
  | 104 => ⟨S524288, .i1⟩
  | 105 => ⟨S_, .i32⟩
  | 106 => ⟨S524288, .i32⟩
  | 107 => ⟨S524288, .i32⟩
  | 108 => ⟨S524288, .i32⟩
  | 109 => ⟨S524288x1, .i32⟩
  | 110 => ⟨S524288x32, .f32⟩
  | 111 => ⟨S_, .f32⟩
  | 112 => ⟨S32768x32, .f32⟩
  | 113 => ⟨S524288x1, .i32⟩
  | 114 => ⟨S32768x32, .f32⟩
  | 115 => ⟨S32768x32, .f32⟩
  | 116 => ⟨S32768x32, .f32⟩
  | 117 => ⟨S1x32, .f32⟩
  | 118 => ⟨S32768x32, .f32⟩
  | 119 => ⟨S32768x32, .f32⟩
  | 120 => ⟨S32768x1, .f32⟩
  | 121 => ⟨S1x1, .f32⟩
  | 122 => ⟨S32768x1, .f32⟩
  | 123 => ⟨S32768x1, .f32⟩
  | 124 => ⟨S_, .f32⟩
  | 125 => ⟨S_, .f32⟩
  | 126 => ⟨S32768x1, .f32⟩
  | 127 => ⟨S32768x1, .i1⟩
  | _ => ⟨S64x16x32x512, .f32⟩

abbrev hbmTy0_1 (i : Nat) : BufTy := match i % 128 with
  | 0 => ⟨S_, .f32⟩
  | 1 => ⟨S32768x1, .f32⟩
  | 2 => ⟨S32768x1, .f32⟩
  | 3 => ⟨S32768x1, .f32⟩
  | 4 => ⟨S64x16x32x1, .f32⟩
  | _ => ⟨S64x16x32x512, .f32⟩

abbrev hbmTy (i : Nat) : BufTy := match i / 128 with
  | 0 => hbmTy0_0 i
  | 1 => hbmTy0_1 i
  | _ => ⟨S64x16x32x512, .f32⟩

abbrev bufTy : (tb : Table) → Fin (tcTables nBuf tb) → BufTy
  | .hbm, ⟨i, _⟩ => hbmTy i
  | .local _ .vmem, ⟨0, _⟩ => ⟨S64x32x512, .f32⟩
  | .local _ .vmem, ⟨1, _⟩ => ⟨S64x32x512, .f32⟩
  | .local _ .vmem, ⟨2, _⟩ => ⟨S64x32x512, .f32⟩
  | .local _ .vmem, ⟨3, _⟩ => ⟨S64x32x512, .f32⟩
  | .local _ .vmem, ⟨4, _⟩ => ⟨S32x1, .f32⟩
  | .local _ .vmem, ⟨5, _⟩ => ⟨S64x32x1, .f32⟩
  | .local _ .vmem, ⟨6, _⟩ => ⟨S64x32x1, .f32⟩
  | _, _ => ⟨S64x16x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_v27 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_10 : Ref sig .tc := ⟨.hbm, 64, rfl⟩
abbrev main_v38 : Ref sig .tc := ⟨.hbm, 65, rfl⟩
abbrev main_v39 : Ref sig .tc := ⟨.hbm, 66, rfl⟩
abbrev main_c_11 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_12 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_cst : Ref sig .tc := ⟨.hbm, 81, rfl⟩
abbrev main_call2_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_13 : Ref sig .tc := ⟨.hbm, 86, rfl⟩
abbrev main_v55 : Ref sig .tc := ⟨.hbm, 87, rfl⟩
abbrev main_v56 : Ref sig .tc := ⟨.hbm, 88, rfl⟩
abbrev main_c_14 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_15 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_16 : Ref sig .tc := ⟨.hbm, 102, rfl⟩
abbrev main_v68 : Ref sig .tc := ⟨.hbm, 103, rfl⟩
abbrev main_v69 : Ref sig .tc := ⟨.hbm, 104, rfl⟩
abbrev main_c_17 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_18 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_19 : Ref sig .tc := ⟨.hbm, 124, rfl⟩
abbrev main_call3_cst : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_v87 : Ref sig .tc := ⟨.hbm, 131, rfl⟩
abbrev main_v88 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S32768 : S_.BroadcastsInDim S32768 (![] : Fin 0 → Fin S32768.rank)
  bcast_S524288_S524288x1_0 : S524288.BroadcastsInDim S524288x1 (![0] : Fin 1 → Fin S524288x1.rank)
  bcast_S_S4096 : S_.BroadcastsInDim S4096 (![] : Fin 0 → Fin S4096.rank)
  shapeCasts_S64x16x32x512_S1024x32x512 : S64x16x32x512.ShapeCasts S1024x32x512
  inb_S64x32x512_S64x32x512_0_0_0 : ∀ a, (![0, 0, 0] : Fin 3 → Nat) a + S64x32x512.size a ≤ S64x32x512.size a
  h_S64x32x512 : 0 < S64x32x512.numel
  shapeCasts_S64x32x512_S64x32x512 : S64x32x512.ShapeCasts S64x32x512
  inb_S32x1_S32x1_0_0 : ∀ a, (![0, 0] : Fin 2 → Nat) a + S32x1.size a ≤ S32x1.size a
  h_S32x1 : 0 < S32x1.numel
  shapeCasts_S32x1_S1x32x1 : S32x1.ShapeCasts S1x32x1
  broadcasts_S1x32x1_S64x32x512 : S1x32x1.Broadcasts S64x32x512
  reduces_S64x32x512_S64x512 : S64x32x512.Reduces [1] S64x512
  shapeCasts_S64x512_S64x1x512 : S64x512.ShapeCasts S64x1x512
  broadcasts_S64x1x512_S64x32x512 : S64x1x512.Broadcasts S64x32x512
  reduces_S64x32x512_S64x32 : S64x32x512.Reduces [2] S64x32
  shapeCasts_S64x32_S64x32x1 : S64x32.ShapeCasts S64x32x1
  inb_S64x32x1_S64x32x1_0_0_0 : ∀ a, (![0, 0, 0] : Fin 3 → Nat) a + S64x32x1.size a ≤ S64x32x1.size a
  h_S64x32x1 : 0 < S64x32x1.numel
  shapeCasts_S1024x32x1_S32768x1 : S1024x32x1.ShapeCasts S32768x1
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S4096x32 : S_.BroadcastsInDim S4096x32 (![] : Fin 0 → Fin S4096x32.rank)
  bcast_S4096x1_S4096x32_0_1 : S4096x1.BroadcastsInDim S4096x32 (![0, 1] : Fin 2 → Fin S4096x32.rank)
  bcast_S_S32768x32 : S_.BroadcastsInDim S32768x32 (![] : Fin 0 → Fin S32768x32.rank)
  bcast_S32768x1_S32768x32_0_1 : S32768x1.BroadcastsInDim S32768x32 (![0, 1] : Fin 2 → Fin S32768x32.rank)
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  shapeCasts_S32768x1_S64x16x32x1 : S32768x1.ShapeCasts S64x16x32x1
  scatter_S32768_S524288x1_S524288_n_0_0_1_wf : ScatterDims.WF S32768 S524288x1 S524288 [] [0] [0] 1
  scatter_S4096_S524288x1_S524288_n_0_0_1_wf : ScatterDims.WF S4096 S524288x1 S524288 [] [0] [0] 1
  gather_S32768x1_S524288x1_S524288x1_1_0_n_n_0_1_11_wf : GatherDims.WF S32768x1 S524288x1 S524288x1 [1] [0] [] [0] [] 1 ![1, 1]
  scatter_S4096x1_S524288x1_S524288x1_1_0_0_1_wf : ScatterDims.WF S4096x1 S524288x1 S524288x1 [1] [0] [0] 1
  gather_S4096x1_S524288x1_S524288x1_1_0_n_n_0_1_11_wf : GatherDims.WF S4096x1 S524288x1 S524288x1 [1] [0] [] [0] [] 1 ![1, 1]
  scatter_S32768x1_S524288x1_S524288x1_1_0_0_1_wf : ScatterDims.WF S32768x1 S524288x1 S524288x1 [1] [0] [0] 1
  dot_S32768x1_S1x32_S32768x32_1_0_0_1_n_n_wf : DotDims.WF S32768x1 S1x32 S32768x32 [1] [0] [0] [1] [] []
  gather_S32768x32_S524288x1_S524288x32_1_0_n_n_0_1_132_wf : GatherDims.WF S32768x32 S524288x1 S524288x32 [1] [0] [] [0] [] 1 ![1, 32]
  scatter_S4096x32_S524288x1_S524288x32_1_0_0_1_wf : ScatterDims.WF S4096x32 S524288x1 S524288x32 [1] [0] [0] 1
  gather_S4096x32_S524288x1_S524288x32_1_0_n_n_0_1_132_wf : GatherDims.WF S4096x32 S524288x1 S524288x32 [1] [0] [] [0] [] 1 ![1, 32]
  scatter_S32768x32_S524288x1_S524288x32_1_0_0_1_wf : ScatterDims.WF S32768x32 S524288x1 S524288x32 [1] [0] [0] 1
  dot_S32768x32_S32x1_S32768x1_1_0_0_1_n_n_wf : DotDims.WF S32768x32 S32x1 S32768x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x512.size a ≤ S1024x32x512.size a
  hwx0_0 : ∀ i : grid0.Coords, EltTy.bits .f32 = 32 ∨ (Rect.block (s := S1024x32x512) S64x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32x512.size a ≤ S1024x32x512.size a
  hwx0_1 : ∀ i : grid0.Coords, EltTy.bits .f32 = 32 ∨ (Rect.block (s := S1024x32x512) S64x32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x32x1.size a ≤ S1024x32x1.size a
  hwx0_3 : ∀ i : grid0.Coords, EltTy.bits .f32 = 32 ∨ (Rect.block (s := S1024x32x1) S64x32x1.size (cc0_transform_3 i) (hinb0_3 i)).WholeWords (EltTy.packing .f32)

variable [Facts₀]

def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf
def scatter_S4096_S524288x1_S524288_n_0_0_1 : ScatterDims S4096 S524288x1 S524288 where
  updateWindowDims := []
  insertedWindowDims := [0]
  scatterDimsToOperandDims := [0]
  indexVectorDim := 1
  wf := scatter_S4096_S524288x1_S524288_n_0_0_1_wf
def gather_S32768x1_S524288x1_S524288x1_1_0_n_n_0_1_11 : GatherDims S32768x1 S524288x1 S524288x1 where
  offsetDims := [1]
  collapsedSliceDims := [0]
  operandBatchingDims := []
  startIndicesBatchingDims := []
  startIndexMap := [0]
  indexVectorDim := 1
  sliceSizes := ![1, 1]
  wf := gather_S32768x1_S524288x1_S524288x1_1_0_n_n_0_1_11_wf
def scatter_S4096x1_S524288x1_S524288x1_1_0_0_1 : ScatterDims S4096x1 S524288x1 S524288x1 where
  updateWindowDims := [1]
  insertedWindowDims := [0]
  scatterDimsToOperandDims := [0]
  indexVectorDim := 1
  wf := scatter_S4096x1_S524288x1_S524288x1_1_0_0_1_wf
def gather_S4096x1_S524288x1_S524288x1_1_0_n_n_0_1_11 : GatherDims S4096x1 S524288x1 S524288x1 where
  offsetDims := [1]
  collapsedSliceDims := [0]
  operandBatchingDims := []
  startIndicesBatchingDims := []
  startIndexMap := [0]
  indexVectorDim := 1
  sliceSizes := ![1, 1]
  wf := gather_S4096x1_S524288x1_S524288x1_1_0_n_n_0_1_11_wf
def scatter_S32768x1_S524288x1_S524288x1_1_0_0_1 : ScatterDims S32768x1 S524288x1 S524288x1 where
  updateWindowDims := [1]
  insertedWindowDims := [0]
  scatterDimsToOperandDims := [0]
  indexVectorDim := 1
  wf := scatter_S32768x1_S524288x1_S524288x1_1_0_0_1_wf
def dot_S32768x1_S1x32_S32768x32_1_0_0_1_n_n : DotDims S32768x1 S1x32 S32768x32 where
  lhsContracting := [1]
  rhsContracting := [0]
  lhsNonContracting := [0]
  rhsNonContracting := [1]
  lhsBatch := []
  rhsBatch := []
  wf := dot_S32768x1_S1x32_S32768x32_1_0_0_1_n_n_wf
def gather_S32768x32_S524288x1_S524288x32_1_0_n_n_0_1_132 : GatherDims S32768x32 S524288x1 S524288x32 where
  offsetDims := [1]
  collapsedSliceDims := [0]
  operandBatchingDims := []
  startIndicesBatchingDims := []
  startIndexMap := [0]
  indexVectorDim := 1
  sliceSizes := ![1, 32]
  wf := gather_S32768x32_S524288x1_S524288x32_1_0_n_n_0_1_132_wf
def scatter_S4096x32_S524288x1_S524288x32_1_0_0_1 : ScatterDims S4096x32 S524288x1 S524288x32 where
  updateWindowDims := [1]
  insertedWindowDims := [0]
  scatterDimsToOperandDims := [0]
  indexVectorDim := 1
  wf := scatter_S4096x32_S524288x1_S524288x32_1_0_0_1_wf
def gather_S4096x32_S524288x1_S524288x32_1_0_n_n_0_1_132 : GatherDims S4096x32 S524288x1 S524288x32 where
  offsetDims := [1]
  collapsedSliceDims := [0]
  operandBatchingDims := []
  startIndicesBatchingDims := []
  startIndexMap := [0]
  indexVectorDim := 1
  sliceSizes := ![1, 32]
  wf := gather_S4096x32_S524288x1_S524288x32_1_0_n_n_0_1_132_wf
def scatter_S32768x32_S524288x1_S524288x32_1_0_0_1 : ScatterDims S32768x32 S524288x1 S524288x32 where
  updateWindowDims := [1]
  insertedWindowDims := [0]
  scatterDimsToOperandDims := [0]
  indexVectorDim := 1
  wf := scatter_S32768x32_S524288x1_S524288x32_1_0_0_1_wf
def dot_S32768x32_S32x1_S32768x1_1_0_0_1_n_n : DotDims S32768x32 S32x1 S32768x1 where
  lhsContracting := [1]
  rhsContracting := [0]
  lhsNonContracting := [0]
  rhsNonContracting := [1]
  lhsBatch := []
  rhsBatch := []
  wf := dot_S32768x32_S32x1_S32768x1_1_0_0_1_n_n_wf

abbrev win0_0 : Pipeline.Window sig grid0 :=
  Pipeline.Window.ofSpec (Memref.whole main_v21) S64x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S64x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x32x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x16x32x512 : Shape := ⟨4, ![64, 16, 32, 512]⟩
abbrev S2x524288 : Shape := ⟨2, ![2, 524288]⟩
abbrev S32x1 : Shape := ⟨2, ![32, 1]⟩
abbrev S1 : Shape := ⟨1, ![1]⟩
abbrev S1x32 : Shape := ⟨2, ![1, 32]⟩
abbrev S32 : Shape := ⟨1, ![32]⟩
abbrev S_ : Shape := ⟨0, ![]⟩
abbrev S64x16x32x32 : Shape := ⟨4, ![64, 16, 32, 32]⟩
abbrev S32768x32 : Shape := ⟨2, ![32768, 32]⟩
abbrev S1x524288 : Shape := ⟨2, ![1, 524288]⟩
abbrev S524288 : Shape := ⟨1, ![524288]⟩
abbrev S32768x1 : Shape := ⟨2, ![32768, 1]⟩
abbrev S32768 : Shape := ⟨1, ![32768]⟩
abbrev S524288x1 : Shape := ⟨2, ![524288, 1]⟩
abbrev S4096 : Shape := ⟨1, ![4096]⟩
abbrev S4096x1 : Shape := ⟨2, ![4096, 1]⟩
abbrev S1x1 : Shape := ⟨2, ![1, 1]⟩
abbrev S524288x32 : Shape := ⟨2, ![524288, 32]⟩
abbrev S4096x32 : Shape := ⟨2, ![4096, 32]⟩
abbrev S64x16x32x1 : Shape := ⟨4, ![64, 16, 32, 1]⟩

abbrev nBuf : Space → Nat
  | .hbm => 165
  | .vmem => 0
  | .smem => 0
  | _ => 0

abbrev hbmTy0_0 (i : Nat) : BufTy := match i % 128 with
  | 0 => ⟨S64x16x32x512, .f32⟩
  | 1 => ⟨S64x16x32x512, .f32⟩
  | 2 => ⟨S64x16x32x512, .f32⟩
  | 3 => ⟨S2x524288, .i32⟩
  | 4 => ⟨S32x1, .f32⟩
  | 5 => ⟨S1, .f32⟩
  | 6 => ⟨S1x32, .f32⟩
  | 7 => ⟨S32, .f32⟩
  | 8 => ⟨S32x1, .f32⟩
  | 9 => ⟨S1, .f32⟩
  | 10 => ⟨S_, .f32⟩
  | 11 => ⟨S64x16x32x512, .f32⟩
  | 12 => ⟨S64x16x32x512, .f32⟩
  | 13 => ⟨S64x16x32x32, .f32⟩
  | 14 => ⟨S32768x32, .f32⟩
  | 15 => ⟨S1x524288, .i32⟩
  | 16 => ⟨S524288, .i32⟩
  | 17 => ⟨S1x524288, .i32⟩
  | 18 => ⟨S524288, .i32⟩
  | 19 => ⟨S32768x1, .f32⟩
  | 20 => ⟨S_, .f32⟩
  | 21 => ⟨S524288, .f32⟩
  | 22 => ⟨S_, .f32⟩
  | 23 => ⟨S32768, .f32⟩
  | 24 => ⟨S524288x1, .i32⟩
  | 25 => ⟨S32768, .f32⟩
  | 26 => ⟨S_, .f32⟩
  | 27 => ⟨S32768, .f32⟩
  | 28 => ⟨S32768, .i1⟩
  | 29 => ⟨S_, .f32⟩
  | 30 => ⟨S32768, .f32⟩
  | 31 => ⟨S32768, .f32⟩
  | 32 => ⟨S_, .f32⟩
  | 33 => ⟨S_, .f32⟩
  | 34 => ⟨S32768, .f32⟩
  | 35 => ⟨S32768, .f32⟩
  | 36 => ⟨S_, .f32⟩
  | 37 => ⟨S4096, .f32⟩
  | 38 => ⟨S524288x1, .i32⟩
  | 39 => ⟨S4096, .f32⟩
  | 40 => ⟨S_, .f32⟩
  | 41 => ⟨S4096, .f32⟩
  | 42 => ⟨S4096, .i1⟩
  | 43 => ⟨S_, .f32⟩
  | 44 => ⟨S4096, .f32⟩
  | 45 => ⟨S4096, .f32⟩
  | 46 => ⟨S_, .f32⟩
  | 47 => ⟨S_, .f32⟩
  | 48 => ⟨S4096, .f32⟩
  | 49 => ⟨S4096, .f32⟩
  | 50 => ⟨S4096x1, .f32⟩
  | 51 => ⟨S_, .i32⟩
  | 52 => ⟨S524288, .i32⟩
  | 53 => ⟨S524288, .i1⟩
  | 54 => ⟨S_, .i32⟩
  | 55 => ⟨S524288, .i32⟩
  | 56 => ⟨S524288, .i32⟩
  | 57 => ⟨S524288, .i32⟩
  | 58 => ⟨S524288x1, .i32⟩
  | 59 => ⟨S524288x1, .f32⟩
  | 60 => ⟨S_, .f32⟩
  | 61 => ⟨S4096x1, .f32⟩
  | 62 => ⟨S524288x1, .i32⟩
  | 63 => ⟨S4096x1, .f32⟩
  | 64 => ⟨S4096x1, .f32⟩
  | 65 => ⟨S32768x1, .f32⟩
  | 66 => ⟨S_, .i32⟩
  | 67 => ⟨S524288, .i32⟩
  | 68 => ⟨S524288, .i1⟩
  | 69 => ⟨S_, .i32⟩
  | 70 => ⟨S524288, .i32⟩
  | 71 => ⟨S524288, .i32⟩
  | 72 => ⟨S524288, .i32⟩
  | 73 => ⟨S524288x1, .i32⟩
  | 74 => ⟨S524288x1, .f32⟩
  | 75 => ⟨S_, .f32⟩
  | 76 => ⟨S32768x1, .f32⟩
  | 77 => ⟨S524288x1, .i32⟩
  | 78 => ⟨S32768x1, .f32⟩
  | 79 => ⟨S32768x1, .f32⟩
  | 80 => ⟨S1x1, .f32⟩
  | 81 => ⟨S32768x1, .f32⟩
  | 82 => ⟨S32768x1, .f32⟩
  | 83 => ⟨S_, .f32⟩
  | 84 => ⟨S32768x1, .f32⟩
  | 85 => ⟨S32768x1, .f32⟩
  | 86 => ⟨S32768x32, .f32⟩
  | 87 => ⟨S_, .f32⟩
  | 88 => ⟨S524288, .f32⟩
  | 89 => ⟨S_, .f32⟩
  | 90 => ⟨S32768, .f32⟩
  | 91 => ⟨S524288x1, .i32⟩
  | 92 => ⟨S32768, .f32⟩
  | 93 => ⟨S_, .f32⟩
  | 94 => ⟨S32768, .f32⟩
  | 95 => ⟨S32768, .i1⟩
  | 96 => ⟨S_, .f32⟩
  | 97 => ⟨S32768, .f32⟩
  | 98 => ⟨S32768, .f32⟩
  | 99 => ⟨S_, .f32⟩
  | 100 => ⟨S_, .f32⟩
  | 101 => ⟨S32768, .f32⟩
  | 102 => ⟨S32768, .f32⟩
  | 103 => ⟨S_, .f32⟩
  | 104 => ⟨S4096, .f32⟩
  | 105 => ⟨S524288x1, .i32⟩
  | 106 => ⟨S4096, .f32⟩
  | 107 => ⟨S_, .f32⟩
  | 108 => ⟨S4096, .f32⟩
  | 109 => ⟨S4096, .i1⟩
  | 110 => ⟨S_, .f32⟩
  | 111 => ⟨S4096, .f32⟩
  | 112 => ⟨S4096, .f32⟩
  | 113 => ⟨S_, .f32⟩
  | 114 => ⟨S_, .f32⟩
  | 115 => ⟨S4096, .f32⟩
  | 116 => ⟨S4096, .f32⟩
  | 117 => ⟨S4096x1, .f32⟩
  | 118 => ⟨S_, .i32⟩
  | 119 => ⟨S524288, .i32⟩
  | 120 => ⟨S524288, .i1⟩
  | 121 => ⟨S_, .i32⟩
  | 122 => ⟨S524288, .i32⟩
  | 123 => ⟨S524288, .i32⟩
  | 124 => ⟨S524288, .i32⟩
  | 125 => ⟨S524288x1, .i32⟩
  | 126 => ⟨S524288x32, .f32⟩
  | 127 => ⟨S_, .f32⟩
  | _ => ⟨S64x16x32x512, .f32⟩

abbrev hbmTy0_1 (i : Nat) : BufTy := match i % 128 with
  | 0 => ⟨S4096x32, .f32⟩
  | 1 => ⟨S524288x1, .i32⟩
  | 2 => ⟨S4096x32, .f32⟩
  | 3 => ⟨S4096x32, .f32⟩
  | 4 => ⟨S4096x32, .f32⟩
  | 5 => ⟨S32768x1, .f32⟩
  | 6 => ⟨S_, .i32⟩
  | 7 => ⟨S524288, .i32⟩
  | 8 => ⟨S524288, .i1⟩
  | 9 => ⟨S_, .i32⟩
  | 10 => ⟨S524288, .i32⟩
  | 11 => ⟨S524288, .i32⟩
  | 12 => ⟨S524288, .i32⟩
  | 13 => ⟨S524288x1, .i32⟩
  | 14 => ⟨S524288x32, .f32⟩
  | 15 => ⟨S_, .f32⟩
  | 16 => ⟨S32768x32, .f32⟩
  | 17 => ⟨S524288x1, .i32⟩
  | 18 => ⟨S32768x32, .f32⟩
  | 19 => ⟨S32768x32, .f32⟩
  | 20 => ⟨S32768x32, .f32⟩
  | 21 => ⟨S1x32, .f32⟩
  | 22 => ⟨S32768x32, .f32⟩
  | 23 => ⟨S32768x32, .f32⟩
  | 24 => ⟨S32768x1, .f32⟩
  | 25 => ⟨S1x1, .f32⟩
  | 26 => ⟨S32768x1, .f32⟩
  | 27 => ⟨S32768x1, .f32⟩
  | 28 => ⟨S_, .f32⟩
  | 29 => ⟨S_, .f32⟩
  | 30 => ⟨S32768x1, .f32⟩
  | 31 => ⟨S32768x1, .i1⟩
  | 32 => ⟨S_, .f32⟩
  | 33 => ⟨S32768x1, .f32⟩
  | 34 => ⟨S32768x1, .f32⟩
  | 35 => ⟨S32768x1, .f32⟩
  | 36 => ⟨S64x16x32x1, .f32⟩
  | _ => ⟨S64x16x32x512, .f32⟩

abbrev hbmTy (i : Nat) : BufTy := match i / 128 with
  | 0 => hbmTy0_0 i
  | 1 => hbmTy0_1 i
  | _ => ⟨S64x16x32x512, .f32⟩

abbrev bufTy : (tb : Table) → Fin (tcTables nBuf tb) → BufTy
  | .hbm, ⟨i, _⟩ => hbmTy i
  | _, _ => ⟨S64x16x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_cst_8 : Ref sig .tc := ⟨.hbm, 46, rfl⟩
abbrev main_call1_v0 : Ref sig .tc := ⟨.hbm, 47, rfl⟩
abbrev main_call1_v1 : Ref sig .tc := ⟨.hbm, 48, rfl⟩
abbrev main_v25 : Ref sig .tc := ⟨.hbm, 49, rfl⟩
abbrev main_v26 : Ref sig .tc := ⟨.hbm, 50, rfl⟩
abbrev main_c : Ref sig .tc := ⟨.hbm, 51, rfl⟩
abbrev main_v27 : Ref sig .tc := ⟨.hbm, 52, rfl⟩
abbrev main_v28 : Ref sig .tc := ⟨.hbm, 53, rfl⟩
abbrev main_c_9 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_10 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_11 : Ref sig .tc := ⟨.hbm, 66, rfl⟩
abbrev main_v39 : Ref sig .tc := ⟨.hbm, 67, rfl⟩
abbrev main_v40 : Ref sig .tc := ⟨.hbm, 68, rfl⟩
abbrev main_c_12 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_13 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call2_cst : Ref sig .tc := ⟨.hbm, 83, rfl⟩
abbrev main_call2_v0 : Ref sig .tc := ⟨.hbm, 84, rfl⟩
abbrev main_v53 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_cst_15 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_16 : Ref sig .tc := ⟨.hbm, 93, rfl⟩
abbrev main_v59 : Ref sig .tc := ⟨.hbm, 94, rfl⟩
abbrev main_v60 : Ref sig .tc := ⟨.hbm, 95, rfl⟩
abbrev main_cst_17 : Ref sig .tc := ⟨.hbm, 96, rfl⟩
abbrev main_v61 : Ref sig .tc := ⟨.hbm, 97, rfl⟩
abbrev main_v62 : Ref sig .tc := ⟨.hbm, 98, rfl⟩
abbrev main_cst_18 : Ref sig .tc := ⟨.hbm, 99, rfl⟩
abbrev main_call3_v0 : Ref sig .tc := ⟨.hbm, 100, rfl⟩
abbrev main_call3_v1 : Ref sig .tc := ⟨.hbm, 101, rfl⟩
abbrev main_v63 : Ref sig .tc := ⟨.hbm, 102, rfl⟩
abbrev main_cst_19 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_20 : Ref sig .tc := ⟨.hbm, 107, rfl⟩
abbrev main_v67 : Ref sig .tc := ⟨.hbm, 108, rfl⟩
abbrev main_v68 : Ref sig .tc := ⟨.hbm, 109, rfl⟩
abbrev main_cst_21 : Ref sig .tc := ⟨.hbm, 110, rfl⟩
abbrev main_v69 : Ref sig .tc := ⟨.hbm, 111, rfl⟩
abbrev main_v70 : Ref sig .tc := ⟨.hbm, 112, rfl⟩
abbrev main_cst_22 : Ref sig .tc := ⟨.hbm, 113, rfl⟩
abbrev main_call4_v0 : Ref sig .tc := ⟨.hbm, 114, rfl⟩
abbrev main_call4_v1 : Ref sig .tc := ⟨.hbm, 115, rfl⟩
abbrev main_v71 : Ref sig .tc := ⟨.hbm, 116, rfl⟩
abbrev main_v72 : Ref sig .tc := ⟨.hbm, 117, rfl⟩
abbrev main_c_23 : Ref sig .tc := ⟨.hbm, 118, rfl⟩
abbrev main_v73 : Ref sig .tc := ⟨.hbm, 119, rfl⟩
abbrev main_v74 : Ref sig .tc := ⟨.hbm, 120, rfl⟩
abbrev main_c_24 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_25 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_c_26 : Ref sig .tc := ⟨.hbm, 134, rfl⟩
abbrev main_v86 : Ref sig .tc := ⟨.hbm, 135, rfl⟩
abbrev main_v87 : Ref sig .tc := ⟨.hbm, 136, rfl⟩
abbrev main_c_27 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_28 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_29 : Ref sig .tc := ⟨.hbm, 156, rfl⟩
abbrev main_call5_cst : Ref sig .tc := ⟨.hbm, 157, rfl⟩
abbrev main_call5_v0 : Ref sig .tc := ⟨.hbm, 158, rfl⟩
abbrev main_call5_v1 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_v105 : Ref sig .tc := ⟨.hbm, 163, rfl⟩
abbrev main_v106 : Ref sig .tc := ⟨.hbm, 164, rfl⟩

abbrev nD : Nat := 1
abbrev τ : Topo := Topo.v7x

variable {F : FTy → Type} [FloatOps F]

class Facts₀ : Prop where
  bcast_S_S64x16x32x512 : S_.BroadcastsInDim S64x16x32x512 (![] : Fin 0 → Fin S64x16x32x512.rank)
  shapeCasts_S64x16x32x32_S32768x32 : S64x16x32x32.ShapeCasts S32768x32
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S32768 : S_.BroadcastsInDim S32768 (![] : Fin 0 → Fin S32768.rank)
  bcast_S524288_S524288x1_0 : S524288.BroadcastsInDim S524288x1 (![0] : Fin 1 → Fin S524288x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S4096x32 : S_.BroadcastsInDim S4096x32 (![] : Fin 0 → Fin S4096x32.rank)
  bcast_S4096x1_S4096x32_0_1 : S4096x1.BroadcastsInDim S4096x32 (![0, 1] : Fin 2 → Fin S4096x32.rank)
  bcast_S_S32768x32 : S_.BroadcastsInDim S32768x32 (![] : Fin 0 → Fin S32768x32.rank)
  bcast_S32768x1_S32768x32_0_1 : S32768x1.BroadcastsInDim S32768x32 (![0, 1] : Fin 2 → Fin S32768x32.rank)
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  shapeCasts_S32768x1_S64x16x32x1 : S32768x1.ShapeCasts S64x16x32x1
  dot_S64x16x32x512_S64x16x32x512_S64x16x32x32_3_3_2_2_01_01_wf : DotDims.WF S64x16x32x512 S64x16x32x512 S64x16x32x32 [3] [3] [2] [2] [0, 1] [0, 1]
  dot_S32768x32_S32x1_S32768x1_1_0_0_1_n_n_wf : DotDims.WF S32768x32 S32x1 S32768x1 [1] [0] [0] [1] [] []
  scatter_S32768_S524288x1_S524288_n_0_0_1_wf : ScatterDims.WF S32768 S524288x1 S524288 [] [0] [0] 1
  scatter_S4096_S524288x1_S524288_n_0_0_1_wf : ScatterDims.WF S4096 S524288x1 S524288 [] [0] [0] 1
  gather_S32768x1_S524288x1_S524288x1_1_0_n_n_0_1_11_wf : GatherDims.WF S32768x1 S524288x1 S524288x1 [1] [0] [] [0] [] 1 ![1, 1]
  scatter_S4096x1_S524288x1_S524288x1_1_0_0_1_wf : ScatterDims.WF S4096x1 S524288x1 S524288x1 [1] [0] [0] 1
  gather_S4096x1_S524288x1_S524288x1_1_0_n_n_0_1_11_wf : GatherDims.WF S4096x1 S524288x1 S524288x1 [1] [0] [] [0] [] 1 ![1, 1]
  scatter_S32768x1_S524288x1_S524288x1_1_0_0_1_wf : ScatterDims.WF S32768x1 S524288x1 S524288x1 [1] [0] [0] 1
  dot_S32768x1_S1x32_S32768x32_1_0_0_1_n_n_wf : DotDims.WF S32768x1 S1x32 S32768x32 [1] [0] [0] [1] [] []
  gather_S32768x32_S524288x1_S524288x32_1_0_n_n_0_1_132_wf : GatherDims.WF S32768x32 S524288x1 S524288x32 [1] [0] [] [0] [] 1 ![1, 32]
  scatter_S4096x32_S524288x1_S524288x32_1_0_0_1_wf : ScatterDims.WF S4096x32 S524288x1 S524288x32 [1] [0] [0] 1
  gather_S4096x32_S524288x1_S524288x32_1_0_n_n_0_1_132_wf : GatherDims.WF S4096x32 S524288x1 S524288x32 [1] [0] [] [0] [] 1 ![1, 32]
  scatter_S32768x32_S524288x1_S524288x32_1_0_0_1_wf : ScatterDims.WF S32768x32 S524288x1 S524288x32 [1] [0] [0] 1

variable [Facts₀]

def dot_S64x16x32x512_S64x16x32x512_S64x16x32x32_3_3_2_2_01_01 : DotDims S64x16x32x512 S64x16x32x512 S64x16x32x32 where
  lhsContracting := [3]
  rhsContracting := [3]
  lhsNonContracting := [2]
  rhsNonContracting := [2]
  lhsBatch := [0, 1]
  rhsBatch := [0, 1]
  wf := dot_S64x16x32x512_S64x16x32x512_S64x16x32x32_3_3_2_2_01_01_wf
def dot_S32768x32_S32x1_S32768x1_1_0_0_1_n_n : DotDims S32768x32 S32x1 S32768x1 where
  lhsContracting := [1]
  rhsContracting := [0]
  lhsNonContracting := [0]
  rhsNonContracting := [1]
  lhsBatch := []
  rhsBatch := []
  wf := dot_S32768x32_S32x1_S32768x1_1_0_0_1_n_n_wf
def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf
def scatter_S4096_S524288x1_S524288_n_0_0_1 : ScatterDims S4096 S524288x1 S524288 where
  updateWindowDims := []
  insertedWindowDims := [0]
  scatterDimsToOperandDims := [0]
  indexVectorDim := 1
  wf := scatter_S4096_S524288x1_S524288_n_0_0_1_wf
def gather_S32768x1_S524288x1_S524288x1_1_0_n_n_0_1_11 : GatherDims S32768x1 S524288x1 S524288x1 where
  offsetDims := [1]
  collapsedSliceDims := [0]
  operandBatchingDims := []
  startIndicesBatchingDims := []
  startIndexMap := [0]
  indexVectorDim := 1
  sliceSizes := ![1, 1]
  wf := gather_S32768x1_S524288x1_S524288x1_1_0_n_n_0_1_11_wf
def scatter_S4096x1_S524288x1_S524288x1_1_0_0_1 : ScatterDims S4096x1 S524288x1 S524288x1 where
  updateWindowDims := [1]
  insertedWindowDims := [0]
  scatterDimsToOperandDims := [0]
  indexVectorDim := 1
  wf := scatter_S4096x1_S524288x1_S524288x1_1_0_0_1_wf
def gather_S4096x1_S524288x1_S524288x1_1_0_n_n_0_1_11 : GatherDims S4096x1 S524288x1 S524288x1 where
  offsetDims := [1]
  collapsedSliceDims := [0]
  operandBatchingDims := []
  startIndicesBatchingDims := []
  startIndexMap := [0]
  indexVectorDim := 1
  sliceSizes := ![1, 1]
  wf := gather_S4096x1_S524288x1_S524288x1_1_0_n_n_0_1_11_wf
def scatter_S32768x1_S524288x1_S524288x1_1_0_0_1 : ScatterDims S32768x1 S524288x1 S524288x1 where
  updateWindowDims := [1]
  insertedWindowDims := [0]
  scatterDimsToOperandDims := [0]
  indexVectorDim := 1
  wf := scatter_S32768x1_S524288x1_S524288x1_1_0_0_1_wf
def dot_S32768x1_S1x32_S32768x32_1_0_0_1_n_n : DotDims S32768x1 S1x32 S32768x32 where
  lhsContracting := [1]
  rhsContracting := [0]
  lhsNonContracting := [0]
  rhsNonContracting := [1]
  lhsBatch := []
  rhsBatch := []
  wf := dot_S32768x1_S1x32_S32768x32_1_0_0_1_n_n_wf
def gather_S32768x32_S524288x1_S524288x32_1_0_n_n_0_1_132 : GatherDims S32768x32 S524288x1 S524288x32 where
  offsetDims := [1]
  collapsedSliceDims := [0]
  operandBatchingDims := []
  startIndicesBatchingDims := []
  startIndexMap := [0]
  indexVectorDim := 1
  sliceSizes := ![1, 32]
  wf := gather_S32768x32_S524288x1_S524288x32_1_0_n_n_0_1_132_wf
def scatter_S4096x32_S524288x1_S524288x32_1_0_0_1 : ScatterDims S4096x32 S524288x1 S524288x32 where
  updateWindowDims := [1]
  insertedWindowDims := [0]
  scatterDimsToOperandDims := [0]
  indexVectorDim := 1
  wf := scatter_S4096x32_S524288x1_S524288x32_1_0_0_1_wf
def gather_S4096x32_S524288x1_S524288x32_1_0_n_n_0_1_132 : GatherDims S4096x32 S524288x1 S524288x32 where
  offsetDims := [1]
  collapsedSliceDims := [0]
  operandBatchingDims := []
  startIndicesBatchingDims := []
  startIndexMap := [0]
  indexVectorDim := 1
  sliceSizes := ![1, 32]
  wf := gather_S4096x32_S524288x1_S524288x32_1_0_n_n_0_1_132_wf
def scatter_S32768x32_S524288x1_S524288x32_1_0_0_1 : ScatterDims S32768x32 S524288x1 S524288x32 where
  updateWindowDims := [1]
  insertedWindowDims := [0]
  scatterDimsToOperandDims := [0]
  indexVectorDim := 1
  wf := scatter_S32768x32_S524288x1_S524288x32_1_0_0_1_wf

class Facts : Prop extends Facts₀ where

variable [Facts]
-- ==== Proof.KernelData.lean ====
/-
  The data of the frame proof of `Kernel`'s one pipeline, at any float model `F`: what the arrays hold when the
  region is entered, each window's block at a grid point, what the kernel body leaves in the output window's
  buffer, and the pipeline's proof data built from these. The frame proof and the value proof both rest on these
  definitions; nothing is proved here beyond projections of the proof data.
-/
import proofs.«144840_j44049184588034_2_alg».proof.Proof.Gen.Kernel.Launch
import proofs.«144840_j44049184588034_2_alg».proof.Proof.Gen.Kernel.Skeleton
import proofs.«144840_j44049184588034_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The arrays when the region is entered -/

/-- Core `c`'s TensorCore buffers when the region is entered, as a valuation: the launch contents `m` carried through
    the 36 host operations that precede the region (five stretches: two index counts with their reciprocals, each
    followed by a `where` call, and the two reshapes that produce the kernel's operands). -/
abbrev V0 (c : Dev nD) : Valuation τ sig (Elt F) :=
  StableHlo.after (List.flatten [hostOps0, hostOps0_1, hostOps0_2, hostOps0_3, hostOps0_4]) (fun b => m (c, b))

/-- The same, read at a TensorCore reference. -/
abbrev V (c : Dev nD) (b : Ref sig .tc) : Buf (Elt F) ((c : Thread nD τ).loc b) := V0 m c (Proc.devRef .tc b)

/-! ## The windows' blocks -/

/-- Window `w`'s block at grid point `t`: the part of its array, as the region finds it (`V`), that the window's
    index map selects at `t` — 64 of the 1024 rows for windows 0, 1 and 3, the whole `[32, 1]` array for window 2. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole `[64, 32, 512]` buffer: the rectangle both operand loads read. -/
abbrev r0_0 : Rect S64x32x512 := Rect.unit (s := S64x32x512) ![0, 0, 0] S64x32x512.size inb_S64x32x512_S64x32x512_0_0_0
/-- The whole `[32, 1]` buffer: the rectangle the weight load reads. -/
abbrev r0_2 : Rect S32x1 := Rect.unit (s := S32x1) ![0, 0] S32x1.size inb_S32x1_S32x1_0_0
/-- The whole `[64, 32, 1]` buffer: the rectangle the one store writes. -/
abbrev r0_3 : Rect S64x32x1 := Rect.unit (s := S64x32x1) ![0, 0, 0] S64x32x1.size inb_S64x32x1_S64x32x1_0_0_0

/-! ## What the body leaves in the output window's buffer -/

/-- Window 3's staging buffer after the body, as a function of the three input blocks: the body's single store laid
    over the buffer, its payload the kernel's arithmetic (`k0_pay1`) of the three loaded blocks. -/
def out0_3 (x0 : Vec F S64x32x512 .f32) (x1 : Vec F S64x32x512 .f32) (x2 : Vec F S32x1 .f32) : Vec F S64x32x1 .f32 :=
  View.canon [⟨r0_3, k0_pay1 (View.ld x0 r0_0) (View.ld x1 r0_0) (View.ld x2 r0_2)⟩]

/-! ## The pipeline's proof data -/

/-- The proof data of the pipeline on core `c`: the arrays as the region finds them (`V`); after the body at point
    `t` each input window's buffer still at its block and the output window's at `out0_3` of the three input blocks;
    the invariant that of a body which owns nothing between points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents (a projection of the definition; the fold `V` stays folded). -/
theorem A_eq (c : Dev nD) (w : Fin cfg0.W) : (dats m 0 c).A w = V m c (Pipeline.arrRef spec0 w) := by
  dsimp only [dats]

/-- What the body leaves, window by window (projections of the definition). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

end Cert.Kernel.Hand

end
-- ==== Proof.KernelTail.lean ====
/-
  Facts about the host operations of `Kernel`'s @main, list by list: none allocates, none before the region writes
  an argument array, and none after the region writes an argument array or an array of the pipeline. Each is a
  statement about every operation of a literal list, proved operation by operation: an operation writes exactly its
  own result buffer, and that buffer is none of the arrays in question.
-/
import proofs.«144840_j44049184588034_2_alg».proof.Proof.Gen.Kernel.Launch
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

/-- The ten argument arrays of @main. -/
abbrev argRefs : List (Ref sig .tc) :=
  [main_arg0, main_arg1, main_arg2, main_arg3, main_arg4, main_arg5, main_arg6, main_arg7, main_arg8, main_arg9]

/-- The arrays whose contents the frame follows past the region: the arguments, and the pipeline's two reshaped
    operands and its result (its third operand is the argument `main_arg4` itself). -/
abbrev keepRefs : List (Ref sig .tc) :=
  [main_arg0, main_arg1, main_arg2, main_arg3, main_arg4, main_arg5, main_arg6, main_arg7, main_arg8, main_arg9,
   main_v21, main_v22, main_v23]

/-- Every array of the pipeline is among them. -/
theorem arrRef_mem_keepRefs : ∀ w, Pipeline.arrRef spec0 w ∈ keepRefs := by decide

/-! ## No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-! ## Before the region: no operation writes an argument array -/

/-- The first stretch of @main (17 operations: the two rows of the index array, how often each index occurs in the first row, and the reciprocal of that count): each operation writes its own result buffer, which is no argument. -/
theorem hostOps0_args : (hostOps0 : List (HloOp τ sig (Elt F))).Forall fun op => ∀ r ∈ argRefs, Proc.devRef (τ := τ) .tc r ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The first `where` call (3 operations: that reciprocal where the count is positive, zero elsewhere): each operation writes its own result buffer, which is no argument. -/
theorem hostOps0_1_args : (hostOps0_1 : List (HloOp τ sig (Elt F))).Forall fun op => ∀ r ∈ argRefs, Proc.devRef (τ := τ) .tc r ∉ op.writes := by
  simp only [hostOps0_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The second stretch of @main (11 operations: the same count and reciprocal for the second row): each operation writes its own result buffer, which is no argument. -/
theorem hostOps0_2_args : (hostOps0_2 : List (HloOp τ sig (Elt F))).Forall fun op => ∀ r ∈ argRefs, Proc.devRef (τ := τ) .tc r ∉ op.writes := by
  simp only [hostOps0_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The second `where` call (3 operations): each operation writes its own result buffer, which is no argument. -/
theorem hostOps0_3_args : (hostOps0_3 : List (HloOp τ sig (Elt F))).Forall fun op => ∀ r ∈ argRefs, Proc.devRef (τ := τ) .tc r ∉ op.writes := by
  simp only [hostOps0_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The two reshapes that produce the kernel's operands: each operation writes its own result buffer, which is no argument. -/
theorem hostOps0_4_args : (hostOps0_4 : List (HloOp τ sig (Elt F))).Forall fun op => ∀ r ∈ argRefs, Proc.devRef (τ := τ) .tc r ∉ op.writes := by
  simp only [hostOps0_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)

/-- So no operation of the whole prefix writes an argument array. -/
theorem pre_args : ∀ op ∈ (List.flatten [hostOps0, hostOps0_1, hostOps0_2, hostOps0_3, hostOps0_4] : List (HloOp τ sig (Elt F))),
    ∀ r ∈ argRefs, Proc.devRef (τ := τ) .tc r ∉ op.writes := by
  intro op hop
  obtain ⟨ops, hops, hop⟩ := List.mem_flatten.mp hop
  simp only [List.mem_cons, List.mem_nil_iff, or_false] at hops
  rcases hops with rfl | rfl | rfl | rfl | rfl
  · exact (List.forall_iff_forall_mem.mp hostOps0_args) op hop
  · exact (List.forall_iff_forall_mem.mp hostOps0_1_args) op hop
  · exact (List.forall_iff_forall_mem.mp hostOps0_2_args) op hop
  · exact (List.forall_iff_forall_mem.mp hostOps0_3_args) op hop
  · exact (List.forall_iff_forall_mem.mp hostOps0_4_args) op hop

/-! ## After the region: no operation writes an argument array or an array of the pipeline -/

/-- The first stretch after the region (34 operations): each operation writes its own result buffer, which is none of the arrays followed. -/
theorem hostOps1_keeps : (hostOps1 : List (HloOp τ sig (Elt F))).Forall fun op => ∀ r ∈ keepRefs, Proc.devRef (τ := τ) .tc r ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The `relu` call (3 operations): each operation writes its own result buffer, which is none of the arrays followed. -/
theorem hostOps1_1_keeps : (hostOps1_1 : List (HloOp τ sig (Elt F))).Forall fun op => ∀ r ∈ keepRefs, Proc.devRef (τ := τ) .tc r ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The long stretch after the region (41 operations): each operation writes its own result buffer, which is none of the arrays followed. -/
theorem hostOps1_2_keeps : (hostOps1_2 : List (HloOp τ sig (Elt F))).Forall fun op => ∀ r ∈ keepRefs, Proc.devRef (τ := τ) .tc r ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The `leaky_relu` call (7 operations): each operation writes its own result buffer, which is none of the arrays followed. -/
theorem hostOps1_3_keeps : (hostOps1_3 : List (HloOp τ sig (Elt F))).Forall fun op => ∀ r ∈ keepRefs, Proc.devRef (τ := τ) .tc r ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The closing reshape: each operation writes its own result buffer, which is none of the arrays followed. -/
theorem hostOps1_4_keeps : (hostOps1_4 : List (HloOp τ sig (Elt F))).Forall fun op => ∀ r ∈ keepRefs, Proc.devRef (τ := τ) .tc r ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)

/-- So no operation after the region writes any of them, list by list -/
theorem tail_keeps : ∀ ops ∈ ([hostOps1, hostOps1_1, hostOps1_2, hostOps1_3, hostOps1_4] : List (List (HloOp τ sig (Elt F)))), ∀ op ∈ ops,
    ∀ r ∈ keepRefs, Proc.devRef (τ := τ) .tc r ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- and as one flattened line. -/
theorem tail_flat_keeps : ∀ op ∈ (List.flatten [hostOps1, hostOps1_1, hostOps1_2, hostOps1_3, hostOps1_4] : List (HloOp τ sig (Elt F))),
    ∀ r ∈ keepRefs, Proc.devRef (τ := τ) .tc r ∉ op.writes := by
  intro op hop
  obtain ⟨ops, hops, hop⟩ := List.mem_flatten.mp hop
  exact tail_keeps ops hops op hop

end Cert.Kernel.Hand

end
-- ==== Proof.KernelFrame.lean ====
/-
  The frame of `Kernel`: every weakly fair execution of @main on the TensorCores terminates without fault, and the ten
  argument arrays end as they were launched — at any float model `F`.

  @main is 36 host operations, one pipelined kernel launch over a grid of 16 points, then 86 host operations. The
  kernel body at a point loads the three input windows' staging buffers whole, computes, and stores the output window's
  staging buffer whole; it keeps nothing from point to point. So: (1) @main reduces to the region continued by the later
  host lines, the arrays holding what the earlier lines left (`hmain`); (2) the later lines touch only unscoped
  buffers, allocate nothing and write no array of the pipeline (`sfx_*`); (3) at every grid point each input buffer
  holds its window's block (`before0_W`) and the body leaves the output buffer at a closed function of the three blocks
  (`sound_kernel`, `out0_3`); (4) the library's frame run then gives every array of the pipeline and every other
  unscoped buffer in closed form (`run_main`), from which the argument arrays are read off: none is written by any
  host line, and the one argument the pipeline stages (`main_arg4`) is an input, which the pipeline never writes back.
-/
import proofs.«144840_j44049184588034_2_alg».proof.Proof.KernelData
import proofs.«144840_j44049184588034_2_alg».proof.Proof.KernelTail

-- deciding that the one whole-buffer store covers its buffer walks the buffer's extents
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- @main is the five host stretches before the region, the region, and the five after it: holding the unscoped buffers
    at the launch contents, it reduces to the region continued by the later stretches, holding them at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0, hostOps0_1, hostOps0_2, hostOps0_3, hostOps0_4] [hostOps1, hostOps1_1, hostOps1_2, hostOps1_3, hostOps1_4]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

/-- The operations after the region touch only the pipeline's arrays and the buffers that bypass it: each touches
    unscoped TensorCore references, and with no prefetched table every such reference is one or the other. -/
theorem sfx_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- And they write no array of the pipeline: each writes only its own result buffer, which is none of the four. -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes :=
  fun ops hops op hop w => tail_keeps ops hops op hop (Pipeline.arrRef spec0 w) (arrRef_mem_keepRefs w)

/-! ## The argument arrays before and after the region -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (fun op hop => pre_args op hop main_arg0 (by decide))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (fun op hop => pre_args op hop main_arg1 (by decide))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (fun op hop => pre_args op hop main_arg2 (by decide))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (fun op hop => pre_args op hop main_arg3 (by decide))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (fun op hop => pre_args op hop main_arg4 (by decide))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (fun op hop => pre_args op hop main_arg5 (by decide))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (fun op hop => pre_args op hop main_arg6 (by decide))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (fun op hop => pre_args op hop main_arg7 (by decide))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (fun op hop => pre_args op hop main_arg8 (by decide))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (fun op hop => pre_args op hop main_arg9 (by decide))

/-- No host operation after the region writes `main_arg0`, and it is no array of the pipeline: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg0 = m ((c : Thread nD τ).loc main_arg0) := by
  unfold Pipeline.afterTail₀
  rw [StableHlo.after_of_forall_not_mem (b := Proc.devRef .tc main_arg0) _ _ (fun op hop => tail_flat_keeps op hop main_arg0 (by decide)),
    Pipeline.withArrays_of_ne _ c (V0 m c) _ main_arg0 (by exact (by decide : ∀ w, Pipeline.arrRef spec0 w ≠ main_arg0))]
  exact V_main_arg0 m c
/-- No host operation after the region writes `main_arg1`, and it is no array of the pipeline: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (fun op hop => tail_flat_keeps op hop main_arg1 (by decide)),
    Pipeline.withArrays_of_ne _ c (V0 m c) _ main_arg1 (by exact (by decide : ∀ w, Pipeline.arrRef spec0 w ≠ main_arg1))]
  exact V_main_arg1 m c
/-- No host operation after the region writes `main_arg2`, and it is no array of the pipeline: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg2 = m ((c : Thread nD τ).loc main_arg2) := by
  unfold Pipeline.afterTail₀
  rw [StableHlo.after_of_forall_not_mem (b := Proc.devRef .tc main_arg2) _ _ (fun op hop => tail_flat_keeps op hop main_arg2 (by decide)),
    Pipeline.withArrays_of_ne _ c (V0 m c) _ main_arg2 (by exact (by decide : ∀ w, Pipeline.arrRef spec0 w ≠ main_arg2))]
  exact V_main_arg2 m c
/-- No host operation after the region writes `main_arg3`, and it is no array of the pipeline: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg3 = m ((c : Thread nD τ).loc main_arg3) := by
  unfold Pipeline.afterTail₀
  rw [StableHlo.after_of_forall_not_mem (b := Proc.devRef .tc main_arg3) _ _ (fun op hop => tail_flat_keeps op hop main_arg3 (by decide)),
    Pipeline.withArrays_of_ne _ c (V0 m c) _ main_arg3 (by exact (by decide : ∀ w, Pipeline.arrRef spec0 w ≠ main_arg3))]
  exact V_main_arg3 m c
/-- `main_arg4` is the array of the pipeline's third window, an input: the pipeline never writes an input's array back,
    so for any proof data whose arrays are the region-entry contents (`hA`) it holds after the last grid point what it was
    launched with. (No host operation after the region writes it either: `sfx_keeps`.) -/
theorem W_main_arg4 (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrAt 2 (cfgs 0).N = m ((c : Thread nD τ).loc main_arg4) :=
  ((dats 0 c).arrAt_in 2 rfl _).trans ((hA c 2).trans (V_main_arg4 m c))
/-- No host operation after the region writes `main_arg5`, and it is no array of the pipeline: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg5 = m ((c : Thread nD τ).loc main_arg5) := by
  unfold Pipeline.afterTail₀
  rw [StableHlo.after_of_forall_not_mem (b := Proc.devRef .tc main_arg5) _ _ (fun op hop => tail_flat_keeps op hop main_arg5 (by decide)),
    Pipeline.withArrays_of_ne _ c (V0 m c) _ main_arg5 (by exact (by decide : ∀ w, Pipeline.arrRef spec0 w ≠ main_arg5))]
  exact V_main_arg5 m c
/-- No host operation after the region writes `main_arg6`, and it is no array of the pipeline: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg6 = m ((c : Thread nD τ).loc main_arg6) := by
  unfold Pipeline.afterTail₀
  rw [StableHlo.after_of_forall_not_mem (b := Proc.devRef .tc main_arg6) _ _ (fun op hop => tail_flat_keeps op hop main_arg6 (by decide)),
    Pipeline.withArrays_of_ne _ c (V0 m c) _ main_arg6 (by exact (by decide : ∀ w, Pipeline.arrRef spec0 w ≠ main_arg6))]
  exact V_main_arg6 m c
/-- No host operation after the region writes `main_arg7`, and it is no array of the pipeline: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg7 = m ((c : Thread nD τ).loc main_arg7) := by
  unfold Pipeline.afterTail₀
  rw [StableHlo.after_of_forall_not_mem (b := Proc.devRef .tc main_arg7) _ _ (fun op hop => tail_flat_keeps op hop main_arg7 (by decide)),
    Pipeline.withArrays_of_ne _ c (V0 m c) _ main_arg7 (by exact (by decide : ∀ w, Pipeline.arrRef spec0 w ≠ main_arg7))]
  exact V_main_arg7 m c
/-- No host operation after the region writes `main_arg8`, and it is no array of the pipeline: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg8 = m ((c : Thread nD τ).loc main_arg8) := by
  unfold Pipeline.afterTail₀
  rw [StableHlo.after_of_forall_not_mem (b := Proc.devRef .tc main_arg8) _ _ (fun op hop => tail_flat_keeps op hop main_arg8 (by decide)),
    Pipeline.withArrays_of_ne _ c (V0 m c) _ main_arg8 (by exact (by decide : ∀ w, Pipeline.arrRef spec0 w ≠ main_arg8))]
  exact V_main_arg8 m c
/-- No host operation after the region writes `main_arg9`, and it is no array of the pipeline: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg9 = m ((c : Thread nD τ).loc main_arg9) := by
  unfold Pipeline.afterTail₀
  rw [StableHlo.after_of_forall_not_mem (b := Proc.devRef .tc main_arg9) _ _ (fun op hop => tail_flat_keeps op hop main_arg9 (by decide)),
    Pipeline.withArrays_of_ne _ c (V0 m c) _ main_arg9 (by exact (by decide : ∀ w, Pipeline.arrRef spec0 w ≠ main_arg9))]
  exact V_main_arg9 m c

/-! ## What the body finds in the input windows' buffers -/

/-- Input window 0's current staging buffer holds the window's block at every grid point, whether or not the pipeline
    fetched it there, for any proof data whose array is the region-entry contents (`hA`) and whose body leaves the
    block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every grid point, whether or not the pipeline
    fetched it there, for any proof data whose array is the region-entry contents (`hA`) and whose body leaves the
    block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every grid point, whether or not the pipeline
    fetched it there (this window's index map is constant: it is fetched at the first point only, and the block never moves), for any proof data whose array is the region-entry contents (`hA`) and whose body leaves the
    block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's closed-form post (every array of the pipeline at what the proof data computes, every
    other unscoped buffer at what the later host lines leave), for any proof data whose arrays are the region-entry
    contents: each argument array ends as launched — nine of them bypass the pipeline and are written by no host line,
    the tenth (`main_arg4`) is an input array of the pipeline. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).1 2).trans (W_main_arg4 m dats hA c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c),
     ((h c).2 main_arg7 (Pipeline.mem_restRefs_of main_arg7 (by decide) (by decide))).trans (W_main_arg7 m dats c),
     ((h c).2 main_arg8 (Pipeline.mem_restRefs_of main_arg8 (by decide) (by decide))).trans (W_main_arg8 m dats c),
     ((h c).2 main_arg9 (Pipeline.mem_restRefs_of main_arg9 (by decide) (by decide))).trans (W_main_arg9 m dats c)⟩) h

/-! ## The body's one store covers the output buffer -/

/-- The store's rectangle is the whole `[64, 32, 1]` buffer. -/
theorem cover0_3 (p0 : Vec F S64x32x1 .f32) (y : S64x32x1.Idx) :
    ∃ pc ∈ ([⟨r0_3, p0⟩] : List (View.Piece (Elt F) S64x32x1 .f32)), y ∈ pc.1.set :=
  View.cover_of_tiled [⟨r0_3, p0⟩] S64x32x1.size (by rfl) y

/-! ## The body's triple -/

set_option maxHeartbeats 1000000 in
/-- The kernel body on whole staging memrefs — the three inputs' reading `x0`, `x1`, `x2`, the output's holding
    anything — runs to its continuation with the inputs' as they were and the output's reading `out0_3 x0 x1 x2`: three
    whole-buffer loads, arithmetic, a load of the output buffer whose value is not used, and one whole-buffer store. -/
theorem sound_kernel (c : Dev nD) (E : Set ℕ) (i : grid0.Coords)
    (arg1 : Memref sig .tc .vmem S64x32x512 .f32) (harg1 : arg1.IsWhole) (arg2 : Memref sig .tc .vmem S64x32x512 .f32) (harg2 : arg2.IsWhole)
    (arg3 : Memref sig .tc .vmem S32x1 .f32) (harg3 : arg3.IsWhole) (arg4 : Memref sig .tc .vmem S64x32x1 .f32) (harg4 : arg4.IsWhole)
    (x0 : Vec F S64x32x512 .f32) (x1 : Vec F S64x32x512 .f32) (x2 : Vec F S32x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qk_w1_kernel i arg1 harg1 arg2 harg2 arg3 harg3 arg4 harg4) K := by
  simp only [cc0__qk_w1_kernel_eq_skeleton]; unfold cc0__qk_w1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers under the proof data -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, the core's debt, and the four windows' current staging
    buffers at what the proof data says they hold before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns: the same, the buffers at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks (`before0_W`), so `sound_kernel` applies at the three
    blocks; the invariant and the core's debt pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the library theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes from
    the proof data and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- THE FRAME of `Kernel` at any `F`: @main terminates without fault and the ten argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.KernelIdealData.lean ====
/-
  The data of the frame proof of `KernelIdeal`'s one pipeline, at any float model `F`: what the arrays hold when the
  region is entered, each window's block at a grid point, what the kernel body leaves in the output window's
  buffer, and the pipeline's proof data built from these. The frame proof and the value proof both rest on these
  definitions; nothing is proved here beyond projections of the proof data.
-/
import proofs.«144840_j44049184588034_2_alg».proof.Proof.Gen.KernelIdeal.Launch
import proofs.«144840_j44049184588034_2_alg».proof.Proof.Gen.KernelIdeal.Skeleton
import proofs.«144840_j44049184588034_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ)

/-! ## The arrays when the region is entered -/

/-- Core `c`'s TensorCore buffers when the region is entered, as a valuation: the launch contents `m` carried through
    the 36 host operations that precede the region (five stretches: two index counts with their reciprocals, each
    followed by a `where` call, and the two reshapes that produce the kernel's operands). -/
abbrev V0 (c : Dev nD) : Valuation τ sig (Elt F) :=
  StableHlo.after (List.flatten [hostOps0, hostOps0_1, hostOps0_2, hostOps0_3, hostOps0_4]) (fun b => m (c, b))

/-- The same, read at a TensorCore reference. -/
abbrev V (c : Dev nD) (b : Ref sig .tc) : Buf (Elt F) ((c : Thread nD τ).loc b) := V0 m c (Proc.devRef .tc b)

/-! ## The windows' blocks -/

/-- Window `w`'s block at grid point `t`: the part of its array, as the region finds it (`V`), that the window's
    index map selects at `t` — 64 of the 1024 rows for windows 0, 1 and 3, the whole `[32, 1]` array for window 2. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole `[64, 32, 512]` buffer: the rectangle both operand loads read. -/
abbrev r0_0 : Rect S64x32x512 := Rect.unit (s := S64x32x512) ![0, 0, 0] S64x32x512.size inb_S64x32x512_S64x32x512_0_0_0
/-- The whole `[32, 1]` buffer: the rectangle the weight load reads. -/
abbrev r0_2 : Rect S32x1 := Rect.unit (s := S32x1) ![0, 0] S32x1.size inb_S32x1_S32x1_0_0
/-- The whole `[64, 32, 1]` buffer: the rectangle the one store writes. -/
abbrev r0_3 : Rect S64x32x1 := Rect.unit (s := S64x32x1) ![0, 0, 0] S64x32x1.size inb_S64x32x1_S64x32x1_0_0_0

/-! ## What the body leaves in the output window's buffer -/

/-- Window 3's staging buffer after the body, as a function of the three input blocks: the body's single store laid
    over the buffer, its payload the kernel's arithmetic (`k0_pay1`) of the three loaded blocks. -/
def out0_3 (x0 : Vec F S64x32x512 .f32) (x1 : Vec F S64x32x512 .f32) (x2 : Vec F S32x1 .f32) : Vec F S64x32x1 .f32 :=
  View.canon [⟨r0_3, k0_pay1 (View.ld x0 r0_0) (View.ld x1 r0_0) (View.ld x2 r0_2)⟩]

/-! ## The pipeline's proof data -/

/-- The proof data of the pipeline on core `c`: the arrays as the region finds them (`V`); after the body at point
    `t` each input window's buffer still at its block and the output window's at `out0_3` of the three input blocks;
    the invariant that of a body which owns nothing between points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents (a projection of the definition; the fold `V` stays folded). -/
theorem A_eq (c : Dev nD) (w : Fin cfg0.W) : (dats m 0 c).A w = V m c (Pipeline.arrRef spec0 w) := by
  dsimp only [dats]

/-- What the body leaves, window by window (projections of the definition). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

end Cert.KernelIdeal.Hand

end
-- ==== Proof.KernelIdealTail.lean ====
/-
  Facts about the host operations of `KernelIdeal`'s @main, list by list: none allocates, none before the region writes
  an argument array, and none after the region writes an argument array or an array of the pipeline. Each is a
  statement about every operation of a literal list, proved operation by operation: an operation writes exactly its
  own result buffer, and that buffer is none of the arrays in question.
-/
import proofs.«144840_j44049184588034_2_alg».proof.Proof.Gen.KernelIdeal.Launch
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

/-- The ten argument arrays of @main. -/
abbrev argRefs : List (Ref sig .tc) :=
  [main_arg0, main_arg1, main_arg2, main_arg3, main_arg4, main_arg5, main_arg6, main_arg7, main_arg8, main_arg9]

/-- The arrays whose contents the frame follows past the region: the arguments, and the pipeline's two reshaped
    operands and its result (its third operand is the argument `main_arg4` itself). -/
abbrev keepRefs : List (Ref sig .tc) :=
  [main_arg0, main_arg1, main_arg2, main_arg3, main_arg4, main_arg5, main_arg6, main_arg7, main_arg8, main_arg9,
   main_v21, main_v22, main_v23]

/-- Every array of the pipeline is among them. -/
theorem arrRef_mem_keepRefs : ∀ w, Pipeline.arrRef spec0 w ∈ keepRefs := by decide

/-! ## No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-! ## Before the region: no operation writes an argument array -/

/-- The first stretch of @main (17 operations: the two rows of the index array, how often each index occurs in the first row, and the reciprocal of that count): each operation writes its own result buffer, which is no argument. -/
theorem hostOps0_args : (hostOps0 : List (HloOp τ sig (Elt F))).Forall fun op => ∀ r ∈ argRefs, Proc.devRef (τ := τ) .tc r ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The first `where` call (3 operations: that reciprocal where the count is positive, zero elsewhere): each operation writes its own result buffer, which is no argument. -/
theorem hostOps0_1_args : (hostOps0_1 : List (HloOp τ sig (Elt F))).Forall fun op => ∀ r ∈ argRefs, Proc.devRef (τ := τ) .tc r ∉ op.writes := by
  simp only [hostOps0_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The second stretch of @main (11 operations: the same count and reciprocal for the second row): each operation writes its own result buffer, which is no argument. -/
theorem hostOps0_2_args : (hostOps0_2 : List (HloOp τ sig (Elt F))).Forall fun op => ∀ r ∈ argRefs, Proc.devRef (τ := τ) .tc r ∉ op.writes := by
  simp only [hostOps0_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The second `where` call (3 operations): each operation writes its own result buffer, which is no argument. -/
theorem hostOps0_3_args : (hostOps0_3 : List (HloOp τ sig (Elt F))).Forall fun op => ∀ r ∈ argRefs, Proc.devRef (τ := τ) .tc r ∉ op.writes := by
  simp only [hostOps0_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The two reshapes that produce the kernel's operands: each operation writes its own result buffer, which is no argument. -/
theorem hostOps0_4_args : (hostOps0_4 : List (HloOp τ sig (Elt F))).Forall fun op => ∀ r ∈ argRefs, Proc.devRef (τ := τ) .tc r ∉ op.writes := by
  simp only [hostOps0_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)

/-- So no operation of the whole prefix writes an argument array. -/
theorem pre_args : ∀ op ∈ (List.flatten [hostOps0, hostOps0_1, hostOps0_2, hostOps0_3, hostOps0_4] : List (HloOp τ sig (Elt F))),
    ∀ r ∈ argRefs, Proc.devRef (τ := τ) .tc r ∉ op.writes := by
  intro op hop
  obtain ⟨ops, hops, hop⟩ := List.mem_flatten.mp hop
  simp only [List.mem_cons, List.mem_nil_iff, or_false] at hops
  rcases hops with rfl | rfl | rfl | rfl | rfl
  · exact (List.forall_iff_forall_mem.mp hostOps0_args) op hop
  · exact (List.forall_iff_forall_mem.mp hostOps0_1_args) op hop
  · exact (List.forall_iff_forall_mem.mp hostOps0_2_args) op hop
  · exact (List.forall_iff_forall_mem.mp hostOps0_3_args) op hop
  · exact (List.forall_iff_forall_mem.mp hostOps0_4_args) op hop

/-! ## After the region: no operation writes an argument array or an array of the pipeline -/

/-- The first stretch after the region (34 operations): each operation writes its own result buffer, which is none of the arrays followed. -/
theorem hostOps1_keeps : (hostOps1 : List (HloOp τ sig (Elt F))).Forall fun op => ∀ r ∈ keepRefs, Proc.devRef (τ := τ) .tc r ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The `relu` call (3 operations): each operation writes its own result buffer, which is none of the arrays followed. -/
theorem hostOps1_1_keeps : (hostOps1_1 : List (HloOp τ sig (Elt F))).Forall fun op => ∀ r ∈ keepRefs, Proc.devRef (τ := τ) .tc r ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The long stretch after the region (41 operations): each operation writes its own result buffer, which is none of the arrays followed. -/
theorem hostOps1_2_keeps : (hostOps1_2 : List (HloOp τ sig (Elt F))).Forall fun op => ∀ r ∈ keepRefs, Proc.devRef (τ := τ) .tc r ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The `leaky_relu` call (7 operations): each operation writes its own result buffer, which is none of the arrays followed. -/
theorem hostOps1_3_keeps : (hostOps1_3 : List (HloOp τ sig (Elt F))).Forall fun op => ∀ r ∈ keepRefs, Proc.devRef (τ := τ) .tc r ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- The closing reshape: each operation writes its own result buffer, which is none of the arrays followed. -/
theorem hostOps1_4_keeps : (hostOps1_4 : List (HloOp τ sig (Elt F))).Forall fun op => ∀ r ∈ keepRefs, Proc.devRef (τ := τ) .tc r ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)

/-- So no operation after the region writes any of them, list by list -/
theorem tail_keeps : ∀ ops ∈ ([hostOps1, hostOps1_1, hostOps1_2, hostOps1_3, hostOps1_4] : List (List (HloOp τ sig (Elt F)))), ∀ op ∈ ops,
    ∀ r ∈ keepRefs, Proc.devRef (τ := τ) .tc r ∉ op.writes := by
  intro ops hops op hop
  simp only [List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-- and as one flattened line. -/
theorem tail_flat_keeps : ∀ op ∈ (List.flatten [hostOps1, hostOps1_1, hostOps1_2, hostOps1_3, hostOps1_4] : List (HloOp τ sig (Elt F))),
    ∀ r ∈ keepRefs, Proc.devRef (τ := τ) .tc r ∉ op.writes := by
  intro op hop
  obtain ⟨ops, hops, hop⟩ := List.mem_flatten.mp hop
  exact tail_keeps ops hops op hop

end Cert.KernelIdeal.Hand

end
-- ==== Proof.KernelIdealFrame.lean ====
/-
  The frame of `KernelIdeal`: every weakly fair execution of @main on the TensorCores terminates without fault, and the ten
  argument arrays end as they were launched — at any float model `F`.

  @main is 36 host operations, one pipelined kernel launch over a grid of 16 points, then 86 host operations. The
  kernel body at a point loads the three input windows' staging buffers whole, computes, and stores the output window's
  staging buffer whole; it keeps nothing from point to point. So: (1) @main reduces to the region continued by the later
  host lines, the arrays holding what the earlier lines left (`hmain`); (2) the later lines touch only unscoped
  buffers, allocate nothing and write no array of the pipeline (`sfx_*`); (3) at every grid point each input buffer
  holds its window's block (`before0_W`) and the body leaves the output buffer at a closed function of the three blocks
  (`sound_kernel`, `out0_3`); (4) the library's frame run then gives every array of the pipeline and every other
  unscoped buffer in closed form (`run_main`), from which the argument arrays are read off: none is written by any
  host line, and the one argument the pipeline stages (`main_arg4`) is an input, which the pipeline never writes back.
-/
import proofs.«144840_j44049184588034_2_alg».proof.Proof.KernelIdealData
import proofs.«144840_j44049184588034_2_alg».proof.Proof.KernelIdealTail

-- deciding that the one whole-buffer store covers its buffer walks the buffer's extents
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- @main is the five host stretches before the region, the region, and the five after it: holding the unscoped buffers
    at the launch contents, it reduces to the region continued by the later stretches, holding them at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0, hostOps0_1, hostOps0_2, hostOps0_3, hostOps0_4] [hostOps1, hostOps1_1, hostOps1_2, hostOps1_3, hostOps1_4]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

/-- The operations after the region touch only the pipeline's arrays and the buffers that bypass it: each touches
    unscoped TensorCore references, and with no prefetched table every such reference is one or the other. -/
theorem sfx_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- And they write no array of the pipeline: each writes only its own result buffer, which is none of the four. -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes :=
  fun ops hops op hop w => tail_keeps ops hops op hop (Pipeline.arrRef spec0 w) (arrRef_mem_keepRefs w)

/-! ## The argument arrays before and after the region -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (fun op hop => pre_args op hop main_arg0 (by decide))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (fun op hop => pre_args op hop main_arg1 (by decide))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (fun op hop => pre_args op hop main_arg2 (by decide))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (fun op hop => pre_args op hop main_arg3 (by decide))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (fun op hop => pre_args op hop main_arg4 (by decide))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (fun op hop => pre_args op hop main_arg5 (by decide))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (fun op hop => pre_args op hop main_arg6 (by decide))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (fun op hop => pre_args op hop main_arg7 (by decide))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (fun op hop => pre_args op hop main_arg8 (by decide))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (fun op hop => pre_args op hop main_arg9 (by decide))

/-- No host operation after the region writes `main_arg0`, and it is no array of the pipeline: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg0 = m ((c : Thread nD τ).loc main_arg0) := by
  unfold Pipeline.afterTail₀
  rw [StableHlo.after_of_forall_not_mem (b := Proc.devRef .tc main_arg0) _ _ (fun op hop => tail_flat_keeps op hop main_arg0 (by decide)),
    Pipeline.withArrays_of_ne _ c (V0 m c) _ main_arg0 (by exact (by decide : ∀ w, Pipeline.arrRef spec0 w ≠ main_arg0))]
  exact V_main_arg0 m c
/-- No host operation after the region writes `main_arg1`, and it is no array of the pipeline: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (fun op hop => tail_flat_keeps op hop main_arg1 (by decide)),
    Pipeline.withArrays_of_ne _ c (V0 m c) _ main_arg1 (by exact (by decide : ∀ w, Pipeline.arrRef spec0 w ≠ main_arg1))]
  exact V_main_arg1 m c
/-- No host operation after the region writes `main_arg2`, and it is no array of the pipeline: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg2 = m ((c : Thread nD τ).loc main_arg2) := by
  unfold Pipeline.afterTail₀
  rw [StableHlo.after_of_forall_not_mem (b := Proc.devRef .tc main_arg2) _ _ (fun op hop => tail_flat_keeps op hop main_arg2 (by decide)),
    Pipeline.withArrays_of_ne _ c (V0 m c) _ main_arg2 (by exact (by decide : ∀ w, Pipeline.arrRef spec0 w ≠ main_arg2))]
  exact V_main_arg2 m c
/-- No host operation after the region writes `main_arg3`, and it is no array of the pipeline: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg3 = m ((c : Thread nD τ).loc main_arg3) := by
  unfold Pipeline.afterTail₀
  rw [StableHlo.after_of_forall_not_mem (b := Proc.devRef .tc main_arg3) _ _ (fun op hop => tail_flat_keeps op hop main_arg3 (by decide)),
    Pipeline.withArrays_of_ne _ c (V0 m c) _ main_arg3 (by exact (by decide : ∀ w, Pipeline.arrRef spec0 w ≠ main_arg3))]
  exact V_main_arg3 m c
/-- `main_arg4` is the array of the pipeline's third window, an input: the pipeline never writes an input's array back,
    so for any proof data whose arrays are the region-entry contents (`hA`) it holds after the last grid point what it was
    launched with. (No host operation after the region writes it either: `sfx_keeps`.) -/
theorem W_main_arg4 (dats : (p : Fin 1) → (c : Dev nD) → Dat τ (Elt F) Unit ℕ (UR sig nD τ) ℕ (cfgs p) c)
    (hA : ∀ c w, (dats 0 c).A w = V m c (Pipeline.arrRef spec0 w)) (c : Dev nD) :
    (dats 0 c).arrAt 2 (cfgs 0).N = m ((c : Thread nD τ).loc main_arg4) :=
  ((dats 0 c).arrAt_in 2 rfl _).trans ((hA c 2).trans (V_main_arg4 m c))
/-- No host operation after the region writes `main_arg5`, and it is no array of the pipeline: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg5 = m ((c : Thread nD τ).loc main_arg5) := by
  unfold Pipeline.afterTail₀
  rw [StableHlo.after_of_forall_not_mem (b := Proc.devRef .tc main_arg5) _ _ (fun op hop => tail_flat_keeps op hop main_arg5 (by decide)),
    Pipeline.withArrays_of_ne _ c (V0 m c) _ main_arg5 (by exact (by decide : ∀ w, Pipeline.arrRef spec0 w ≠ main_arg5))]
  exact V_main_arg5 m c
/-- No host operation after the region writes `main_arg6`, and it is no array of the pipeline: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg6 = m ((c : Thread nD τ).loc main_arg6) := by
  unfold Pipeline.afterTail₀
  rw [StableHlo.after_of_forall_not_mem (b := Proc.devRef .tc main_arg6) _ _ (fun op hop => tail_flat_keeps op hop main_arg6 (by decide)),
    Pipeline.withArrays_of_ne _ c (V0 m c) _ main_arg6 (by exact (by decide : ∀ w, Pipeline.arrRef spec0 w ≠ main_arg6))]
  exact V_main_arg6 m c
/-- No host operation after the region writes `main_arg7`, and it is no array of the pipeline: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg7 = m ((c : Thread nD τ).loc main_arg7) := by
  unfold Pipeline.afterTail₀
  rw [StableHlo.after_of_forall_not_mem (b := Proc.devRef .tc main_arg7) _ _ (fun op hop => tail_flat_keeps op hop main_arg7 (by decide)),
    Pipeline.withArrays_of_ne _ c (V0 m c) _ main_arg7 (by exact (by decide : ∀ w, Pipeline.arrRef spec0 w ≠ main_arg7))]
  exact V_main_arg7 m c
/-- No host operation after the region writes `main_arg8`, and it is no array of the pipeline: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg8 = m ((c : Thread nD τ).loc main_arg8) := by
  unfold Pipeline.afterTail₀
  rw [StableHlo.after_of_forall_not_mem (b := Proc.devRef .tc main_arg8) _ _ (fun op hop => tail_flat_keeps op hop main_arg8 (by decide)),
    Pipeline.withArrays_of_ne _ c (V0 m c) _ main_arg8 (by exact (by decide : ∀ w, Pipeline.arrRef spec0 w ≠ main_arg8))]
  exact V_main_arg8 m c
/-- No host operation after the region writes `main_arg9`, and it is no array of the pipeline: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg9 = m ((c : Thread nD τ).loc main_arg9) := by
  unfold Pipeline.afterTail₀
  rw [StableHlo.after_of_forall_not_mem (b := Proc.devRef .tc main_arg9) _ _ (fun op hop => tail_flat_keeps op hop main_arg9 (by decide)),
    Pipeline.withArrays_of_ne _ c (V0 m c) _ main_arg9 (by exact (by decide : ∀ w, Pipeline.arrRef spec0 w ≠ main_arg9))]
  exact V_main_arg9 m c

/-! ## What the body finds in the input windows' buffers -/

/-- Input window 0's current staging buffer holds the window's block at every grid point, whether or not the pipeline
    fetched it there, for any proof data whose array is the region-entry contents (`hA`) and whose body leaves the
    block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every grid point, whether or not the pipeline
    fetched it there, for any proof data whose array is the region-entry contents (`hA`) and whose body leaves the
    block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every grid point, whether or not the pipeline
    fetched it there (this window's index map is constant: it is fetched at the first point only, and the block never moves), for any proof data whose array is the region-entry contents (`hA`) and whose body leaves the
    block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's closed-form post (every array of the pipeline at what the proof data computes, every
    other unscoped buffer at what the later host lines leave), for any proof data whose arrays are the region-entry
    contents: each argument array ends as launched — nine of them bypass the pipeline and are written by no host line,
    the tenth (`main_arg4`) is an input array of the pipeline. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).1 2).trans (W_main_arg4 m dats hA c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c),
     ((h c).2 main_arg7 (Pipeline.mem_restRefs_of main_arg7 (by decide) (by decide))).trans (W_main_arg7 m dats c),
     ((h c).2 main_arg8 (Pipeline.mem_restRefs_of main_arg8 (by decide) (by decide))).trans (W_main_arg8 m dats c),
     ((h c).2 main_arg9 (Pipeline.mem_restRefs_of main_arg9 (by decide) (by decide))).trans (W_main_arg9 m dats c)⟩) h

/-! ## The body's one store covers the output buffer -/

/-- The store's rectangle is the whole `[64, 32, 1]` buffer. -/
theorem cover0_3 (p0 : Vec F S64x32x1 .f32) (y : S64x32x1.Idx) :
    ∃ pc ∈ ([⟨r0_3, p0⟩] : List (View.Piece (Elt F) S64x32x1 .f32)), y ∈ pc.1.set :=
  View.cover_of_tiled [⟨r0_3, p0⟩] S64x32x1.size (by rfl) y

/-! ## The body's triple -/

set_option maxHeartbeats 1000000 in
/-- The kernel body on whole staging memrefs — the three inputs' reading `x0`, `x1`, `x2`, the output's holding
    anything — runs to its continuation with the inputs' as they were and the output's reading `out0_3 x0 x1 x2`: three
    whole-buffer loads, arithmetic, a load of the output buffer whose value is not used, and one whole-buffer store. -/
theorem sound_kernel (c : Dev nD) (E : Set ℕ) (i : grid0.Coords)
    (arg1 : Memref sig .tc .vmem S64x32x512 .f32) (harg1 : arg1.IsWhole) (arg2 : Memref sig .tc .vmem S64x32x512 .f32) (harg2 : arg2.IsWhole)
    (arg3 : Memref sig .tc .vmem S32x1 .f32) (harg3 : arg3.IsWhole) (arg4 : Memref sig .tc .vmem S64x32x1 .f32) (harg4 : arg4.IsWhole)
    (x0 : Vec F S64x32x512 .f32) (x1 : Vec F S64x32x512 .f32) (x2 : Vec F S32x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qk_w1_kernel i arg1 harg1 arg2 harg2 arg3 harg3 arg4 harg4) K := by
  simp only [cc0__qk_w1_kernel_eq_skeleton]; unfold cc0__qk_w1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers under the proof data -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, the core's debt, and the four windows' current staging
    buffers at what the proof data says they hold before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns: the same, the buffers at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks (`before0_W`), so `sound_kernel` applies at the three
    blocks; the invariant and the core's debt pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the library theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes from
    the proof data and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- THE FRAME of `KernelIdeal` at any `F`: @main terminates without fault and the ten argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.RefTerms.lean ====
/-
  The reference program's result as pure terms of its arguments' contents.

  The program scores each of the 32768 query rows against the keys (a scaled, batched inner product contracted
  with a weight column), then runs two rounds of hypergraph aggregation over an incidence list of 524288
  (node, hyperedge) pairs: features are summed from nodes into hyperedges and scaled by the inverse hyperedge
  degree, summed back from hyperedges into nodes and scaled by the inverse node degree. The first round is at
  feature width 1 and is followed by a bias, a rectifier and a widening to 32 features; the second is at width 32
  and is followed by a bias, a contraction back to one feature, a bias and a leaky rectifier.

  x_ref is the score column; tail_ref is everything after it, as a function of that column and of the other
  arguments. Each definition is the composition of the operations the program applies, in its order.
-/
import proofs.«144840_j44049184588034_2_alg».proof.ReferenceIdeal

noncomputable section

namespace Cert.ReferenceIdeal.Hand

open Cert.ReferenceIdeal Idealize.ShloMosaic Idealize.SL.Sem
open Cert.ReferenceIdeal.Facts₀

/-- The contents of a tensor of shape S and element type e. -/
abbrev Ten (F : FTy → Type) (S : Shape) (e : EltTy) : Type := (⟨S, e⟩ : BufTy).Contents (Elt F)

variable {F : FTy → Type} [FloatOps F] [Facts₀]

/-! ## The scores -/

/-- The score column: the queries divided by 22.6274166 (the square root of 512), their inner products with the
    keys over the last axis for each of the 64 x 16 batches, the 32 x 32 blocks laid out as 32768 rows of 32, and
    each row contracted with the weight column. -/
def x_ref (q k : Ten F S64x16x32x512 .f32) (w1 : Ten F S32x1 .f32) : Ten F S32768x1 .f32 :=
  Host.dotGeneral dot_S32768x32_S32x1_S32768x1_1_0_0_1_n_n none
    (shapeCast S32768x32
      (Host.dotGeneral dot_S64x16x32x512_S64x16x32x512_S64x16x32x32_3_3_2_2_01_01 none
        (Host.divf q (broadcastInDim S64x16x32x512 ![] bcast_S_S64x16x32x512 (constant S_ .f32 0x41B504F3#32))) k)
      shapeCasts_S64x16x32x32_S32768x32)
    w1

/-! ## The incidence list -/

/-- The node index of each incidence: row 0 of the list. -/
def row0 (hei : Ten F S2x524288 .i32) : Ten F S524288 .i32 :=
  shapeCast S524288 (extractStridedSlice S1x524288 ![0, 0] hei slices_S2x524288_S1x524288_0_0) shapeCasts_S1x524288_S524288

/-- The hyperedge index of each incidence: row 1 of the list. -/
def row1 (hei : Ten F S2x524288 .i32) : Ten F S524288 .i32 :=
  shapeCast S524288 (extractStridedSlice S1x524288 ![1, 0] hei slices_S2x524288_S1x524288_1_0) shapeCasts_S1x524288_S524288

/-- A vector of indices as a column, the form in which a sum-into or a read-from takes its positions. -/
def col (r : Ten F S524288 .i32) : Ten F S524288x1 .i32 :=
  broadcastInDim S524288x1 ![0] bcast_S524288_S524288x1_0 r

/-- Indices made non-negative for a read: a negative one has the extent n added. -/
def wrap (n : BitVec 32) (r : Ten F S524288 .i32) : Ten F S524288x1 .i32 :=
  col (select (cmpi .slt r (broadcastInDim S524288 ![] bcast_S_S524288 (constantI S_ 32 0#32)))
    (addi r (broadcastInDim S524288 ![] bcast_S_S524288 (constantI S_ 32 n))) r)

/-- One per incidence. -/
def ones : Ten F S524288 .f32 :=
  broadcastInDim S524288 ![] bcast_S_S524288 (constant S_ .f32 0x3F800000#32)

/-! ## The degrees -/

/-- The degree of each node: the number of incidences naming it. -/
def degV (r0 : Ten F S524288 .i32) : Ten F S32768 .f32 :=
  Host.scatterAdd scatter_S32768_S524288x1_S524288_n_0_0_1
    (broadcastInDim S32768 ![] bcast_S_S32768 (constant S_ .f32 0x00000000#32)) (col r0) ones

/-- The inverse degree of each node, zero where the degree is not positive. -/
def invDegV (r0 : Ten F S524288 .i32) : Ten F S32768 .f32 :=
  select (cmpf .ogt (degV r0) (broadcastInDim S32768 ![] bcast_S_S32768 (constant S_ .f32 0x00000000#32)))
    (Host.divf (broadcastInDim S32768 ![] bcast_S_S32768 (constant S_ .f32 0x3F800000#32)) (degV r0))
    (broadcastInDim S32768 ![] bcast_S_S32768 (constant S_ .f32 0x00000000#32))

/-- The degree of each hyperedge: the number of incidences naming it. -/
def degE (r1 : Ten F S524288 .i32) : Ten F S4096 .f32 :=
  Host.scatterAdd scatter_S4096_S524288x1_S524288_n_0_0_1
    (broadcastInDim S4096 ![] bcast_S_S4096 (constant S_ .f32 0x00000000#32)) (col r1) ones

/-- The inverse degree of each hyperedge, zero where the degree is not positive. -/
def invDegE (r1 : Ten F S524288 .i32) : Ten F S4096 .f32 :=
  select (cmpf .ogt (degE r1) (broadcastInDim S4096 ![] bcast_S_S4096 (constant S_ .f32 0x00000000#32)))
    (Host.divf (broadcastInDim S4096 ![] bcast_S_S4096 (constant S_ .f32 0x3F800000#32)) (degE r1))
    (broadcastInDim S4096 ![] bcast_S_S4096 (constant S_ .f32 0x00000000#32))

/-! ## One aggregation step, at feature width 1 -/

/-- Node features summed into hyperedges along the incidences, each hyperedge scaled by its inverse degree. -/
def edge1 (x : Ten F S32768x1 .f32) (r0 r1 : Ten F S524288 .i32) : Ten F S4096x1 .f32 :=
  mulf (broadcastInDim S4096x1 ![0] bcast_S4096_S4096x1_0 (invDegE r1))
    (Host.scatterAdd scatter_S4096x1_S524288x1_S524288x1_1_0_0_1
      (broadcastInDim S4096x1 ![] bcast_S_S4096x1 (constant S_ .f32 0x00000000#32)) (col r1)
      (Host.gather gather_S32768x1_S524288x1_S524288x1_1_0_n_n_0_1_11 x (wrap 32768#32 r0)))

/-- Hyperedge features summed back into nodes along the incidences, each node scaled by its inverse degree. -/
def node1 (e : Ten F S4096x1 .f32) (r0 r1 : Ten F S524288 .i32) : Ten F S32768x1 .f32 :=
  mulf (broadcastInDim S32768x1 ![0] bcast_S32768_S32768x1_0 (invDegV r0))
    (Host.scatterAdd scatter_S32768x1_S524288x1_S524288x1_1_0_0_1
      (broadcastInDim S32768x1 ![] bcast_S_S32768x1 (constant S_ .f32 0x00000000#32)) (col r0)
      (Host.gather gather_S4096x1_S524288x1_S524288x1_1_0_n_n_0_1_11 e (wrap 4096#32 r1)))

/-! ## One aggregation step, at feature width 32 -/

/-- Node features summed into hyperedges along the incidences, each hyperedge scaled by its inverse degree. -/
def edge32 (h : Ten F S32768x32 .f32) (r0 r1 : Ten F S524288 .i32) : Ten F S4096x32 .f32 :=
  mulf (broadcastInDim S4096x32 ![0, 1] bcast_S4096x1_S4096x32_0_1
      (broadcastInDim S4096x1 ![0] bcast_S4096_S4096x1_0 (invDegE r1)))
    (Host.scatterAdd scatter_S4096x32_S524288x1_S524288x32_1_0_0_1
      (broadcastInDim S4096x32 ![] bcast_S_S4096x32 (constant S_ .f32 0x00000000#32)) (col r1)
      (Host.gather gather_S32768x32_S524288x1_S524288x32_1_0_n_n_0_1_132 h (wrap 32768#32 r0)))

/-- Hyperedge features summed back into nodes along the incidences, each node scaled by its inverse degree. -/
def node32 (e : Ten F S4096x32 .f32) (r0 r1 : Ten F S524288 .i32) : Ten F S32768x32 .f32 :=
  mulf (broadcastInDim S32768x32 ![0, 1] bcast_S32768x1_S32768x32_0_1
      (broadcastInDim S32768x1 ![0] bcast_S32768_S32768x1_0 (invDegV r0)))
    (Host.scatterAdd scatter_S32768x32_S524288x1_S524288x32_1_0_0_1
      (broadcastInDim S32768x32 ![] bcast_S_S32768x32 (constant S_ .f32 0x00000000#32)) (col r0)
      (Host.gather gather_S4096x32_S524288x1_S524288x32_1_0_n_n_0_1_132 e (wrap 4096#32 r1)))

/-! ## Biases and rectifiers -/

/-- A single bias, repeated down a column of 32768. -/
def biasCol (b : Ten F S1 .f32) : Ten F S32768x1 .f32 :=
  broadcastInDim S32768x1 ![0, 1] bcast_S1x1_S32768x1_0_1 (broadcastInDim S1x1 ![1] bcast_S1_S1x1_1 b)

/-- A row of 32 biases, repeated over 32768 rows. -/
def biasRow (b : Ten F S32 .f32) : Ten F S32768x32 .f32 :=
  broadcastInDim S32768x32 ![0, 1] bcast_S1x32_S32768x32_0_1 (broadcastInDim S1x32 ![1] bcast_S32_S1x32_1 b)

/-- The rectifier: the larger of each entry and zero. -/
def relu (y : Ten F S32768x1 .f32) : Ten F S32768x1 .f32 :=
  maximumf y (broadcastInDim S32768x1 ![] bcast_S_S32768x1 (constant S_ .f32 0x00000000#32))

/-- The leaky rectifier of slope 0.00999999977: an entry not below zero is kept, any other is scaled by the slope. -/
def leaky (y : Ten F S32768x1 .f32) : Ten F S32768x1 .f32 :=
  select (cmpf .oge y (broadcastInDim S32768x1 ![] bcast_S_S32768x1 (constant S_ .f32 0x00000000#32))) y
    (mulf (broadcastInDim S32768x1 ![] bcast_S_S32768x1 (constant S_ .f32 0x3C23D70A#32)) y)

/-! ## The whole tail -/

/-- The 32 hidden features of each node: the first aggregation of the scores, a bias, the rectifier, and the
    widening by the 1 x 32 weight. -/
def hid (x : Ten F S32768x1 .f32) (hei : Ten F S2x524288 .i32) (b1 : Ten F S1 .f32) (w2 : Ten F S1x32 .f32) :
    Ten F S32768x32 .f32 :=
  Host.dotGeneral dot_S32768x1_S1x32_S32768x32_1_0_0_1_n_n none
    (relu (addf (node1 (edge1 x (row0 hei) (row1 hei)) (row0 hei) (row1 hei)) (biasCol b1))) w2

/-- Everything after the score column: the hidden features, the second aggregation, a bias, the contraction to
    one feature, a bias, the leaky rectifier, and the 32768 rows laid out as 64 x 16 x 32 x 1. -/
def tail_ref (x : Ten F S32768x1 .f32) (hei : Ten F S2x524288 .i32) (b1 : Ten F S1 .f32) (w2 : Ten F S1x32 .f32)
    (b2 : Ten F S32 .f32) (wlin : Ten F S32x1 .f32) (blin : Ten F S1 .f32) : Ten F S64x16x32x1 .f32 :=
  shapeCast S64x16x32x1
    (leaky (addf
      (Host.dotGeneral dot_S32768x32_S32x1_S32768x1_1_0_0_1_n_n none
        (addf (node32 (edge32 (hid x hei b1 w2) (row0 hei) (row1 hei)) (row0 hei) (row1 hei)) (biasRow b2)) wlin)
      (biasCol blin)))
    shapeCasts_S32768x1_S64x16x32x1

end Cert.ReferenceIdeal.Hand

end
-- ==== Proof.RefRunOps.lean ====
/-
  The reference program as a straight line of host operations.

  The program's body is printed in three consecutive windows; each is, by computation, the sequence of the
  operations listed here in its order, a called function's operations standing in its call's place over that
  call's own buffers (the three-way choice inside the leaky rectifier included, over the inner call's buffer).
  Every operation touches tensor-core buffers only, the program scopes no buffer and no semaphore, and each
  window writes exactly the buffers listed for it: a buffer outside that list keeps its contents through it.
-/
import proofs.«144840_j44049184588034_2_alg».proof.Proof.Gen.ReferenceIdeal
import proofs.«144840_j44049184588034_2_alg».proof.Proof.RefTerms
import Idealize.ShloMosaic.Lib.StableHlo.Run
import Idealize.ShloMosaic.Lib.Pipeline.Frame

set_option Elab.async false

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- Operations 1 … 64: the scores, the two index rows, both degrees and their inverses, and the first
    aggregation up to the indices of its read-back. -/
abbrev ops_part0 : List (HloOp τ sig (Elt F)) :=
  [ StableHlo.nullary main_cst (constant S_ .f32 0x41B504F3#32),
    StableHlo.unary main_cst main_v0 (broadcastInDim S64x16x32x512 ![] bcast_S_S64x16x32x512 : (⟨S_, .f32⟩ : BufTy).Contents (Elt F) → (⟨S64x16x32x512, .f32⟩ : BufTy).Contents (Elt F)),
    StableHlo.binary main_arg0 main_v0 main_v1 (Host.divf : (⟨S64x16x32x512, .f32⟩ : BufTy).Contents (Elt F) → (⟨S64x16x32x512, .f32⟩ : BufTy).Contents (Elt F) → (⟨S64x16x32x512, .f32⟩ : BufTy).Contents (Elt F)),
    StableHlo.binary main_v1 main_arg1 main_v2 ((fun l r => Host.dotGeneral dot_S64x16x32x512_S64x16x32x512_S64x16x32x32_3_3_2_2_01_01 none l r) : (⟨S64x16x32x512, .f32⟩ : BufTy).Contents (Elt F) → (⟨S64x16x32x512, .f32⟩ : BufTy).Contents (Elt F) → (⟨S64x16x32x32, .f32⟩ : BufTy).Contents (Elt F)),
    StableHlo.reshape main_v2 main_v3 rfl shapeCasts_S64x16x32x32_S32768x32,
    StableHlo.unary main_arg3 main_v4 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v4 main_v5 rfl shapeCasts_S1x524288_S524288,
    StableHlo.unary main_arg3 main_v6 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v6 main_v7 rfl shapeCasts_S1x524288_S524288,
    StableHlo.binary main_v3 main_arg4 main_v8 ((fun l r => Host.dotGeneral dot_S32768x32_S32x1_S32768x1_1_0_0_1_n_n none l r) : (⟨S32768x32, .f32⟩ : BufTy).Contents (Elt F) → (⟨S32x1, .f32⟩ : BufTy).Contents (Elt F) → (⟨S32768x1, .f32⟩ : BufTy).Contents (Elt F)),
    StableHlo.nullary main_cst_0 (constant S_ .f32 0x3F800000#32),
    StableHlo.unary main_cst_0 main_v9 (broadcastInDim S524288 ![] bcast_S_S524288 : (⟨S_, .f32⟩ : BufTy).Contents (Elt F) → (⟨S524288, .f32⟩ : BufTy).Contents (Elt F)),
    StableHlo.nullary main_cst_1 (constant S_ .f32 0x00000000#32),
    StableHlo.unary main_cst_1 main_v10 (broadcastInDim S32768 ![] bcast_S_S32768 : (⟨S_, .f32⟩ : BufTy).Contents (Elt F) → (⟨S32768, .f32⟩ : BufTy).Contents (Elt F)),
    StableHlo.unary main_v5 main_v11 (broadcastInDim S524288x1 ![0] bcast_S524288_S524288x1_0 : (⟨S524288, .i32⟩ : BufTy).Contents (Elt F) → (⟨S524288x1, .i32⟩ : BufTy).Contents (Elt F)),
    StableHlo.ternary main_v10 main_v11 main_v9 main_v12 ((fun x i u => Host.scatterAdd scatter_S32768_S524288x1_S524288_n_0_0_1 x i u) : (⟨S32768, .f32⟩ : BufTy).Contents (Elt F) → (⟨S524288x1, .i32⟩ : BufTy).Contents (Elt F) → (⟨S524288, .f32⟩ : BufTy).Contents (Elt F) → (⟨S32768, .f32⟩ : BufTy).Contents (Elt F)),
    StableHlo.nullary main_cst_2 (constant S_ .f32 0x00000000#32),
    StableHlo.unary main_cst_2 main_v13 (broadcastInDim S32768 ![] bcast_S_S32768 : (⟨S_, .f32⟩ : BufTy).Contents (Elt F) → (⟨S32768, .f32⟩ : BufTy).Contents (Elt F)),
    StableHlo.binary main_v12 main_v13 main_v14 (cmpf .ogt : (⟨S32768, .f32⟩ : BufTy).Contents (Elt F) → (⟨S32768, .f32⟩ : BufTy).Contents (Elt F) → (⟨S32768, .i1⟩ : BufTy).Contents (Elt F)),
    StableHlo.nullary main_cst_3 (constant S_ .f32 0x3F800000#32),
    StableHlo.unary main_cst_3 main_v15 (broadcastInDim S32768 ![] bcast_S_S32768 : (⟨S_, .f32⟩ : BufTy).Contents (Elt F) → (⟨S32768, .f32⟩ : BufTy).Contents (Elt F)),
    StableHlo.binary main_v15 main_v12 main_v16 (Host.divf : (⟨S32768, .f32⟩ : BufTy).Contents (Elt F) → (⟨S32768, .f32⟩ : BufTy).Contents (Elt F) → (⟨S32768, .f32⟩ : BufTy).Contents (Elt F)),
    StableHlo.nullary main_cst_4 (constant S_ .f32 0x00000000#32),
    StableHlo.TRef.unary (StableHlo.TRef.of (T := ⟨S_, .f32⟩) main_cst_4) main_call0.v0 id,
    StableHlo.TRef.unary main_call0.v0 main_call0.v1 (broadcastInDim S32768 ![] bcast_S_S32768),
    StableHlo.TRef.ternary (StableHlo.TRef.of (T := ⟨S32768, .i1⟩) main_v14) (StableHlo.TRef.of (T := ⟨S32768, .f32⟩) main_v16) main_call0.v1 main_call0.v2 select,
    StableHlo.nullary main_cst_5 (constant S_ .f32 0x00000000#32),
    StableHlo.unary main_cst_5 main_v18 (broadcastInDim S4096 ![] bcast_S_S4096 : (⟨S_, .f32⟩ : BufTy).Contents (Elt F) → (⟨S4096, .f32⟩ : BufTy).Contents (Elt F)),
    StableHlo.unary main_v7 main_v19 (broadcastInDim S524288x1 ![0] bcast_S524288_S524288x1_0 : (⟨S524288, .i32⟩ : BufTy).Contents (Elt F) → (⟨S524288x1, .i32⟩ : BufTy).Contents (Elt F)),
    StableHlo.ternary main_v18 main_v19 main_v9 main_v20 ((fun x i u => Host.scatterAdd scatter_S4096_S524288x1_S524288_n_0_0_1 x i u) : (⟨S4096, .f32⟩ : BufTy).Contents (Elt F) → (⟨S524288x1, .i32⟩ : BufTy).Contents (Elt F) → (⟨S524288, .f32⟩ : BufTy).Contents (Elt F) → (⟨S4096, .f32⟩ : BufTy).Contents (Elt F)),
    StableHlo.nullary main_cst_6 (constant S_ .f32 0x00000000#32),
    StableHlo.unary main_cst_6 main_v21 (broadcastInDim S4096 ![] bcast_S_S4096 : (⟨S_, .f32⟩ : BufTy).Contents (Elt F) → (⟨S4096, .f32⟩ : BufTy).Contents (Elt F)),
    StableHlo.binary main_v20 main_v21 main_v22 (cmpf .ogt : (⟨S4096, .f32⟩ : BufTy).Contents (Elt F) → (⟨S4096, .f32⟩ : BufTy).Contents (Elt F) → (⟨S4096, .i1⟩ : BufTy).Contents (Elt F)),
    StableHlo.nullary main_cst_7 (constant S_ .f32 0x3F800000#32),
    StableHlo.unary main_cst_7 main_v23 (broadcastInDim S4096 ![] bcast_S_S4096 : (⟨S_, .f32⟩ : BufTy).Contents (Elt F) → (⟨S4096, .f32⟩ : BufTy).Contents (Elt F)),
    StableHlo.binary main_v23 main_v20 main_v24 (Host.divf : (⟨S4096, .f32⟩ : BufTy).Contents (Elt F) → (⟨S4096, .f32⟩ : BufTy).Contents (Elt F) → (⟨S4096, .f32⟩ : BufTy).Contents (Elt F)),
    StableHlo.nullary main_cst_8 (constant S_ .f32 0x00000000#32),
    StableHlo.TRef.unary (StableHlo.TRef.of (T := ⟨S_, .f32⟩) main_cst_8) main_call1.v0 id,
    StableHlo.TRef.unary main_call1.v0 main_call1.v1 (broadcastInDim S4096 ![] bcast_S_S4096),
    StableHlo.TRef.ternary (StableHlo.TRef.of (T := ⟨S4096, .i1⟩) main_v22) (StableHlo.TRef.of (T := ⟨S4096, .f32⟩) main_v24) main_call1.v1 main_call1.v2 select,
    StableHlo.unary main_v25 main_v26 (broadcastInDim S4096x1 ![0] bcast_S4096_S4096x1_0 : (⟨S4096, .f32⟩ : BufTy).Contents (Elt F) → (⟨S4096x1, .f32⟩ : BufTy).Contents (Elt F)),
    StableHlo.nullary main_c (constantI S_ 32 0#32),
    StableHlo.unary main_c main_v27 (broadcastInDim S524288 ![] bcast_S_S524288 : (⟨S_, .i32⟩ : BufTy).Contents (Elt F) → (⟨S524288, .i32⟩ : BufTy).Contents (Elt F)),
    StableHlo.binary main_v5 main_v27 main_v28 (cmpi .slt : (⟨S524288, .i32⟩ : BufTy).Contents (Elt F) → (⟨S524288, .i32⟩ : BufTy).Contents (Elt F) → (⟨S524288, .i1⟩ : BufTy).Contents (Elt F)),
    StableHlo.nullary main_c_9 (constantI S_ 32 32768#32),
    StableHlo.unary main_c_9 main_v29 (broadcastInDim S524288 ![] bcast_S_S524288 : (⟨S_, .i32⟩ : BufTy).Contents (Elt F) → (⟨S524288, .i32⟩ : BufTy).Contents (Elt F)),
    StableHlo.binary main_v5 main_v29 main_v30 (addi : (⟨S524288, .i32⟩ : BufTy).Contents (Elt F) → (⟨S524288, .i32⟩ : BufTy).Contents (Elt F) → (⟨S524288, .i32⟩ : BufTy).Contents (Elt F)),
    StableHlo.ternary main_v28 main_v30 main_v5 main_v31 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v31 main_v32 (broadcastInDim S524288x1 ![0] bcast_S524288_S524288x1_0 : (⟨S524288, .i32⟩ : BufTy).Contents (Elt F) → (⟨S524288x1, .i32⟩ : BufTy).Contents (Elt F)),
    StableHlo.binary main_v8 main_v32 main_v33 ((fun x i => Host.gather gather_S32768x1_S524288x1_S524288x1_1_0_n_n_0_1_11 x i) : (⟨S32768x1, .f32⟩ : BufTy).Contents (Elt F) → (⟨S524288x1, .i32⟩ : BufTy).Contents (Elt F) → (⟨S524288x1, .f32⟩ : BufTy).Contents (Elt F)),
    StableHlo.nullary main_cst_10 (constant S_ .f32 0x00000000#32),
    StableHlo.unary main_cst_10 main_v34 (broadcastInDim S4096x1 ![] bcast_S_S4096x1 : (⟨S_, .f32⟩ : BufTy).Contents (Elt F) → (⟨S4096x1, .f32⟩ : BufTy).Contents (Elt F)),
    StableHlo.unary main_v7 main_v35 (broadcastInDim S524288x1 ![0] bcast_S524288_S524288x1_0 : (⟨S524288, .i32⟩ : BufTy).Contents (Elt F) → (⟨S524288x1, .i32⟩ : BufTy).Contents (Elt F)),
    StableHlo.ternary main_v34 main_v35 main_v33 main_v36 ((fun x i u => Host.scatterAdd scatter_S4096x1_S524288x1_S524288x1_1_0_0_1 x i u) : (⟨S4096x1, .f32⟩ : BufTy).Contents (Elt F) → (⟨S524288x1, .i32⟩ : BufTy).Contents (Elt F) → (⟨S524288x1, .f32⟩ : BufTy).Contents (Elt F) → (⟨S4096x1, .f32⟩ : BufTy).Contents (Elt F)),
    StableHlo.binary main_v26 main_v36 main_v37 (mulf : (⟨S4096x1, .f32⟩ : BufTy).Contents (Elt F) → (⟨S4096x1, .f32⟩ : BufTy).Contents (Elt F) → (⟨S4096x1, .f32⟩ : BufTy).Contents (Elt F)),
    StableHlo.unary main_v17 main_v38 (broadcastInDim S32768x1 ![0] bcast_S32768_S32768x1_0 : (⟨S32768, .f32⟩ : BufTy).Contents (Elt F) → (⟨S32768x1, .f32⟩ : BufTy).Contents (Elt F)),
    StableHlo.nullary main_c_11 (constantI S_ 32 0#32),
    StableHlo.unary main_c_11 main_v39 (broadcastInDim S524288 ![] bcast_S_S524288 : (⟨S_, .i32⟩ : BufTy).Contents (Elt F) → (⟨S524288, .i32⟩ : BufTy).Contents (Elt F)),
    StableHlo.binary main_v7 main_v39 main_v40 (cmpi .slt : (⟨S524288, .i32⟩ : BufTy).Contents (Elt F) → (⟨S524288, .i32⟩ : BufTy).Contents (Elt F) → (⟨S524288, .i1⟩ : BufTy).Contents (Elt F)),
    StableHlo.nullary main_c_12 (constantI S_ 32 4096#32),
    StableHlo.unary main_c_12 main_v41 (broadcastInDim S524288 ![] bcast_S_S524288 : (⟨S_, .i32⟩ : BufTy).Contents (Elt F) → (⟨S524288, .i32⟩ : BufTy).Contents (Elt F)),
    StableHlo.binary main_v7 main_v41 main_v42 (addi : (⟨S524288, .i32⟩ : BufTy).Contents (Elt F) → (⟨S524288, .i32⟩ : BufTy).Contents (Elt F) → (⟨S524288, .i32⟩ : BufTy).Contents (Elt F)),
    StableHlo.ternary main_v40 main_v42 main_v7 main_v43 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v43 main_v44 (broadcastInDim S524288x1 ![0] bcast_S524288_S524288x1_0 : (⟨S524288, .i32⟩ : BufTy).Contents (Elt F) → (⟨S524288x1, .i32⟩ : BufTy).Contents (Elt F)) ]

/-- Operations 65 … 130: the rest of the first aggregation, the bias, the rectifier, the widening, the degrees
    again, and the second aggregation up to the indices of its read-back. -/
abbrev ops_part1 : List (HloOp τ sig (Elt F)) :=
  [ StableHlo.binary main_v37 main_v44 main_v45 ((fun x i => Host.gather gather_S4096x1_S524288x1_S524288x1_1_0_n_n_0_1_11 x i) : (⟨S4096x1, .f32⟩ : BufTy).Contents (Elt F) → (⟨S524288x1, .i32⟩ : BufTy).Contents (Elt F) → (⟨S524288x1, .f32⟩ : BufTy).Contents (Elt F)),
    StableHlo.nullary main_cst_13 (constant S_ .f32 0x00000000#32),
    StableHlo.unary main_cst_13 main_v46 (broadcastInDim S32768x1 ![] bcast_S_S32768x1 : (⟨S_, .f32⟩ : BufTy).Contents (Elt F) → (⟨S32768x1, .f32⟩ : BufTy).Contents (Elt F)),
    StableHlo.unary main_v5 main_v47 (broadcastInDim S524288x1 ![0] bcast_S524288_S524288x1_0 : (⟨S524288, .i32⟩ : BufTy).Contents (Elt F) → (⟨S524288x1, .i32⟩ : BufTy).Contents (Elt F)),
    StableHlo.ternary main_v46 main_v47 main_v45 main_v48 ((fun x i u => Host.scatterAdd scatter_S32768x1_S524288x1_S524288x1_1_0_0_1 x i u) : (⟨S32768x1, .f32⟩ : BufTy).Contents (Elt F) → (⟨S524288x1, .i32⟩ : BufTy).Contents (Elt F) → (⟨S524288x1, .f32⟩ : BufTy).Contents (Elt F) → (⟨S32768x1, .f32⟩ : BufTy).Contents (Elt F)),
    StableHlo.binary main_v38 main_v48 main_v49 (mulf : (⟨S32768x1, .f32⟩ : BufTy).Contents (Elt F) → (⟨S32768x1, .f32⟩ : BufTy).Contents (Elt F) → (⟨S32768x1, .f32⟩ : BufTy).Contents (Elt F)),
    StableHlo.unary main_arg5 main_v50 (broadcastInDim S1x1 ![1] bcast_S1_S1x1_1 : (⟨S1, .f32⟩ : BufTy).Contents (Elt F) → (⟨S1x1, .f32⟩ : BufTy).Contents (Elt F)),
    StableHlo.unary main_v50 main_v51 (broadcastInDim S32768x1 ![0, 1] bcast_S1x1_S32768x1_0_1 : (⟨S1x1, .f32⟩ : BufTy).Contents (Elt F) → (⟨S32768x1, .f32⟩ : BufTy).Contents (Elt F)),
    StableHlo.binary main_v49 main_v51 main_v52 (addf : (⟨S32768x1, .f32⟩ : BufTy).Contents (Elt F) → (⟨S32768x1, .f32⟩ : BufTy).Contents (Elt F) → (⟨S32768x1, .f32⟩ : BufTy).Contents (Elt F)),
    StableHlo.TRef.nullary main_call2.cst (constant S_ .f32 0x00000000#32),
    StableHlo.TRef.unary main_call2.cst main_call2.v0 (broadcastInDim S32768x1 ![] bcast_S_S32768x1),
    StableHlo.TRef.binary (StableHlo.TRef.of (T := ⟨S32768x1, .f32⟩) main_v52) main_call2.v0 main_call2.v1 maximumf,
    StableHlo.binary main_v53 main_arg6 main_v54 ((fun l r => Host.dotGeneral dot_S32768x1_S1x32_S32768x32_1_0_0_1_n_n none l r) : (⟨S32768x1, .f32⟩ : BufTy).Contents (Elt F) → (⟨S1x32, .f32⟩ : BufTy).Contents (Elt F) → (⟨S32768x32, .f32⟩ : BufTy).Contents (Elt F)),
    StableHlo.nullary main_cst_14 (constant S_ .f32 0x3F800000#32),
    StableHlo.unary main_cst_14 main_v55 (broadcastInDim S524288 ![] bcast_S_S524288 : (⟨S_, .f32⟩ : BufTy).Contents (Elt F) → (⟨S524288, .f32⟩ : BufTy).Contents (Elt F)),
    StableHlo.nullary main_cst_15 (constant S_ .f32 0x00000000#32),
    StableHlo.unary main_cst_15 main_v56 (broadcastInDim S32768 ![] bcast_S_S32768 : (⟨S_, .f32⟩ : BufTy).Contents (Elt F) → (⟨S32768, .f32⟩ : BufTy).Contents (Elt F)),
    StableHlo.unary main_v5 main_v57 (broadcastInDim S524288x1 ![0] bcast_S524288_S524288x1_0 : (⟨S524288, .i32⟩ : BufTy).Contents (Elt F) → (⟨S524288x1, .i32⟩ : BufTy).Contents (Elt F)),
    StableHlo.ternary main_v56 main_v57 main_v55 main_v58 ((fun x i u => Host.scatterAdd scatter_S32768_S524288x1_S524288_n_0_0_1 x i u) : (⟨S32768, .f32⟩ : BufTy).Contents (Elt F) → (⟨S524288x1, .i32⟩ : BufTy).Contents (Elt F) → (⟨S524288, .f32⟩ : BufTy).Contents (Elt F) → (⟨S32768, .f32⟩ : BufTy).Contents (Elt F)),
    StableHlo.nullary main_cst_16 (constant S_ .f32 0x00000000#32),
    StableHlo.unary main_cst_16 main_v59 (broadcastInDim S32768 ![] bcast_S_S32768 : (⟨S_, .f32⟩ : BufTy).Contents (Elt F) → (⟨S32768, .f32⟩ : BufTy).Contents (Elt F)),
    StableHlo.binary main_v58 main_v59 main_v60 (cmpf .ogt : (⟨S32768, .f32⟩ : BufTy).Contents (Elt F) → (⟨S32768, .f32⟩ : BufTy).Contents (Elt F) → (⟨S32768, .i1⟩ : BufTy).Contents (Elt F)),
    StableHlo.nullary main_cst_17 (constant S_ .f32 0x3F800000#32),
    StableHlo.unary main_cst_17 main_v61 (broadcastInDim S32768 ![] bcast_S_S32768 : (⟨S_, .f32⟩ : BufTy).Contents (Elt F) → (⟨S32768, .f32⟩ : BufTy).Contents (Elt F)),
    StableHlo.binary main_v61 main_v58 main_v62 (Host.divf : (⟨S32768, .f32⟩ : BufTy).Contents (Elt F) → (⟨S32768, .f32⟩ : BufTy).Contents (Elt F) → (⟨S32768, .f32⟩ : BufTy).Contents (Elt F)),
    StableHlo.nullary main_cst_18 (constant S_ .f32 0x00000000#32),
    StableHlo.TRef.unary (StableHlo.TRef.of (T := ⟨S_, .f32⟩) main_cst_18) main_call3.v0 id,
    StableHlo.TRef.unary main_call3.v0 main_call3.v1 (broadcastInDim S32768 ![] bcast_S_S32768),
    StableHlo.TRef.ternary (StableHlo.TRef.of (T := ⟨S32768, .i1⟩) main_v60) (StableHlo.TRef.of (T := ⟨S32768, .f32⟩) main_v62) main_call3.v1 main_call3.v2 select,
    StableHlo.nullary main_cst_19 (constant S_ .f32 0x00000000#32),
    StableHlo.unary main_cst_19 main_v64 (broadcastInDim S4096 ![] bcast_S_S4096 : (⟨S_, .f32⟩ : BufTy).Contents (Elt F) → (⟨S4096, .f32⟩ : BufTy).Contents (Elt F)),
    StableHlo.unary main_v7 main_v65 (broadcastInDim S524288x1 ![0] bcast_S524288_S524288x1_0 : (⟨S524288, .i32⟩ : BufTy).Contents (Elt F) → (⟨S524288x1, .i32⟩ : BufTy).Contents (Elt F)),
    StableHlo.ternary main_v64 main_v65 main_v55 main_v66 ((fun x i u => Host.scatterAdd scatter_S4096_S524288x1_S524288_n_0_0_1 x i u) : (⟨S4096, .f32⟩ : BufTy).Contents (Elt F) → (⟨S524288x1, .i32⟩ : BufTy).Contents (Elt F) → (⟨S524288, .f32⟩ : BufTy).Contents (Elt F) → (⟨S4096, .f32⟩ : BufTy).Contents (Elt F)),
    StableHlo.nullary main_cst_20 (constant S_ .f32 0x00000000#32),
    StableHlo.unary main_cst_20 main_v67 (broadcastInDim S4096 ![] bcast_S_S4096 : (⟨S_, .f32⟩ : BufTy).Contents (Elt F) → (⟨S4096, .f32⟩ : BufTy).Contents (Elt F)),
    StableHlo.binary main_v66 main_v67 main_v68 (cmpf .ogt : (⟨S4096, .f32⟩ : BufTy).Contents (Elt F) → (⟨S4096, .f32⟩ : BufTy).Contents (Elt F) → (⟨S4096, .i1⟩ : BufTy).Contents (Elt F)),
    StableHlo.nullary main_cst_21 (constant S_ .f32 0x3F800000#32),
    StableHlo.unary main_cst_21 main_v69 (broadcastInDim S4096 ![] bcast_S_S4096 : (⟨S_, .f32⟩ : BufTy).Contents (Elt F) → (⟨S4096, .f32⟩ : BufTy).Contents (Elt F)),
    StableHlo.binary main_v69 main_v66 main_v70 (Host.divf : (⟨S4096, .f32⟩ : BufTy).Contents (Elt F) → (⟨S4096, .f32⟩ : BufTy).Contents (Elt F) → (⟨S4096, .f32⟩ : BufTy).Contents (Elt F)),
    StableHlo.nullary main_cst_22 (constant S_ .f32 0x00000000#32),
    StableHlo.TRef.unary (StableHlo.TRef.of (T := ⟨S_, .f32⟩) main_cst_22) main_call4.v0 id,
    StableHlo.TRef.unary main_call4.v0 main_call4.v1 (broadcastInDim S4096 ![] bcast_S_S4096),
    StableHlo.TRef.ternary (StableHlo.TRef.of (T := ⟨S4096, .i1⟩) main_v68) (StableHlo.TRef.of (T := ⟨S4096, .f32⟩) main_v70) main_call4.v1 main_call4.v2 select,
    StableHlo.unary main_v71 main_v72 (broadcastInDim S4096x1 ![0] bcast_S4096_S4096x1_0 : (⟨S4096, .f32⟩ : BufTy).Contents (Elt F) → (⟨S4096x1, .f32⟩ : BufTy).Contents (Elt F)),
    StableHlo.nullary main_c_23 (constantI S_ 32 0#32),
    StableHlo.unary main_c_23 main_v73 (broadcastInDim S524288 ![] bcast_S_S524288 : (⟨S_, .i32⟩ : BufTy).Contents (Elt F) → (⟨S524288, .i32⟩ : BufTy).Contents (Elt F)),
    StableHlo.binary main_v5 main_v73 main_v74 (cmpi .slt : (⟨S524288, .i32⟩ : BufTy).Contents (Elt F) → (⟨S524288, .i32⟩ : BufTy).Contents (Elt F) → (⟨S524288, .i1⟩ : BufTy).Contents (Elt F)),
    StableHlo.nullary main_c_24 (constantI S_ 32 32768#32),
    StableHlo.unary main_c_24 main_v75 (broadcastInDim S524288 ![] bcast_S_S524288 : (⟨S_, .i32⟩ : BufTy).Contents (Elt F) → (⟨S524288, .i32⟩ : BufTy).Contents (Elt F)),
    StableHlo.binary main_v5 main_v75 main_v76 (addi : (⟨S524288, .i32⟩ : BufTy).Contents (Elt F) → (⟨S524288, .i32⟩ : BufTy).Contents (Elt F) → (⟨S524288, .i32⟩ : BufTy).Contents (Elt F)),
    StableHlo.ternary main_v74 main_v76 main_v5 main_v77 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v77 main_v78 (broadcastInDim S524288x1 ![0] bcast_S524288_S524288x1_0 : (⟨S524288, .i32⟩ : BufTy).Contents (Elt F) → (⟨S524288x1, .i32⟩ : BufTy).Contents (Elt F)),
    StableHlo.binary main_v54 main_v78 main_v79 ((fun x i => Host.gather gather_S32768x32_S524288x1_S524288x32_1_0_n_n_0_1_132 x i) : (⟨S32768x32, .f32⟩ : BufTy).Contents (Elt F) → (⟨S524288x1, .i32⟩ : BufTy).Contents (Elt F) → (⟨S524288x32, .f32⟩ : BufTy).Contents (Elt F)),
    StableHlo.nullary main_cst_25 (constant S_ .f32 0x00000000#32),
    StableHlo.unary main_cst_25 main_v80 (broadcastInDim S4096x32 ![] bcast_S_S4096x32 : (⟨S_, .f32⟩ : BufTy).Contents (Elt F) → (⟨S4096x32, .f32⟩ : BufTy).Contents (Elt F)),
    StableHlo.unary main_v7 main_v81 (broadcastInDim S524288x1 ![0] bcast_S524288_S524288x1_0 : (⟨S524288, .i32⟩ : BufTy).Contents (Elt F) → (⟨S524288x1, .i32⟩ : BufTy).Contents (Elt F)),
    StableHlo.ternary main_v80 main_v81 main_v79 main_v82 ((fun x i u => Host.scatterAdd scatter_S4096x32_S524288x1_S524288x32_1_0_0_1 x i u) : (⟨S4096x32, .f32⟩ : BufTy).Contents (Elt F) → (⟨S524288x1, .i32⟩ : BufTy).Contents (Elt F) → (⟨S524288x32, .f32⟩ : BufTy).Contents (Elt F) → (⟨S4096x32, .f32⟩ : BufTy).Contents (Elt F)),
    StableHlo.unary main_v72 main_v83 (broadcastInDim S4096x32 ![0, 1] bcast_S4096x1_S4096x32_0_1 : (⟨S4096x1, .f32⟩ : BufTy).Contents (Elt F) → (⟨S4096x32, .f32⟩ : BufTy).Contents (Elt F)),
    StableHlo.binary main_v83 main_v82 main_v84 (mulf : (⟨S4096x32, .f32⟩ : BufTy).Contents (Elt F) → (⟨S4096x32, .f32⟩ : BufTy).Contents (Elt F) → (⟨S4096x32, .f32⟩ : BufTy).Contents (Elt F)),
    StableHlo.unary main_v63 main_v85 (broadcastInDim S32768x1 ![0] bcast_S32768_S32768x1_0 : (⟨S32768, .f32⟩ : BufTy).Contents (Elt F) → (⟨S32768x1, .f32⟩ : BufTy).Contents (Elt F)),
    StableHlo.nullary main_c_26 (constantI S_ 32 0#32),
    StableHlo.unary main_c_26 main_v86 (broadcastInDim S524288 ![] bcast_S_S524288 : (⟨S_, .i32⟩ : BufTy).Contents (Elt F) → (⟨S524288, .i32⟩ : BufTy).Contents (Elt F)),
    StableHlo.binary main_v7 main_v86 main_v87 (cmpi .slt : (⟨S524288, .i32⟩ : BufTy).Contents (Elt F) → (⟨S524288, .i32⟩ : BufTy).Contents (Elt F) → (⟨S524288, .i1⟩ : BufTy).Contents (Elt F)),
    StableHlo.nullary main_c_27 (constantI S_ 32 4096#32),
    StableHlo.unary main_c_27 main_v88 (broadcastInDim S524288 ![] bcast_S_S524288 : (⟨S_, .i32⟩ : BufTy).Contents (Elt F) → (⟨S524288, .i32⟩ : BufTy).Contents (Elt F)),
    StableHlo.binary main_v7 main_v88 main_v89 (addi : (⟨S524288, .i32⟩ : BufTy).Contents (Elt F) → (⟨S524288, .i32⟩ : BufTy).Contents (Elt F) → (⟨S524288, .i32⟩ : BufTy).Contents (Elt F)) ]

/-- Operations 131 … 155: the rest of the second aggregation, the bias, the contraction, the bias, the leaky
    rectifier and the final layout. -/
abbrev ops_part2 : List (HloOp τ sig (Elt F)) :=
  [ StableHlo.ternary main_v87 main_v89 main_v7 main_v90 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v90 main_v91 (broadcastInDim S524288x1 ![0] bcast_S524288_S524288x1_0 : (⟨S524288, .i32⟩ : BufTy).Contents (Elt F) → (⟨S524288x1, .i32⟩ : BufTy).Contents (Elt F)),
    StableHlo.binary main_v84 main_v91 main_v92 ((fun x i => Host.gather gather_S4096x32_S524288x1_S524288x32_1_0_n_n_0_1_132 x i) : (⟨S4096x32, .f32⟩ : BufTy).Contents (Elt F) → (⟨S524288x1, .i32⟩ : BufTy).Contents (Elt F) → (⟨S524288x32, .f32⟩ : BufTy).Contents (Elt F)),
    StableHlo.nullary main_cst_28 (constant S_ .f32 0x00000000#32),
    StableHlo.unary main_cst_28 main_v93 (broadcastInDim S32768x32 ![] bcast_S_S32768x32 : (⟨S_, .f32⟩ : BufTy).Contents (Elt F) → (⟨S32768x32, .f32⟩ : BufTy).Contents (Elt F)),
    StableHlo.unary main_v5 main_v94 (broadcastInDim S524288x1 ![0] bcast_S524288_S524288x1_0 : (⟨S524288, .i32⟩ : BufTy).Contents (Elt F) → (⟨S524288x1, .i32⟩ : BufTy).Contents (Elt F)),
    StableHlo.ternary main_v93 main_v94 main_v92 main_v95 ((fun x i u => Host.scatterAdd scatter_S32768x32_S524288x1_S524288x32_1_0_0_1 x i u) : (⟨S32768x32, .f32⟩ : BufTy).Contents (Elt F) → (⟨S524288x1, .i32⟩ : BufTy).Contents (Elt F) → (⟨S524288x32, .f32⟩ : BufTy).Contents (Elt F) → (⟨S32768x32, .f32⟩ : BufTy).Contents (Elt F)),
    StableHlo.unary main_v85 main_v96 (broadcastInDim S32768x32 ![0, 1] bcast_S32768x1_S32768x32_0_1 : (⟨S32768x1, .f32⟩ : BufTy).Contents (Elt F) → (⟨S32768x32, .f32⟩ : BufTy).Contents (Elt F)),
    StableHlo.binary main_v96 main_v95 main_v97 (mulf : (⟨S32768x32, .f32⟩ : BufTy).Contents (Elt F) → (⟨S32768x32, .f32⟩ : BufTy).Contents (Elt F) → (⟨S32768x32, .f32⟩ : BufTy).Contents (Elt F)),
    StableHlo.unary main_arg7 main_v98 (broadcastInDim S1x32 ![1] bcast_S32_S1x32_1 : (⟨S32, .f32⟩ : BufTy).Contents (Elt F) → (⟨S1x32, .f32⟩ : BufTy).Contents (Elt F)),
    StableHlo.unary main_v98 main_v99 (broadcastInDim S32768x32 ![0, 1] bcast_S1x32_S32768x32_0_1 : (⟨S1x32, .f32⟩ : BufTy).Contents (Elt F) → (⟨S32768x32, .f32⟩ : BufTy).Contents (Elt F)),
    StableHlo.binary main_v97 main_v99 main_v100 (addf : (⟨S32768x32, .f32⟩ : BufTy).Contents (Elt F) → (⟨S32768x32, .f32⟩ : BufTy).Contents (Elt F) → (⟨S32768x32, .f32⟩ : BufTy).Contents (Elt F)),
    StableHlo.binary main_v100 main_arg8 main_v101 ((fun l r => Host.dotGeneral dot_S32768x32_S32x1_S32768x1_1_0_0_1_n_n none l r) : (⟨S32768x32, .f32⟩ : BufTy).Contents (Elt F) → (⟨S32x1, .f32⟩ : BufTy).Contents (Elt F) → (⟨S32768x1, .f32⟩ : BufTy).Contents (Elt F)),
    StableHlo.unary main_arg9 main_v102 (broadcastInDim S1x1 ![1] bcast_S1_S1x1_1 : (⟨S1, .f32⟩ : BufTy).Contents (Elt F) → (⟨S1x1, .f32⟩ : BufTy).Contents (Elt F)),
    StableHlo.unary main_v102 main_v103 (broadcastInDim S32768x1 ![0, 1] bcast_S1x1_S32768x1_0_1 : (⟨S1x1, .f32⟩ : BufTy).Contents (Elt F) → (⟨S32768x1, .f32⟩ : BufTy).Contents (Elt F)),
    StableHlo.binary main_v101 main_v103 main_v104 (addf : (⟨S32768x1, .f32⟩ : BufTy).Contents (Elt F) → (⟨S32768x1, .f32⟩ : BufTy).Contents (Elt F) → (⟨S32768x1, .f32⟩ : BufTy).Contents (Elt F)),
    StableHlo.nullary main_cst_29 (constant S_ .f32 0x3C23D70A#32),
    StableHlo.TRef.nullary main_call5.cst (constant S_ .f32 0x00000000#32),
    StableHlo.TRef.unary main_call5.cst main_call5.v0 (broadcastInDim S32768x1 ![] bcast_S_S32768x1),
    StableHlo.TRef.binary (StableHlo.TRef.of (T := ⟨S32768x1, .f32⟩) main_v104) main_call5.v0 main_call5.v1 (cmpf .oge),
    StableHlo.TRef.unary (StableHlo.TRef.of (T := ⟨S_, .f32⟩) main_cst_29) main_call5.v2 id,
    StableHlo.TRef.unary main_call5.v2 main_call5.v3 (broadcastInDim S32768x1 ![] bcast_S_S32768x1),
    StableHlo.TRef.binary main_call5.v3 (StableHlo.TRef.of (T := ⟨S32768x1, .f32⟩) main_v104) main_call5.v4 mulf,
    StableHlo.TRef.ternary main_call5.v1 (StableHlo.TRef.of (T := ⟨S32768x1, .f32⟩) main_v104) main_call5.v4 main_call5.call0.v0 select,
    StableHlo.reshape main_v105 main_v106 rfl shapeCasts_S32768x1_S64x16x32x1 ]

/-- All 155 operations, in order. -/
abbrev ops : List (HloOp τ sig (Elt F)) :=
  ops_part0 ++ (ops_part1 ++ ops_part2)

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl

set_option maxRecDepth 8192 in
/-- The program is the three windows in turn, and a sequence of two lists is the sequence of their
    concatenation. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨nullary_bufs_sub .., unary_bufs_sub .., binary_bufs_sub .., binary_bufs_sub .., reshape_bufs_sub .., unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub ..⟩
set_option maxRecDepth 8192 in
theorem ops_part1_sub : (ops_part1 : List (HloOp τ sig (Elt F))).Forall fun op => op.bufs ⊆ tcRefs τ sig :=
  ⟨binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., nullary_bufs_sub .., unary_bufs_sub .., binary_bufs_sub .., nullary_bufs_sub .., unary_bufs_sub .., binary_bufs_sub ..⟩
set_option maxRecDepth 8192 in
theorem ops_part2_sub : (ops_part2 : List (HloOp τ sig (Elt F))).Forall fun op => op.bufs ⊆ tcRefs τ sig :=
  ⟨ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., reshape_bufs_sub ..⟩

/-- Every operation touches tensor-core buffers only: window by window. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h,
      List.forall_iff_forall_mem.mp ops_part2_sub op h]

/-! ## What each window writes -/

/-- The buffers the first window writes. -/
abbrev ops_part0_W : List (Ref sig .tc) :=
  [main_cst, main_v0, main_v1, main_v2, main_v3, main_v4, main_v5, main_v6, main_v7, main_v8, main_cst_0, main_v9, main_cst_1, main_v10, main_v11, main_v12, main_cst_2, main_v13, main_v14, main_cst_3, main_v15, main_v16, main_cst_4, (main_call0.v0).ref, (main_call0.v1).ref, (main_call0.v2).ref, main_cst_5, main_v18, main_v19, main_v20, main_cst_6, main_v21, main_v22, main_cst_7, main_v23, main_v24, main_cst_8, (main_call1.v0).ref, (main_call1.v1).ref, (main_call1.v2).ref, main_v26, main_c, main_v27, main_v28, main_c_9, main_v29, main_v30, main_v31, main_v32, main_v33, main_cst_10, main_v34, main_v35, main_v36, main_v37, main_v38, main_c_11, main_v39, main_v40, main_c_12, main_v41, main_v42, main_v43, main_v44]
/-- The buffers the second window writes. -/
abbrev ops_part1_W : List (Ref sig .tc) :=
  [main_v45, main_cst_13, main_v46, main_v47, main_v48, main_v49, main_v50, main_v51, main_v52, (main_call2.cst).ref, (main_call2.v0).ref, (main_call2.v1).ref, main_v54, main_cst_14, main_v55, main_cst_15, main_v56, main_v57, main_v58, main_cst_16, main_v59, main_v60, main_cst_17, main_v61, main_v62, main_cst_18, (main_call3.v0).ref, (main_call3.v1).ref, (main_call3.v2).ref, main_cst_19, main_v64, main_v65, main_v66, main_cst_20, main_v67, main_v68, main_cst_21, main_v69, main_v70, main_cst_22, (main_call4.v0).ref, (main_call4.v1).ref, (main_call4.v2).ref, main_v72, main_c_23, main_v73, main_v74, main_c_24, main_v75, main_v76, main_v77, main_v78, main_v79, main_cst_25, main_v80, main_v81, main_v82, main_v83, main_v84, main_v85, main_c_26, main_v86, main_v87, main_c_27, main_v88, main_v89]
/-- The buffers the third window writes. -/
abbrev ops_part2_W : List (Ref sig .tc) :=
  [main_v90, main_v91, main_v92, main_cst_28, main_v93, main_v94, main_v95, main_v96, main_v97, main_v98, main_v99, main_v100, main_v101, main_v102, main_v103, main_v104, main_cst_29, (main_call5.cst).ref, (main_call5.v0).ref, (main_call5.v1).ref, (main_call5.v2).ref, (main_call5.v3).ref, (main_call5.v4).ref, (main_call5.call0.v0).ref, main_v106]

set_option maxRecDepth 8192 in
theorem ops_part0_writes : (ops_part0 : List (HloOp τ sig (Elt F))).Forall fun op => op.writes ⊆ (ops_part0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
set_option maxRecDepth 8192 in
theorem ops_part1_writes : (ops_part1 : List (HloOp τ sig (Elt F))).Forall fun op => op.writes ⊆ (ops_part1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
set_option maxRecDepth 8192 in
theorem ops_part2_writes : (ops_part2 : List (HloOp τ sig (Elt F))).Forall fun op => op.writes ⊆ (ops_part2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.ReferenceIdeal.Hand

end
-- ==== Proof.RefRunWin0.lean ====
/-
  The buffers' contents after the first window, read off as terms of the arguments.

  From any contents V0: the two index rows are rows 0 and 1 of the incidence list; the hyperedge features of the
  first aggregation are the scores summed into hyperedges and scaled by the inverse hyperedge degree; the inverse
  node degree stands ready as a column; the hyperedge indices stand ready, made non-negative, for the read-back.
  Every argument is untouched.
-/
import proofs.«144840_j44049184588034_2_alg».proof.Proof.RefRunOps

set_option Elab.async false

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- The node index row of the incidence list held in the fourth argument. -/
def R0 (V0 : Valuation τ sig (Elt F)) : Ten F S524288 .i32 := row0 (V0 (Proc.devRef .tc main_arg3))
/-- The hyperedge index row of the incidence list held in the fourth argument. -/
def R1 (V0 : Valuation τ sig (Elt F)) : Ten F S524288 .i32 := row1 (V0 (Proc.devRef .tc main_arg3))
/-- The score column of the queries, keys and weight column held in the first, second and fifth arguments. -/
def X (V0 : Valuation τ sig (Elt F)) : Ten F S32768x1 .f32 :=
  x_ref (V0 (Proc.devRef .tc main_arg0)) (V0 (Proc.devRef .tc main_arg1)) (V0 (Proc.devRef .tc main_arg4))

/-- The contents after the first window. -/
def val1 (V0 : Valuation τ sig (Elt F)) : Valuation τ sig (Elt F) := after ops_part0 V0

/-- A buffer the first window does not write keeps its contents through it. -/
theorem val1_keep (V0 : Valuation τ sig (Elt F)) (r : Ref sig .tc) (h : r ∉ ops_part0_W) :
    val1 V0 (Proc.devRef .tc r) = V0 (Proc.devRef .tc r) :=
  after_of_writes_sub ops_part0 _ ops_part0_writes h

theorem val1_main_arg0 (V0 : Valuation τ sig (Elt F)) : val1 V0 (no_index (Proc.devRef .tc main_arg0)) = V0 (Proc.devRef .tc main_arg0) :=
  val1_keep V0 main_arg0 (by decide)
theorem val1_main_arg1 (V0 : Valuation τ sig (Elt F)) : val1 V0 (no_index (Proc.devRef .tc main_arg1)) = V0 (Proc.devRef .tc main_arg1) :=
  val1_keep V0 main_arg1 (by decide)
theorem val1_main_arg2 (V0 : Valuation τ sig (Elt F)) : val1 V0 (no_index (Proc.devRef .tc main_arg2)) = V0 (Proc.devRef .tc main_arg2) :=
  val1_keep V0 main_arg2 (by decide)
theorem val1_main_arg3 (V0 : Valuation τ sig (Elt F)) : val1 V0 (no_index (Proc.devRef .tc main_arg3)) = V0 (Proc.devRef .tc main_arg3) :=
  val1_keep V0 main_arg3 (by decide)
theorem val1_main_arg4 (V0 : Valuation τ sig (Elt F)) : val1 V0 (no_index (Proc.devRef .tc main_arg4)) = V0 (Proc.devRef .tc main_arg4) :=
  val1_keep V0 main_arg4 (by decide)
theorem val1_main_arg5 (V0 : Valuation τ sig (Elt F)) : val1 V0 (no_index (Proc.devRef .tc main_arg5)) = V0 (Proc.devRef .tc main_arg5) :=
  val1_keep V0 main_arg5 (by decide)
theorem val1_main_arg6 (V0 : Valuation τ sig (Elt F)) : val1 V0 (no_index (Proc.devRef .tc main_arg6)) = V0 (Proc.devRef .tc main_arg6) :=
  val1_keep V0 main_arg6 (by decide)
theorem val1_main_arg7 (V0 : Valuation τ sig (Elt F)) : val1 V0 (no_index (Proc.devRef .tc main_arg7)) = V0 (Proc.devRef .tc main_arg7) :=
  val1_keep V0 main_arg7 (by decide)
theorem val1_main_arg8 (V0 : Valuation τ sig (Elt F)) : val1 V0 (no_index (Proc.devRef .tc main_arg8)) = V0 (Proc.devRef .tc main_arg8) :=
  val1_keep V0 main_arg8 (by decide)
theorem val1_main_arg9 (V0 : Valuation τ sig (Elt F)) : val1 V0 (no_index (Proc.devRef .tc main_arg9)) = V0 (Proc.devRef .tc main_arg9) :=
  val1_keep V0 main_arg9 (by decide)

set_option maxRecDepth 8192 in
set_option maxHeartbeats 2000000 in
theorem val1_main_v5 (V0 : Valuation τ sig (Elt F)) : val1 V0 (no_index (Proc.devRef .tc main_v5)) = R0 V0 := by
  unfold val1
  simp only [ops_part0]
  after_results_simp
  all_goals rfl

set_option maxRecDepth 8192 in
set_option maxHeartbeats 2000000 in
theorem val1_main_v7 (V0 : Valuation τ sig (Elt F)) : val1 V0 (no_index (Proc.devRef .tc main_v7)) = R1 V0 := by
  unfold val1
  simp only [ops_part0]
  after_results_simp
  all_goals rfl

set_option maxRecDepth 8192 in
set_option maxHeartbeats 2000000 in
theorem val1_main_v37 (V0 : Valuation τ sig (Elt F)) : val1 V0 (no_index (Proc.devRef .tc main_v37)) = edge1 (X V0) (R0 V0) (R1 V0) := by
  unfold val1
  simp only [ops_part0]
  after_results_simp
  all_goals rfl

set_option maxRecDepth 8192 in
set_option maxHeartbeats 2000000 in
theorem val1_main_v38 (V0 : Valuation τ sig (Elt F)) : val1 V0 (no_index (Proc.devRef .tc main_v38)) = broadcastInDim S32768x1 ![0] bcast_S32768_S32768x1_0 (invDegV (R0 V0)) := by
  unfold val1
  simp only [ops_part0]
  after_results_simp
  all_goals rfl

set_option maxRecDepth 8192 in
set_option maxHeartbeats 2000000 in
theorem val1_main_v44 (V0 : Valuation τ sig (Elt F)) : val1 V0 (no_index (Proc.devRef .tc main_v44)) = wrap 4096#32 (R1 V0) := by
  unfold val1
  simp only [ops_part0]
  after_results_simp
  all_goals rfl

end Cert.ReferenceIdeal.Hand

end
-- ==== Proof.RefRunWin1.lean ====
/-
  The buffers' contents after the second window, read off as terms of the arguments.

  From any contents V0: the first aggregation is completed (hyperedge features read back along the incidences,
  summed into nodes, scaled by the inverse node degree), a bias is added, the rectifier applied and the column
  widened to 32 hidden features; the hyperedge features of the second aggregation are those hidden features
  summed into hyperedges and scaled by the inverse hyperedge degree; the inverse node degree stands ready as a
  column, and the two halves of making the hyperedge indices non-negative (the comparison with zero, the sum with
  the extent 4096) stand ready for the choice between them. The index rows and every argument are untouched.
-/
import proofs.«144840_j44049184588034_2_alg».proof.Proof.RefRunWin0

set_option Elab.async false

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- The 32 hidden features of each node, of the arguments held in V0. -/
def H (V0 : Valuation τ sig (Elt F)) : Ten F S32768x32 .f32 :=
  hid (X V0) (V0 (Proc.devRef .tc main_arg3)) (V0 (Proc.devRef .tc main_arg5)) (V0 (Proc.devRef .tc main_arg6))

/-- The contents after the second window. -/
def val2 (V0 : Valuation τ sig (Elt F)) : Valuation τ sig (Elt F) := after ops_part1 (val1 V0)

/-- A buffer the second window does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h

theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_v5 (V0 : Valuation τ sig (Elt F)) : val2 V0 (no_index (Proc.devRef .tc main_v5)) = R0 V0 :=
  (val2_keep V0 main_v5 (by decide)).trans (val1_main_v5 V0)
theorem val2_main_v7 (V0 : Valuation τ sig (Elt F)) : val2 V0 (no_index (Proc.devRef .tc main_v7)) = R1 V0 :=
  (val2_keep V0 main_v7 (by decide)).trans (val1_main_v7 V0)

set_option maxRecDepth 8192 in
set_option maxHeartbeats 2000000 in
theorem val2_main_v84 (V0 : Valuation τ sig (Elt F)) : val2 V0 (no_index (Proc.devRef .tc main_v84)) = edge32 (H V0) (R0 V0) (R1 V0) := by
  unfold val2
  simp only [ops_part1]
  after_results_simp
  simp only [val1_main_v37, val1_main_v44, val1_main_v5, val1_main_v7, val1_main_v38, val1_main_arg5, val1_main_arg6] <;> rfl

set_option maxRecDepth 8192 in
set_option maxHeartbeats 2000000 in
theorem val2_main_v85 (V0 : Valuation τ sig (Elt F)) : val2 V0 (no_index (Proc.devRef .tc main_v85)) = broadcastInDim S32768x1 ![0] bcast_S32768_S32768x1_0 (invDegV (R0 V0)) := by
  unfold val2
  simp only [ops_part1]
  after_results_simp
  simp only [val1_main_v5] <;> rfl

set_option maxRecDepth 8192 in
set_option maxHeartbeats 2000000 in
theorem val2_main_v87 (V0 : Valuation τ sig (Elt F)) : val2 V0 (no_index (Proc.devRef .tc main_v87)) = cmpi .slt (R1 V0) (broadcastInDim S524288 ![] bcast_S_S524288 (constantI S_ 32 0#32)) := by
  unfold val2
  simp only [ops_part1]
  after_results_simp
  simp only [val1_main_v7] <;> rfl

set_option maxRecDepth 8192 in
set_option maxHeartbeats 2000000 in
theorem val2_main_v89 (V0 : Valuation τ sig (Elt F)) : val2 V0 (no_index (Proc.devRef .tc main_v89)) = addi (R1 V0) (broadcastInDim S524288 ![] bcast_S_S524288 (constantI S_ 32 4096#32)) := by
  unfold val2
  simp only [ops_part1]
  after_results_simp
  simp only [val1_main_v7] <;> rfl

end Cert.ReferenceIdeal.Hand

end
-- ==== Proof.RefRunWin2.lean ====
/-
  The buffers' contents after the third window, read off as terms of the arguments.

  From any contents V0: the second aggregation is completed, a bias row is added, the 32 features contracted to
  one, a bias added, the leaky rectifier applied and the 32768 rows laid out as 64 x 16 x 32 x 1: the result buffer
  holds the whole tail of the score column. Every argument is untouched.
-/
import proofs.«144840_j44049184588034_2_alg».proof.Proof.RefRunWin1

set_option Elab.async false

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- The contents after the third window. -/
def val3 (V0 : Valuation τ sig (Elt F)) : Valuation τ sig (Elt F) := after ops_part2 (val2 V0)

/-- A buffer the third window does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h

theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)

set_option maxRecDepth 8192 in
set_option maxHeartbeats 2000000 in
theorem val3_main_v106 (V0 : Valuation τ sig (Elt F)) : val3 V0 (no_index (Proc.devRef .tc main_v106)) = tail_ref (X V0) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) := by
  unfold val3
  simp only [ops_part2]
  after_results_simp
  simp only [val2_main_v87, val2_main_v89, val2_main_v7, val2_main_v84, val2_main_v5, val2_main_v85, val2_main_arg7, val2_main_arg8, val2_main_arg9] <;> rfl

end Cert.ReferenceIdeal.Hand

end
-- ==== Proof.RefRun.lean ====
/-
  The run of the reference program.

  The contents after all 155 operations are the contents after the three windows in turn; so, at the compiled
  mesh, for any float values, from any memory with zero counters, every weakly fair execution of the program
  terminates with the result buffer at the whole tail of the score column of the arguments' launch contents, and
  with each of the ten arguments unchanged.
-/
import proofs.«144840_j44049184588034_2_alg».proof.Proof.RefRunWin2

set_option Elab.async false

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- Running the whole list is running the three windows in turn. -/
theorem after_ops (V0 : Valuation τ sig (Elt F)) : after ops V0 = val3 V0 := by
  simp only [ops, after_append]
  rfl

set_option maxRecDepth 8192 in
/-- On every device, for any float values, from any memory with zero counters: every weakly fair execution of the
    program terminates with the result at the tail of the scores of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v106) = tail_ref (x_ref (m ((c.tc : Thread nD τ).loc main_arg0)) (m ((c.tc : Thread nD τ).loc main_arg1)) (m ((c.tc : Thread nD τ).loc main_arg4))) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v106).trans (by simp only [after_ops]; exact val3_main_v106 (launchContents m c)),
      (h c main_arg0).trans (by simp only [after_ops]; exact val3_main_arg0 (launchContents m c)),
      (h c main_arg1).trans (by simp only [after_ops]; exact val3_main_arg1 (launchContents m c)),
      (h c main_arg2).trans (by simp only [after_ops]; exact val3_main_arg2 (launchContents m c)),
      (h c main_arg3).trans (by simp only [after_ops]; exact val3_main_arg3 (launchContents m c)),
      (h c main_arg4).trans (by simp only [after_ops]; exact val3_main_arg4 (launchContents m c)),
      (h c main_arg5).trans (by simp only [after_ops]; exact val3_main_arg5 (launchContents m c)),
      (h c main_arg6).trans (by simp only [after_ops]; exact val3_main_arg6 (launchContents m c)),
      (h c main_arg7).trans (by simp only [after_ops]; exact val3_main_arg7 (launchContents m c)),
      (h c main_arg8).trans (by simp only [after_ops]; exact val3_main_arg8 (launchContents m c)),
      (h c main_arg9).trans (by simp only [after_ops]; exact val3_main_arg9 (launchContents m c))⟩)
    (run_seq scopedRefs_eq scopedSems_eq defs main (fun _ => ops) main_eq (fun _ => ops_sub) m ρ)

end Cert.ReferenceIdeal.Hand

end
-- ==== Proof.KernelIdealArrays.lean ====
/-
  The arrays the region reads, as functions of the program's arguments.

  Before the region the host lays the queries and the keys `[64, 16, 32, 512]` out as `[1024, 32, 512]` (batch and head
  merged into one axis); no other host line before the region writes those two buffers.
-/
import proofs.«144840_j44049184588034_2_alg».proof.Proof.KernelIdealData
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F] [Named F]

variable (m : (ℓ : Loc nD τ sig) → Buf (Elt F) ℓ)

/-- The query array as the region finds it: the argument with batch and head merged. -/
theorem V_main_v21 (c : Dev nD) :
    (V m c main_v21 : S1024x32x512.Idx → Elt F .f32)
      = shapeCast S1024x32x512 (m ((c : Thread nD τ).loc main_arg0)) Facts₀.shapeCasts_S64x16x32x512_S1024x32x512 := by
  dsimp only [V, V0]
  simp only [hostOps0, hostOps0_1, hostOps0_2, hostOps0_3, hostOps0_4, List.flatten_cons, List.flatten_nil,
    List.append_nil, List.cons_append, List.nil_append]
  after_results_simp
  rfl

/-- The key array as the region finds it: the argument with batch and head merged. -/
theorem V_main_v22 (c : Dev nD) :
    (V m c main_v22 : S1024x32x512.Idx → Elt F .f32)
      = shapeCast S1024x32x512 (m ((c : Thread nD τ).loc main_arg1)) Facts₀.shapeCasts_S64x16x32x512_S1024x32x512 := by
  dsimp only [V, V0]
  simp only [hostOps0, hostOps0_1, hostOps0_2, hostOps0_3, hostOps0_4, List.flatten_cons, List.flatten_nil,
    List.append_nil, List.cons_append, List.nil_append]
  after_results_simp
  rfl

end Cert.KernelIdeal.Hand

end
-- ==== Proof.LibLane.lean ====
/-
  Lane sums, casts and repeats of small ranks, read at an index written by coordinates, over the extended reals.

  A sum over the middle axis of an `[a, n, b]` array read at `(p, c)` is the sum over `k` of the entries `(p, k, c)`;
  a sum over the last axis of an `[a, b]` array read at `p` is the sum over `c` of the entries `(p, c)`. Merging the
  first two axes of `[a, b, c]` into one of extent `a·b` keeps the row-major order, so row `p·b + k` of the merged
  array is row `(p, k)` of the original, and conversely. A trailing unit axis repeated to extent `c` reads the unit
  entry; a slice of the last axis reads the entry shifted by the slice's offset.
-/
import Idealize.ShloMosaic.Lib.Pipeline.Value
import Idealize.ShloMosaic.Lib.ValueIdx
import Idealize.ShloMosaic.PureOps.Ideal.Laws

open scoped BigOperators

namespace Cert.LibLane

open Idealize.ShloMosaic Idealize.ShloMosaic.ValueIdx

variable {α : Type} {φ : FTy}

/-- The sum over the middle axis of an `[a, n, b]` array, at `(p, c)`. -/
theorem midsum3_apply {a n b : ℕ} (src : FVec Ideal ⟨3, ![a, n, b]⟩ φ) (acc : BitVec φ.bits)
    (h : Shape.Reduces ⟨3, ![a, n, b]⟩ [1] ⟨2, ![a, b]⟩) (hφ : FKind.Formats φ) (hacc : acc = FKind.add.neutral φ hφ)
    (p : Fin a) (c : Fin b) :
    multiReduction .add [1] ⟨2, ![a, b]⟩ src acc h hφ hacc (ix2 p c) = ∑ k : Fin n, src (ix3 p k c) :=
  (Ideal.multiReduction_add_single src acc h hφ hacc (ix2 p c)).trans
    (Finset.sum_congr rfl fun k _ => congrArg src (funext fun d => Fin.ext (by
      match d with
      | ⟨0, _⟩ => rfl
      | ⟨1, _⟩ => rfl
      | ⟨2, _⟩ => rfl)))

/-- The sum over the last axis of an `[a, b]` array, at `p`. -/
theorem rowsum2_apply {a b : ℕ} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) :=
  (Ideal.multiReduction_add_single src acc h hφ hacc (ix1 p)).trans
    (Finset.sum_congr rfl fun k _ => congrArg src (funext fun d => Fin.ext (by
      match d with
      | ⟨0, _⟩ => rfl
      | ⟨1, _⟩ => rfl)))

/-- The first two axes of `[a, b, c]` merged into one of extent `n = a·b`: row `r = p·b + k` is row `(p, k)`. -/
theorem shapeCast_merge_apply {a b c n : ℕ} (x : (⟨3, ![a, b, c]⟩ : Shape).Idx → α)
    (h : (⟨3, ![a, b, c]⟩ : Shape).ShapeCasts ⟨2, ![n, c]⟩) (p : Fin a) (k : Fin b) (r : Fin n) (i : Fin c)
    (hr : r.val = p.val * b + k.val) : shapeCast ⟨2, ![n, c]⟩ x h (ix2 r i) = x (ix3 p k i) :=
  shapeCast_apply x h _ _ (by
    rw [Shape.rowMajor_val_two, Shape.rowMajor_val_three]
    show (p.val * b + k.val) * c + i.val = r.val * c + i.val
    rw [hr])

/-- The first axis of `[n, c]` with `n = a·b` split in two: row `(p, k)` is row `r = p·b + k`. -/
theorem shapeCast_split_apply {a b c n : ℕ} (x : (⟨2, ![n, c]⟩ : Shape).Idx → α)
    (h : (⟨2, ![n, c]⟩ : Shape).ShapeCasts ⟨3, ![a, b, c]⟩) (p : Fin a) (k : Fin b) (r : Fin n) (i : Fin c)
    (hr : r.val = p.val * b + k.val) : shapeCast ⟨3, ![a, b, c]⟩ x h (ix3 p k i) = x (ix2 r i) :=
  shapeCast_apply x h _ _ (by
    rw [Shape.rowMajor_val_two, Shape.rowMajor_val_three]
    show r.val * c + i.val = (p.val * b + k.val) * c + i.val
    rw [hr])

/-- A trailing unit axis of `[a, b, 1]` repeated to extent `c`: the entry `(p, k, 0)`, whatever the last coordinate. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (o : Fin c) :
    broadcastTo ⟨3, ![a, b, c]⟩ v h (ix3 p k o) = v (ix3 p k (0 : Fin 1)) := by
  refine broadcastTo_apply v h (ix3 p k o) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- An `[a, 1, 1]` array repeated along its middle axis to `[a, b, 1]`: the entry `(p, 0, 0)`. -/
theorem broadcastTo_a11_ab1_apply {a b : ℕ} (v : (⟨3, ![a, 1, 1]⟩ : Shape).Idx → α)
    (h : (⟨3, ![a, 1, 1]⟩ : Shape).Broadcasts ⟨3, ![a, b, 1]⟩) (p : Fin a) (k : Fin b) (u : Fin 1) :
    broadcastTo ⟨3, ![a, b, 1]⟩ v h (ix3 p k u) = v (ix3 p (0 : Fin 1) (0 : Fin 1)) := by
  refine broadcastTo_apply v h (ix3 p k u) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- An `[a, 1]` column cast to `[a, 1, 1]`: the entry `(p, 0)`. -/
theorem shapeCast_a1_a11_apply {a : ℕ} (x : (⟨2, ![a, 1]⟩ : Shape).Idx → α)
    (h : (⟨2, ![a, 1]⟩ : Shape).ShapeCasts ⟨3, ![a, 1, 1]⟩) (p : Fin a) (u u' : Fin 1) :
    shapeCast ⟨3, ![a, 1, 1]⟩ x h (ix3 p u u') = x (ix2 p (0 : Fin 1)) :=
  shapeCast_apply x h _ _ (by
    have hu : u.val = 0 := by omega
    have hu' : u'.val = 0 := by omega
    rw [Shape.rowMajor_val_two, Shape.rowMajor_val_three]
    show p.val * 1 + 0 = (p.val * 1 + u.val) * 1 + u'.val
    rw [hu, hu']; omega)

/-- A slice of the last axis of `[a, b, c]` from offset `off`, of extent `m`: the entry shifted by `off`. -/
theorem slice3_last_apply {a b c m : ℕ} (off : ℕ) (x : (⟨3, ![a, b, c]⟩ : Shape).Idx → α)
    (h : (⟨3, ![a, b, c]⟩ : Shape).Slices ![0, 0, off] ⟨3, ![a, b, m]⟩) (p : Fin a) (k : Fin b) (o : Fin m) (o' : Fin c)
    (ho : o'.val = off + o.val) :
    extractStridedSlice ⟨3, ![a, b, m]⟩ ![0, 0, off] x h (ix3 p k o) = x (ix3 p k o') := by
  refine extractStridedSlice_apply _ x h (ix3 p k o) (ix3 p k o') fun ax => ?_
  match ax with
  | ⟨0, _⟩ => show p.val = 0 + p.val; omega
  | ⟨1, _⟩ => show k.val = 0 + k.val; omega
  | ⟨2, _⟩ => exact ho

end Cert.LibLane
-- ==== Proof.LibKeepdims.lean ====
/-
  Reads, at an index written by coordinates, of the layout steps a sum with kept dimensions goes through.

  A sum over the last axis of an `[a, b, c]` array read at `(p, k)` is the sum over `o` of the entries `(p, k, o)`.
  A cast that only inserts a unit axis keeps the row-major position, so `[b, 1] → [1, b, 1]` reads the entry `(k, 0)`,
  `[a, b] → [a, 1, b]` the entry `(p, c)` and `[a, b] → [a, b, 1]` the entry `(p, k)`. A repeat along unit axes reads
  the one entry those axes have: `[1, b, 1] → [a, b, c]` the entry `(0, k, 0)`, `[a, 1, b] → [a, n, b]` the entry `(p, 0, c)`.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type} {φ : FTy}

/-- The sum over the last axis of an `[a, b, c]` array, at `(p, k)`. -/
theorem lastsum3_apply {a b c : ℕ} (src : FVec Ideal ⟨3, ![a, b, c]⟩ φ) (acc : BitVec φ.bits)
    (h : Shape.Reduces ⟨3, ![a, b, c]⟩ [2] ⟨2, ![a, b]⟩) (hφ : FKind.Formats φ) (hacc : acc = FKind.add.neutral φ hφ)
    (p : Fin a) (k : Fin b) :
    multiReduction .add [2] ⟨2, ![a, b]⟩ src acc h hφ hacc (ix2 p k) = ∑ o : Fin c, src (ix3 p k o) :=
  (Ideal.multiReduction_add_single src acc h hφ hacc (ix2 p k)).trans
    (Finset.sum_congr rfl fun o _ => congrArg src (funext fun d => Fin.ext (by
      match d with
      | ⟨0, _⟩ => rfl
      | ⟨1, _⟩ => rfl
      | ⟨2, _⟩ => rfl)))

/-- A `[b, 1]` column cast to `[1, b, 1]`: the entry `(k, 0)`. -/
theorem shapeCast_b1_1b1_apply {b : ℕ} (x : (⟨2, ![b, 1]⟩ : Shape).Idx → α)
    (h : (⟨2, ![b, 1]⟩ : Shape).ShapeCasts ⟨3, ![1, b, 1]⟩) (u : Fin 1) (k : Fin b) (u' : Fin 1) :
    shapeCast ⟨3, ![1, b, 1]⟩ x h (ix3 u k u') = x (ix2 k (0 : Fin 1)) :=
  shapeCast_apply x h _ _ (by
    have hu : u.val = 0 := by omega
    have hu' : u'.val = 0 := by omega
    rw [Shape.rowMajor_val_two, Shape.rowMajor_val_three]
    show k.val * 1 + 0 = (u.val * b + k.val) * 1 + u'.val
    rw [hu, hu']; omega)

/-- An `[a, b]` array cast to `[a, 1, b]`: the entry `(p, c)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (c : Fin b) :
    shapeCast ⟨3, ![a, 1, b]⟩ x h (ix3 p u c) = x (ix2 p c) :=
  shapeCast_apply x h _ _ (by
    have hu : u.val = 0 := by omega
    rw [Shape.rowMajor_val_two, Shape.rowMajor_val_three]
    show p.val * b + c.val = (p.val * 1 + u.val) * b + c.val
    rw [hu, Nat.mul_one, Nat.add_zero])

/-- An `[a, b]` array cast to `[a, b, 1]`: the entry `(p, k)`. -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- A `[1, b, 1]` array repeated along its two unit axes to `[a, b, c]`: the entry `(0, k, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (k : Fin b) (o : Fin c) :
    broadcastTo ⟨3, ![a, b, c]⟩ v h (ix3 p k o) = v (ix3 (0 : Fin 1) k (0 : Fin 1)) := by
  refine broadcastTo_apply v h (ix3 p k o) (ix3 (0 : Fin 1) k (0 : Fin 1)) fun ax => ?_
  match ax with
  | ⟨0, _⟩ => rfl
  | ⟨1, _⟩ =>
    show k.val = if b = 1 then 0 else k.val
    split
    · have := k.isLt; omega
    · rfl
  | ⟨2, _⟩ => rfl

/-- An `[a, 1, b]` array repeated along its middle axis to `[a, n, b]`: the entry `(p, 0, c)`. -/
theorem broadcastTo_a1b_anb_apply {a n b : ℕ} (v : (⟨3, ![a, 1, b]⟩ : Shape).Idx → α)
    (h : (⟨3, ![a, 1, b]⟩ : Shape).Broadcasts ⟨3, ![a, n, b]⟩) (p : Fin a) (k : Fin n) (c : Fin b) :
    broadcastTo ⟨3, ![a, n, b]⟩ v h (ix3 p k c) = v (ix3 p (0 : Fin 1) c) := by
  refine broadcastTo_apply v h (ix3 p k c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Cert.LibKeepdims
-- ==== Proof.KernelPayload.lean ====
/-
  The kernel body's arithmetic read at one entry of its output block.

  From a block `x0` of 64 heads' query rows `[64, 32, 512]`, the same heads' key rows `x1` and the projection weights
  `x2 : [32, 1]`, the body forms for every head `p` and feature `d` the weighted key row `∑ m, x1 (p, m, d) · x2 (m, 0)`,
  then for every query row `l` its score against that row, `∑ d, x0 (p, l, d) · (…)`, and scales it by the named
  constant, which at the exact instance is the rational `524288 / 11863283` (the reciprocal of the single-precision
  square root of 512).
-/
import proofs.«144840_j44049184588034_2_alg».proof.Proof.Gen.KernelIdeal.Skeleton
import proofs.«144840_j44049184588034_2_alg».proof.Proof.LibLane
import proofs.«144840_j44049184588034_2_alg».proof.Proof.LibKeepdims
import Idealize.ShloMosaic.PureOps.IdealRules
import Idealize.ShloMosaic.Lib.ValueIdx
import Idealize.ShloMosaic.Lib.Pipeline.Value

open scoped BigOperators

noncomputable section

namespace Cert.KernelIdeal.Hand

open Idealize.ShloMosaic Idealize.ShloMosaic.ValueIdx Cert.KernelIdeal Cert.KernelIdeal.Gen

/-- The named scale is the rational `524288 / 11863283`, by the certificate's table. -/
theorem inv_temp : Named.named (F := Ideal) κ "inv_temp" (φ := .f32) 0x3D3504F3#32 = ((524288 / 11863283 : ℝ) : EReal) :=
  IdealRules.named_const.ideal_named_scalar _ _ _ _ rfl

/-- The body's stored value at head `p`, query row `l`: the row's score against the weighted key row, scaled. -/
theorem pay_apply (x0 x1 : Vec Ideal S64x32x512 .f32) (x2 : Vec Ideal S32x1 .f32) (p : Fin 64) (l : Fin 32) (u : Fin 1) :
    k0_pay1 (F := Ideal) x0 x1 x2 (ix3 p l u)
      = (∑ d : Fin 512, x0 (ix3 p l d) * ∑ m : Fin 32, x1 (ix3 p m d) * x2 (ix2 m (0 : Fin 1)))
          * ((524288 / 11863283 : ℝ) : EReal) := by
  unfold k0_pay1
  dsimp only
  rw [mulf_apply, broadcast_apply, inv_temp, Cert.LibKeepdims.shapeCast_ab_ab1_apply]
  refine congrArg (· * _) ?_
  refine (Cert.LibKeepdims.lastsum3_apply (a := 64) (b := 32) (c := 512) _ _ _ _ _ p l).trans ?_
  refine Finset.sum_congr rfl fun d _ => ?_
  rw [mulf_apply, shapeCast_self, Cert.LibKeepdims.broadcastTo_a1b_anb_apply, Cert.LibKeepdims.shapeCast_ab_a1b_apply]
  refine congrArg (_ * ·) ?_
  refine (Cert.LibLane.midsum3_apply (a := 64) (n := 32) (b := 512) _ _ _ _ _ p d).trans ?_
  refine Finset.sum_congr rfl fun m _ => ?_
  rw [mulf_apply, shapeCast_self, Cert.LibKeepdims.broadcastTo_1b1_abc_apply, Cert.LibKeepdims.shapeCast_b1_1b1_apply]

end Cert.KernelIdeal.Hand

end
-- ==== Proof.KernelBlocks.lean ====
/-
  From the output window's blocks to the whole array.

  The output array `[1024, 32, 1]` is written in 16 blocks of 64 heads. Block `t` holds, at `(p, l, 0)`, the body's value
  of the `t`-th blocks of the query and key arrays and of the (one-block) weight array, so the entry of the whole array at
  `(r, l, 0)`, `r = 64·t + p`, is one function `X0` of the three arrays: the score of query row `(r, l)` against the key
  rows of head `r` combined by the weights, scaled. Every head lies in exactly the block `r / 64`, so the blocks cover the
  array and it ends holding `X0`.
-/
import proofs.«144840_j44049184588034_2_alg».proof.Proof.KernelIdealData
import proofs.«144840_j44049184588034_2_alg».proof.Proof.KernelPayload
import Idealize.ShloMosaic.Lib.Pipeline.Value

set_option maxRecDepth 16384

open scoped BigOperators

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- Entry `(r, l)` of the scaled projected scores: the score of query row `(r, l)` against head `r`'s key rows combined
    by the weights, times the scale. -/
def X0c (Q K : S1024x32x512.Idx → EReal) (W : S32x1.Idx → EReal) (r : Fin 1024) (l : Fin 32) : EReal :=
  (∑ d : Fin 512, Q (ix3 r l d) * ∑ k : Fin 32, K (ix3 r k d) * W (ix2 k (0 : Fin 1))) * ((524288 / 11863283 : ℝ) : EReal)

/-- The same as an array `[1024, 32, 1]`. -/
def X0 (Q K : S1024x32x512.Idx → EReal) (W : S32x1.Idx → EReal) : S1024x32x1.Idx → EReal :=
  fun i => X0c Q K W (i 0) (i 1)

/-- At one entry of one block: if the loaded blocks are the arrays' rows of head `r`, the body's value is `X0c` there. -/
theorem point_eq (Q K : S1024x32x512.Idx → EReal) (W : S32x1.Idx → EReal)
    (x0 x1 : Vec Ideal S64x32x512 .f32) (x2 : Vec Ideal S32x1 .f32) (p : Fin 64) (l : Fin 32) (u : Fin 1) (r : Fin 1024)
    (h0 : ∀ d : Fin 512, x0 (ix3 p l d) = Q (ix3 r l d))
    (h1 : ∀ (k : Fin 32) (d : Fin 512), x1 (ix3 p k d) = K (ix3 r k d))
    (h2 : ∀ k : Fin 32, x2 (ix2 k (0 : Fin 1)) = W (ix2 k (0 : Fin 1))) :
    k0_pay1 (F := Ideal) x0 x1 x2 (ix3 p l u) = X0c Q K W r l := by
  rw [pay_apply]
  unfold X0c
  simp only [h0, h1, h2]

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the query, key and output windows take block `t` of the head axis and block 0
    of the others; the weight window always takes its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Every head block is some point's. -/
theorem idx_onto : ∀ q : Fin 16, ∃ t : Fin cfg0.N, t.val = q.val :=
  (by decide +kernel : ∀ q : Fin 16, ∃ t : Fin grid0.N, t.val = q.val)

variable (m : (ℓ : Loc nD τ sig) → Buf (Elt Ideal) ℓ)

/-- What point `t` writes back is block `t` of `X0` of the three arrays as the region finds them. -/
theorem flushed3_eq (c : Dev nD) (t : Fin cfg0.N) :
    (dats m 0 c).flushed 3 t
      = ((cfg0.win 3).blk t).view.read (Elt Ideal) (X0 (V m c main_v21) (V m c main_v22) (V m c main_arg4)) := by
  show (cfg0.win 3).cut (grid0.coords t) ((dats m 0 c).after 3 t) = _
  rw [after0_3]
  unfold out0_3
  rw [View.canon_unit_zero hz3]
  simp only [View.ld_unit_zero (S := S64x32x512) hz3, View.ld_unit_zero (S := S32x1) hz2]
  obtain ⟨e00, e01, e02, e10, e11, e12, e20, e21, e30, e31, e32⟩ := idx_facts t
  funext j
  obtain ⟨p, l, u, rfl⟩ : ∃ (p : Fin 64) (l : Fin 32) (u : Fin 1), j = ix3 p l u := ⟨j 0, j 1, j 2, eq_ix3 j⟩
  have hp : p.val < 64 := p.isLt
  have hl : l.val < 32 := l.isLt
  have ht : t.val < 16 := by have := t.isLt; have hN : cfg0.N = 16 := N_0; omega
  show k0_pay1 (F := Ideal) (iblk m c 0 t) (iblk m c 1 t) (iblk m c 2 t) (ix3 p l u)
    = X0c (V m c main_v21) (V m c main_v22) (V m c main_arg4)
        ((((cfg0.win 3).blk t).view.emb (ix3 p l u)) 0) ((((cfg0.win 3).blk t).view.emb (ix3 p l u)) 1)
  have hrb : t.val * 64 + p.val < 1024 := by omega
  let r : Fin 1024 := ⟨t.val * 64 + p.val, hrb⟩
  have hr : (((cfg0.win 3).blk t).view.emb (ix3 p l u)) 0 = r :=
    Fin.ext (by show win0_3.index t (0 : Fin 3) * 64 + 1 * p.val = t.val * 64 + p.val; omega)
  have hl' : (((cfg0.win 3).blk t).view.emb (ix3 p l u)) 1 = l :=
    Fin.ext (by show win0_3.index t (1 : Fin 3) * 32 + 1 * l.val = l.val; omega)
  rw [hr, hl']
  refine point_eq _ _ _ _ _ _ p l u r (fun d => ?_) (fun k d => ?_) (fun k => ?_)
  · show V m c main_v21 (((cfg0.win 0).blk t).view.emb (ix3 p l d)) = V m c main_v21 _
    refine congrArg _ (funext fun a => Fin.ext ?_)
    have hd : d.val < 512 := d.isLt
    match a with
    | ⟨0, _⟩ => show win0_0.index t (0 : Fin 3) * 64 + 1 * p.val = t.val * 64 + p.val; omega
    | ⟨1, _⟩ => show win0_0.index t (1 : Fin 3) * 32 + 1 * l.val = l.val; omega
    | ⟨2, _⟩ => show win0_0.index t (2 : Fin 3) * 512 + 1 * d.val = d.val; omega
  · show V m c main_v22 (((cfg0.win 1).blk t).view.emb (ix3 p k d)) = V m c main_v22 _
    refine congrArg _ (funext fun a => Fin.ext ?_)
    have hd : d.val < 512 := d.isLt
    have hk : k.val < 32 := k.isLt
    match a with
    | ⟨0, _⟩ => show win0_1.index t (0 : Fin 3) * 64 + 1 * p.val = t.val * 64 + p.val; omega
    | ⟨1, _⟩ => show win0_1.index t (1 : Fin 3) * 32 + 1 * k.val = k.val; omega
    | ⟨2, _⟩ => show win0_1.index t (2 : Fin 3) * 512 + 1 * d.val = d.val; omega
  · show V m c main_arg4 (((cfg0.win 2).blk t).view.emb (ix2 k (0 : Fin 1))) = V m c main_arg4 _
    refine congrArg _ (funext fun a => Fin.ext ?_)
    have hk : k.val < 32 := k.isLt
    match a with
    | ⟨0, _⟩ => show win0_2.index t (0 : Fin 2) * 32 + 1 * k.val = k.val; omega
    | ⟨1, _⟩ => show win0_2.index t (1 : Fin 2) * 1 + 1 * 0 = 0; omega

/-- An index of the array is in point `t`'s block iff each coordinate is in the block's range on its axis. -/
theorem mem_blk3 (t : Fin cfg0.N) (i : S1024x32x1.Idx) :
    i ∈ ((cfg0.win 3).blk t).view.set ↔ ∀ a : Fin 3, win0_3.index t a * S64x32x1.size a ≤ (i a).val
      ∧ (i a).val < win0_3.index t a * S64x32x1.size a + S64x32x1.size a := by
  show i ∈ ((View.whole main_v23).slice (win0_3.rect t)).set ↔ _
  rw [View.set_slice_whole, Rect.mem_set_unit]
  exact Iff.rfl

/-- Every index of the array is in the block of the point `r / 64`. -/
theorem cover3 (i : S1024x32x1.Idx) :
    ∃ t : Fin cfg0.N, (cfg0.win 3).flush t = true ∧ i ∈ ((cfg0.win 3).blk t).view.set := by
  have hi0 : (i 0).val < 1024 := (i 0).isLt
  have hi1 : (i 1).val < 32 := (i 1).isLt
  have hi2 : (i 2).val < 1 := (i 2).isLt
  obtain ⟨t, ht⟩ := idx_onto ⟨(i 0).val / 64, by omega⟩
  have ht' : t.val = (i 0).val / 64 := ht
  obtain ⟨e00, e01, e02, e10, e11, e12, e20, e21, e30, e31, e32⟩ := idx_facts t
  refine ⟨t, flush0_3 t, ?_⟩
  rw [mem_blk3]
  intro a
  match a with
  | ⟨0, _⟩ => show win0_3.index t (0 : Fin 3) * 64 ≤ (i 0).val ∧ (i 0).val < win0_3.index t (0 : Fin 3) * 64 + 64; omega
  | ⟨1, _⟩ => show win0_3.index t (1 : Fin 3) * 32 ≤ (i 1).val ∧ (i 1).val < win0_3.index t (1 : Fin 3) * 32 + 32; omega
  | ⟨2, _⟩ => show win0_3.index t (2 : Fin 3) * 1 ≤ (i 2).val ∧ (i 2).val < win0_3.index t (2 : Fin 3) * 1 + 1; omega

/-- The output array after the run is `X0` of the query, key and weight arrays as the region finds them. -/
theorem final3 (c : Dev nD) :
    (dats m 0 c).arrAt 3 cfg0.N = X0 (V m c main_v21) (V m c main_v22) (V m c main_arg4) :=
  (dats m 0 c).arrAt_eq_of_cover 3 _ (fun t _ => flushed3_eq m c t) (cover3)

end Cert.KernelIdeal.Hand

end
-- ==== Proof.LibDots.lean ====
/-
  Host products read at an index written by coordinates, over the extended reals, and one more merge of axes.

  A product of an `[m, k]` by a `[k, n]` array at `(a, b)` is `∑ c, A (a, c) · B (c, b)`. A product of two `[B, H, ·, K]`
  stacks, batched over the first two axes and contracted over the last axis of both, at `(b, h, l, j)` is
  `∑ c, A (b, h, l, c) · B' (b, h, j, c)`. Merging the first three axes of `[a, b, c, d]` into one of extent `a·b·c` keeps
  the row-major order, so row `(p·b + q)·c + k` of the merged array is row `(p, q, k)` of the original.
-/
import Idealize.ShloMosaic.Lib.Pipeline.Value
import Idealize.ShloMosaic.Lib.ValueIdx
import Idealize.ShloMosaic.PureOps.Ideal.Laws

open scoped BigOperators

namespace Cert.LibDots

open Idealize.ShloMosaic Idealize.ShloMosaic.ValueIdx

/-- An `[m, k]` by `[k, n]` product at `(a, b)`, whatever the record's well-formedness proof. -/
theorem dotGeneral_rows_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Two `[B, H, ·, K]` stacks multiplied head by head over their last axis, at `(b, h, l, j)`. -/
theorem dotGeneral_heads_apply {B H L M K : ℕ} {φ₁ φ₂ : FTy}
    (w : DotDims.WF ⟨4, ![B, H, L, K]⟩ ⟨4, ![B, H, M, K]⟩ ⟨4, ![B, H, L, M]⟩ [3] [3] [2] [2] [0, 1] [0, 1])
    (prec : Option ContractPrecision) (A : FVec Ideal ⟨4, ![B, H, L, K]⟩ φ₁) (B' : FVec Ideal ⟨4, ![B, H, M, K]⟩ φ₂)
    (b : Fin B) (h : Fin H) (l : Fin L) (j : Fin M) :
    Host.dotGeneral (⟨[3], [3], [2], [2], [0, 1], [0, 1], w⟩ : DotDims _ _ _) prec A B' (ix4 b h l j)
      = ∑ c : Fin K, A (ix4 b h l c) * B' (ix4 b h j c) := by
  show FloatOps.dotGeneral _ prec _ A B' (ix4 b h l j) = _
  rw [Ideal.dotGeneral_apply,
    ← Equiv.sum_comp (contrEquiv1 (⟨[3], [3], [2], [2], [0, 1], [0, 1], w⟩ : DotDims _ _ _) K rfl rfl).symm]
  refine Finset.sum_congr rfl fun c _ => ?_
  have c4 := contrEquiv1_symm_val
    (⟨[3], [3], [2], [2], [0, 1], [0, 1], w⟩ :
      DotDims ⟨4, ![B, H, L, K]⟩ ⟨4, ![B, H, M, K]⟩ ⟨4, ![B, H, L, M]⟩) K rfl rfl c
  have l4 : (⟨[3], [3], [2], [2], [0, 1], [0, 1], w⟩ :
      DotDims ⟨4, ![B, H, L, K]⟩ ⟨4, ![B, H, M, K]⟩ ⟨4, ![B, H, L, M]⟩).lhsIdx (ix4 b h l j)
      ((contrEquiv1 _ K rfl rfl).symm c) = ix4 b h l c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c4
  have r4 : (⟨[3], [3], [2], [2], [0, 1], [0, 1], w⟩ :
      DotDims ⟨4, ![B, H, L, K]⟩ ⟨4, ![B, H, M, K]⟩ ⟨4, ![B, H, L, M]⟩).rhsIdx (ix4 b h l j)
      ((contrEquiv1 _ K rfl rfl).symm c) = ix4 b h j c := by
    funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact c4
  rw [l4, r4]

/-- The first three axes of `[a, b, c, d]` merged into one of extent `n = a·b·c`: row `r = (p·b + q)·c + k` is row `(p, q, k)`. -/
theorem shapeCast_merge3of4_apply {α : Type} {a b c d n : ℕ} (x : (⟨4, ![a, b, c, d]⟩ : Shape).Idx → α)
    (h : (⟨4, ![a, b, c, d]⟩ : Shape).ShapeCasts ⟨2, ![n, d]⟩) (p : Fin a) (q : Fin b) (k : Fin c) (r : Fin n)
    (i : Fin d) (hr : r.val = (p.val * b + q.val) * c + k.val) :
    shapeCast ⟨2, ![n, d]⟩ x h (ix2 r i) = x (ix4 p q k i) :=
  shapeCast_apply x h _ _ (by
    rw [Shape.rowMajor_val_two, Shape.rowMajor_val_four]
    show ((p.val * b + q.val) * c + k.val) * d + i.val = r.val * d + i.val
    rw [hr])

end Cert.LibDots
-- ==== Proof.ScoreAlgebra.lean ====
/-
  The law that joins the two programs, over the extended reals, and the one float word it needs as a real.

  For one query row `q` (indexed by the feature `d`), the key rows `k m` of the same head and the projection weights `w m`:
  scaling the query by `s`, taking its score against every key row and then combining the scores with the weights,
  `∑ m, (∑ d, (q d · s) · k m d) · w m`, is the same number as first combining the key rows with the weights, taking the
  query's score against that one combined row, and scaling at the end, `(∑ d, q d · ∑ m, k m d · w m) · s`.
  On the extended reals this needs every entry finite: moving a factor across a sum fails at the infinities. With finite
  entries both sides are the coercion of the same real double sum, reordered.
-/
import Idealize.ShloMosaic.PureOps.Ideal

open scoped BigOperators

namespace Cert.ScoreAlgebra

open Idealize.ShloMosaic

/-- The coercion of a finite real sum is the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The same law on the reals: both sides are `∑ m, ∑ d, q d · s · k m d · w m`. -/
theorem project_real {ι μ : Type} [Fintype ι] [Fintype μ] (q : ι → ℝ) (k : μ → ι → ℝ) (w : μ → ℝ) (s : ℝ) :
    ∑ m, (∑ d, (q d * s) * k m d) * w m = (∑ d, q d * ∑ m, k m d * w m) * s := by
  simp only [Finset.sum_mul, Finset.mul_sum]
  rw [Finset.sum_comm]
  exact Finset.sum_congr rfl fun d _ => Finset.sum_congr rfl fun m _ => by ring

/-- Scaled scores against every key row, combined by the weights, are the score against the combined key row, scaled:
    for finite entries, on the extended reals. -/
theorem project {ι μ : Type} [Fintype ι] [Fintype μ] (q : ι → EReal) (k : μ → ι → EReal) (w : μ → EReal) (s : ℝ)
    (hq : ∀ d, ∃ r : ℝ, q d = r) (hk : ∀ m d, ∃ r : ℝ, k m d = r) (hw : ∀ m, ∃ r : ℝ, w m = r) :
    ∑ m, (∑ d, (q d * (s : EReal)) * k m d) * w m = (∑ d, q d * ∑ m, k m d * w m) * (s : EReal) := by
  choose q' hq' using hq
  choose k' hk' using hk
  choose w' hw' using hw
  simp only [hq', hk', hw', ← EReal.coe_mul, ← coe_sum]
  exact congrArg _ (project_real q' k' w' s)

/-- The word `0x41B504F3` is the real `11863283 / 524288` (the single-precision rounding of the square root of 512). -/
theorem ofBits_temp : Ideal.ofBits .f32 0x41B504F3#32 = ((11863283 / 524288 : ℝ) : EReal) := by
  simp [Ideal.ofBits, Ideal.ieee, -EReal.coe_mul]; norm_num

/-- Its reciprocal. -/
theorem inv_temp_real : (1 / (11863283 / 524288 : ℝ)) = (524288 / 11863283 : ℝ) := by norm_num

theorem temp_ne_zero : (11863283 / 524288 : ℝ) ≠ 0 := by norm_num

end Cert.ScoreAlgebra
-- ==== Proof.RefScores.lean ====
/-
  The reference's score column read at one entry.

  Row `r = (b·16 + h)·32 + l` of the column is, over the weights `j`, the sum of the score of query row `(b, h, l)` —
  divided by the single-precision square root of 512 — against key row `(b, h, j)`, times the weight `j`. Division by that
  nonzero real is multiplication by its reciprocal `524288 / 11863283`.
-/
import proofs.«144840_j44049184588034_2_alg».proof.Proof.RefTerms
import proofs.«144840_j44049184588034_2_alg».proof.Proof.LibDots
import proofs.«144840_j44049184588034_2_alg».proof.Proof.ScoreAlgebra
import Idealize.ShloMosaic.Lib.ValueIdx
import Idealize.ShloMosaic.Lib.Pipeline.Value

open scoped BigOperators

noncomputable section

namespace Cert.ReferenceIdeal.Hand

open Idealize.ShloMosaic Idealize.ShloMosaic.ValueIdx Cert.ReferenceIdeal

variable [Facts₀]

/-- The score column at row `r = (b·16 + h)·32 + l`. -/
theorem x_ref_apply (q k : Ten Ideal S64x16x32x512 .f32) (w1 : Ten Ideal S32x1 .f32)
    (b : Fin 64) (h : Fin 16) (l : Fin 32) (r : Fin 32768) (u : Fin 1) (hr : r.val = (b.val * 16 + h.val) * 32 + l.val) :
    x_ref (F := Ideal) q k w1 (ix2 r u)
      = ∑ j : Fin 32, (∑ d : Fin 512, (q (ix4 b h l d) * ((524288 / 11863283 : ℝ) : EReal)) * k (ix4 b h j d))
          * w1 (ix2 j (0 : Fin 1)) := by
  obtain rfl : u = 0 := Subsingleton.elim _ _
  unfold x_ref
  refine (Cert.LibDots.dotGeneral_rows_apply (m := 32768) (k := 32) (n := 1) _ none _ _ r 0).trans ?_
  refine Finset.sum_congr rfl fun j _ => congrArg (· * _) ?_
  refine (Cert.LibDots.shapeCast_merge3of4_apply (a := 64) (b := 16) (c := 32) (d := 32) (n := 32768) _ _ b h l r j hr).trans ?_
  refine (Cert.LibDots.dotGeneral_heads_apply (B := 64) (H := 16) (L := 32) (M := 32) (K := 512) _ none _ _ b h l j).trans ?_
  refine Finset.sum_congr rfl fun d _ => congrArg (· * _) ?_
  show Ideal.div (q (ix4 b h l d)) (Ideal.ofBits .f32 0x41B504F3#32) = _
  rw [Cert.ScoreAlgebra.ofBits_temp, Ideal.div_coe Cert.ScoreAlgebra.temp_ne_zero, Cert.ScoreAlgebra.inv_temp_real]

end Cert.ReferenceIdeal.Hand

end
-- ==== Proof.LibMerge.lean ====
/-
  The first two axes of a rank-4 array merged into one, read at an index written by coordinates.

  Merging the first two axes of `[a, b, c, d]` into one of extent `n = a·b` keeps the row-major order: the position
  of `(p, q, k, i)` is `((p·b + q)·c + k)·d + i`, which is the position of `(r, k, i)` in `[n, c, d]` when
  `r = p·b + q`. So row `r` of the merged array is row `(p, q)` of the original.
-/
import Idealize.ShloMosaic.Lib.Pipeline.Value
import Idealize.ShloMosaic.Lib.ValueIdx

namespace Cert.LibMerge

open Idealize.ShloMosaic Idealize.ShloMosaic.ValueIdx

/-- The first two axes of `[a, b, c, d]` merged into one of extent `n = a·b`: row `r = p·b + q` is row `(p, q)`. -/
theorem shapeCast_merge4_apply {α : Type} {a b c d n : ℕ} (x : (⟨4, ![a, b, c, d]⟩ : Shape).Idx → α)
    (h : (⟨4, ![a, b, c, d]⟩ : Shape).ShapeCasts ⟨3, ![n, c, d]⟩) (p : Fin a) (q : Fin b) (r : Fin n) (k : Fin c)
    (i : Fin d) (hr : r.val = p.val * b + q.val) :
    shapeCast ⟨3, ![n, c, d]⟩ x h (ix3 r k i) = x (ix4 p q k i) :=
  shapeCast_apply x h _ _ (by
    rw [Shape.rowMajor_val_three, Shape.rowMajor_val_four]
    show ((p.val * b + q.val) * c + k.val) * d + i.val = (r.val * c + k.val) * d + i.val
    rw [hr])

end Cert.LibMerge
-- ==== Proof.ScoresBridge.lean ====
/-
  The two programs' score columns are one array.

  The kernel's output `[1024, 32, 1]`, laid out as a column of 32768 rows, holds at row `r = n·32 + l` (head `n = b·16 + h`)
  the score of query row `(b, h, l)` against the weighted combination of the head's key rows, scaled at the end; the
  reference's column holds there the weighted combination of the scaled scores against each key row. For finite queries,
  keys and weights these are the same number (the scale and the weights move across the finite sums).
-/
import proofs.«144840_j44049184588034_2_alg».proof.Proof.KernelBlocks
import proofs.«144840_j44049184588034_2_alg».proof.Proof.RefScores
import proofs.«144840_j44049184588034_2_alg».proof.Proof.LibMerge
import proofs.«144840_j44049184588034_2_alg».proof.Proof.LibLane

open scoped BigOperators

noncomputable section

namespace Cert.Bridge

open Idealize.ShloMosaic Idealize.ShloMosaic.ValueIdx
open Cert.ReferenceIdeal.Hand (Ten x_ref x_ref_apply)
open Cert.KernelIdeal.Hand (X0 X0c)

variable [Cert.ReferenceIdeal.Facts₀]

/-- The kernel's output array, read as a column, is the reference's score column, for finite inputs. -/
theorem scores_eq (q k : Ten Ideal Cert.ReferenceIdeal.S64x16x32x512 .f32) (w1 : Ten Ideal Cert.ReferenceIdeal.S32x1 .f32)
    (hq : ∀ i, ∃ r : ℝ, q i = r) (hk : ∀ i, ∃ r : ℝ, k i = r) (hw : ∀ i, ∃ r : ℝ, w1 i = r)
    (hc4 : Cert.KernelIdeal.S64x16x32x512.ShapeCasts Cert.KernelIdeal.S1024x32x512)
    (hc3 : Cert.KernelIdeal.S1024x32x1.ShapeCasts Cert.KernelIdeal.S32768x1) :
    shapeCast Cert.KernelIdeal.S32768x1
        (X0 (shapeCast Cert.KernelIdeal.S1024x32x512 q hc4) (shapeCast Cert.KernelIdeal.S1024x32x512 k hc4) w1) hc3
      = x_ref (F := Ideal) q k w1 := by
  funext j
  obtain ⟨r, u, rfl⟩ : ∃ (r : Fin 32768) (u : Fin 1), j = ix2 r u := ⟨j 0, j 1, eq_ix2 j⟩
  have hrlt : r.val < 32768 := r.isLt
  let b : Fin 64 := ⟨r.val / 512, by omega⟩
  let h : Fin 16 := ⟨(r.val / 32) % 16, by omega⟩
  let l : Fin 32 := ⟨r.val % 32, by omega⟩
  let n : Fin 1024 := ⟨r.val / 32, by omega⟩
  have hr : r.val = (b.val * 16 + h.val) * 32 + l.val := by show r.val = (r.val / 512 * 16 + (r.val / 32) % 16) * 32 + r.val % 32; omega
  have hn : n.val = b.val * 16 + h.val := by show r.val / 32 = r.val / 512 * 16 + (r.val / 32) % 16; omega
  have hrn : r.val = n.val * 32 + l.val := by show r.val = r.val / 32 * 32 + r.val % 32; omega
  refine (Cert.LibLane.shapeCast_merge_apply (a := 1024) (b := 32) (c := 1) (n := 32768) _ hc3 n l r u hrn).trans ?_
  rw [x_ref_apply q k w1 b h l r u hr]
  show X0c _ _ _ n l = _
  unfold X0c
  have hQ : ∀ d : Fin 512, shapeCast Cert.KernelIdeal.S1024x32x512 q hc4 (ix3 n l d) = q (ix4 b h l d) := fun d =>
    Cert.LibMerge.shapeCast_merge4_apply (a := 64) (b := 16) (c := 32) (d := 512) (n := 1024) q hc4 b h n l d hn
  have hK : ∀ (jj : Fin 32) (d : Fin 512), shapeCast Cert.KernelIdeal.S1024x32x512 k hc4 (ix3 n jj d) = k (ix4 b h jj d) :=
    fun jj d => Cert.LibMerge.shapeCast_merge4_apply (a := 64) (b := 16) (c := 32) (d := 512) (n := 1024) k hc4 b h n jj d hn
  simp only [hQ, hK]
  exact (Cert.ScoreAlgebra.project (fun d => q (ix4 b h l d)) (fun jj d => k (ix4 b h jj d))
    (fun jj => w1 (ix2 jj (0 : Fin 1))) _ (fun d => hq _) (fun jj d => hk _) (fun jj => hw _)).symm

end Cert.Bridge

end
-- ==== Proof.FiniteEntries.lean ====
/-
  What the precondition gives the value proof: every entry of the queries, of the keys and of the first projection's
  weights is a real number.

  The precondition is the conjunction, one conjunct per float input, of "every entry's absolute value is below +∞".
  An extended real whose absolute value `max x (-x)` is below `⊤` is neither `⊤` nor `⊥`, hence the coercion of a real.
-/
import proofs.«144840_j44049184588034_2_alg».proof.Pre_finite_inputs
import Idealize.ShloMosaic.Lib.ReduceAll
import Idealize.ShloMosaic.Lib.ValueIdx
import Idealize.ShloMosaic.PureOps.Ideal

noncomputable section

namespace Cert.Pre_finite_inputs.Hand

open Idealize.ShloMosaic Cert.Pre_finite_inputs

/-- The scalar shape has one index. -/
instance : Subsingleton S_.Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- An extended real whose absolute value compares below `+∞` is a real. -/
theorem real_of_abs_lt_inf (x : EReal)
    (h : Ideal.cmp .olt (max x (-x)) (Ideal.ofBits .f32 0x7F800000#32) = 1#1) : ∃ r : ℝ, x = r := by
  rw [ofBits_inf] at h
  induction x using EReal.rec with
  | bot => simp [Ideal.cmp] at h
  | coe r => exact ⟨r, rfl⟩
  | top => simp [Ideal.cmp] at h

variable [Facts]

/-- Under the precondition the queries, the keys and the first projection's weights have real entries. -/
theorem real_entries (a0 a1 a2 : FVec Ideal S64x16x32x512 .f32) (a3 : IVec S2x524288 32) (a4 : FVec Ideal S32x1 .f32)
    (a5 : FVec Ideal S1 .f32) (a6 : FVec Ideal S1x32 .f32) (a7 : FVec Ideal S32 .f32) (a8 : FVec Ideal S32x1 .f32)
    (a9 : FVec Ideal S1 .f32)
    (h : fn (F := Ideal) a0 a1 a2 a3 a4 a5 a6 a7 a8 a9 = fun _ => 1#1) :
    (∀ i, ∃ r : ℝ, a0 i = r) ∧ (∀ i, ∃ r : ℝ, a1 i = r) ∧ (∀ i, ∃ r : ℝ, a4 i = r) := by
  have h0 := congrFun h ValueIdx.ix0
  dsimp only [fn, fn_part1, fn_part2] at h0
  obtain ⟨h38, -⟩ := IntOp.andi_eq_one.1 h0
  obtain ⟨h33, -⟩ := IntOp.andi_eq_one.1 h38
  obtain ⟨h28, -⟩ := IntOp.andi_eq_one.1 h33
  obtain ⟨h23, -⟩ := IntOp.andi_eq_one.1 h28
  obtain ⟨h18, -⟩ := IntOp.andi_eq_one.1 h23
  obtain ⟨h13, h17⟩ := IntOp.andi_eq_one.1 h18
  obtain ⟨h8, -⟩ := IntOp.andi_eq_one.1 h13
  obtain ⟨h3, h7⟩ := IntOp.andi_eq_one.1 h8
  exact ⟨fun i => real_of_abs_lt_inf _ (Host.reduce_andi_all _ _ _ _ _ h3 i),
    fun i => real_of_abs_lt_inf _ (Host.reduce_andi_all _ _ _ _ _ h7 i),
    fun i => real_of_abs_lt_inf _ (Host.reduce_andi_all _ _ _ _ _ h17 i)⟩

end Cert.Pre_finite_inputs.Hand

end
-- ==== Proof.Algebraic.lean ====
/-
  The value claim, from its parts.

  At the exact instance both programs end with the same result array: the shared chain of host operations (two
  hypergraph aggregation steps with degree normalisation, the rectifiers, the final contraction) applied to a score
  column, and the two score columns are one array when the queries, the keys and the first projection's weights are
  finite — which the precondition says.
-/
import proofs.«144840_j44049184588034_2_alg».proof.Defs
import proofs.«144840_j44049184588034_2_alg».proof.Proof.KernelIdealFrame
import proofs.«144840_j44049184588034_2_alg».proof.Proof.KernelIdealArrays
import proofs.«144840_j44049184588034_2_alg».proof.Proof.KernelBlocks
import proofs.«144840_j44049184588034_2_alg».proof.Proof.ScoresBridge
import proofs.«144840_j44049184588034_2_alg».proof.Proof.FiniteEntries
import proofs.«144840_j44049184588034_2_alg».proof.Proof.RefRun
import proofs.«144840_j44049184588034_2_alg».proof.Proof.Gen.KernelIdeal
import proofs.«144840_j44049184588034_2_alg».proof.Proof.Gen.ReferenceIdeal
import proofs.«144840_j44049184588034_2_alg».proof.Proof.Gen.Pre_finite_inputs

set_option maxRecDepth 16384

noncomputable section

namespace Cert.Proof.Parts

open Idealize.ShloMosaic Idealize.ShloMosaic.TcCoe Idealize.SL.Sem
open Cert.KernelIdeal Cert.KernelIdeal.Gen Cert.KernelIdeal.Hand
open Cert.ReferenceIdeal.Hand (tail_ref x_ref)

/-- The kernel program's host operations after the region, applied to the region's output, are the shared chain
    applied to that output read as a column. -/
def TailValue : Prop :=
  ∀ (m : (ℓ : Loc nD τ sig) → Buf (Elt Ideal) ℓ) (c : Dev nD),
    Pipeline.afterTail₀ cfgs (dats m) 0 (V0 m) [hostOps1, hostOps1_1, hostOps1_2, hostOps1_3, hostOps1_4] c main_v88
      = tail_ref (F := Ideal) (shapeCast S32768x1 ((dats m 0 c).arrAt 3 cfg0.N) Facts₀.shapeCasts_S1024x32x1_S32768x1)
          (m ((c : Thread nD τ).loc main_arg3)) (m ((c : Thread nD τ).loc main_arg5)) (m ((c : Thread nD τ).loc main_arg6))
          (m ((c : Thread nD τ).loc main_arg7)) (m ((c : Thread nD τ).loc main_arg8)) (m ((c : Thread nD τ).loc main_arg9))

/-- Under the precondition, on every device, the queries, keys and first weights have real entries. -/
theorem finite_of_pre (m : (ℓ : Loc nD τ sig) → Buf (Elt Ideal) ℓ) (hpre : Cert.Pre_KernelIdeal m) (c : Dev nD) :
    (∀ i : S64x16x32x512.Idx, ∃ r : ℝ, (m ((c.tc : Thread nD τ).loc main_arg0) i : EReal) = (r : EReal)) ∧ (∀ i : S64x16x32x512.Idx, ∃ r : ℝ, (m ((c.tc : Thread nD τ).loc main_arg1) i : EReal) = (r : EReal))
      ∧ (∀ i : S32x1.Idx, ∃ r : ℝ, (m ((c.tc : Thread nD τ).loc main_arg4) i : EReal) = (r : EReal)) :=
  Cert.Pre_finite_inputs.Hand.real_entries _ _ _ _ _ _ _ _ _ _ (hpre c)

/-- The kernel program's result: the shared chain applied to the reference's own score column of the arguments. -/
theorem kernel_value (htail : TailValue) (m : (ℓ : Loc nD τ sig) → Buf (Elt Ideal) ℓ) (c : Dev nD)
    (hq : ∀ i : S64x16x32x512.Idx, ∃ r : ℝ, (m ((c.tc : Thread nD τ).loc main_arg0) i : EReal) = (r : EReal))
    (hk : ∀ i : S64x16x32x512.Idx, ∃ r : ℝ, (m ((c.tc : Thread nD τ).loc main_arg1) i : EReal) = (r : EReal))
    (hw : ∀ i : S32x1.Idx, ∃ r : ℝ, (m ((c.tc : Thread nD τ).loc main_arg4) i : EReal) = (r : EReal)) :
    Pipeline.afterTail₀ cfgs (dats m) 0 (V0 m) [hostOps1, hostOps1_1, hostOps1_2, hostOps1_3, hostOps1_4] c main_v88
      = tail_ref (F := Ideal)
          (x_ref (F := Ideal) (m ((c : Thread nD τ).loc main_arg0)) (m ((c : Thread nD τ).loc main_arg1)) (m ((c : Thread nD τ).loc main_arg4)))
          (m ((c : Thread nD τ).loc main_arg3)) (m ((c : Thread nD τ).loc main_arg5)) (m ((c : Thread nD τ).loc main_arg6))
          (m ((c : Thread nD τ).loc main_arg7)) (m ((c : Thread nD τ).loc main_arg8)) (m ((c : Thread nD τ).loc main_arg9)) := by
  rw [htail m c, final3 m c, V_main_v21 m c, V_main_v22 m c, V_main_arg4 m c]
  exact congrArg (fun x => tail_ref (F := Ideal) x _ _ _ _ _ _)
    (Cert.Bridge.scores_eq _ _ _ hq hk hw Facts₀.shapeCasts_S64x16x32x512_S1024x32x512 Facts₀.shapeCasts_S1024x32x1_S32768x1)

/-- The two idealized programs, from memories agreeing on the arguments, end with equal results. -/
theorem algebraic (htail : TailValue) : Cert.algebraic_KernelIdeal_ReferenceIdeal := by
  intro m ρ m' ρ' hpre hagree
  refine ⟨fun c => m ((c.tc : Thread Cert.KernelIdeal.nD Cert.KernelIdeal.τ).loc Cert.KernelIdeal.main_arg2),
    fun c => tail_ref (F := Ideal) (x_ref (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Hand.run_main (F := Ideal) m ρ)
    obtain ⟨hq, hk, hw⟩ := finite_of_pre m hpre c
    have a0 := ((h c).2 main_arg0 (Pipeline.mem_restRefs_of main_arg0 (by decide) (by decide))).trans (W_main_arg0 m (dats m) c)
    have a1 := ((h c).2 main_arg1 (Pipeline.mem_restRefs_of main_arg1 (by decide) (by decide))).trans (W_main_arg1 m (dats m) c)
    have a2 := ((h c).2 main_arg2 (Pipeline.mem_restRefs_of main_arg2 (by decide) (by decide))).trans (W_main_arg2 m (dats m) c)
    have a3 := ((h c).2 main_arg3 (Pipeline.mem_restRefs_of main_arg3 (by decide) (by decide))).trans (W_main_arg3 m (dats m) c)
    have a4 := ((h c).1 2).trans (W_main_arg4 m (dats m) (A_eq m) c)
    have a5 := ((h c).2 main_arg5 (Pipeline.mem_restRefs_of main_arg5 (by decide) (by decide))).trans (W_main_arg5 m (dats m) c)
    have a6 := ((h c).2 main_arg6 (Pipeline.mem_restRefs_of main_arg6 (by decide) (by decide))).trans (W_main_arg6 m (dats m) c)
    have a7 := ((h c).2 main_arg7 (Pipeline.mem_restRefs_of main_arg7 (by decide) (by decide))).trans (W_main_arg7 m (dats m) c)
    have a8 := ((h c).2 main_arg8 (Pipeline.mem_restRefs_of main_arg8 (by decide) (by decide))).trans (W_main_arg8 m (dats m) c)
    have a9 := ((h c).2 main_arg9 (Pipeline.mem_restRefs_of main_arg9 (by decide) (by decide))).trans (W_main_arg9 m (dats m) c)
    have v := ((h c).2 main_v88 (Pipeline.mem_restRefs_of main_v88 (by decide) (by decide))).trans
      (kernel_value htail m c hq hk hw)
    exact ⟨a2, v, a0, a1, a2, a3, a4, a5, a6, a7, a8, a9⟩
  · refine (θ_run Cert.ReferenceIdeal.defs _ _).mono (fun r h c => ?_) (Cert.ReferenceIdeal.Hand.run (F := Ideal) m' ρ')
    obtain ⟨hv, b0, b1, b2, b3, b4, b5, b6, b7, b8, b9⟩ := h c
    obtain ⟨e0, e1, e2, e3, e4, e5, e6, e7, e8, e9⟩ := hagree c
    refine ⟨b2.trans e2, ?_, b0, b1, b2, b3, b4, b5, b6, b7, b8, b9⟩
    rw [hv, e0, e1, e3, e4, e5, e6, e7, e8, e9]

end Cert.Proof.Parts

end
-- ==== Proof.KernelIdealPrefix.lean ====
/-
  The index rows and the inverse degrees as the region finds them, as functions of the incidence list.

  Before the region the host takes rows 0 and 1 of the incidence list (the node and the hyperedge of each
  incidence), counts for every node and for every hyperedge the incidences naming it, and inverts each count
  where it is positive, leaving zero elsewhere. These are the same four terms the reference program forms from the
  same argument: the two rows, and the inverse node and hyperedge degrees of those rows.
-/
import proofs.«144840_j44049184588034_2_alg».proof.Proof.KernelIdealData
import proofs.«144840_j44049184588034_2_alg».proof.Proof.RefTerms
import proofs.«144840_j44049184588034_2_alg».proof.Proof.Gen.ReferenceIdeal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F] [Named F]

variable (m : (ℓ : Loc nD τ sig) → Buf (Elt F) ℓ)

/-- The node index of each incidence, as the region finds it: row 0 of the incidence list. -/
theorem V_main_v1 (c : Dev nD) :
    (V m c main_v1 : Cert.ReferenceIdeal.Hand.Ten F Cert.ReferenceIdeal.S524288 .i32) = Cert.ReferenceIdeal.Hand.row0 (m ((c : Thread nD τ).loc main_arg3)) := by
  dsimp only [V, V0]
  simp only [hostOps0, hostOps0_1, hostOps0_2, hostOps0_3, hostOps0_4, List.flatten_cons, List.flatten_nil,
    List.append_nil, List.cons_append, List.nil_append]
  after_results_simp
  rfl

/-- The hyperedge index of each incidence, as the region finds it: row 1 of the incidence list. -/
theorem V_main_v3 (c : Dev nD) :
    (V m c main_v3 : Cert.ReferenceIdeal.Hand.Ten F Cert.ReferenceIdeal.S524288 .i32) = Cert.ReferenceIdeal.Hand.row1 (m ((c : Thread nD τ).loc main_arg3)) := by
  dsimp only [V, V0]
  simp only [hostOps0, hostOps0_1, hostOps0_2, hostOps0_3, hostOps0_4, List.flatten_cons, List.flatten_nil,
    List.append_nil, List.cons_append, List.nil_append]
  after_results_simp
  rfl

/-- The inverse degree of each node, as the region finds it: one over the number of incidences naming the node,
    zero where there is none. -/
theorem V_main_v12 (c : Dev nD) :
    (V m c main_v12 : Cert.ReferenceIdeal.Hand.Ten F Cert.ReferenceIdeal.S32768 .f32) = Cert.ReferenceIdeal.Hand.invDegV (Cert.ReferenceIdeal.Hand.row0 (m ((c : Thread nD τ).loc main_arg3))) := by
  dsimp only [V, V0]
  simp only [hostOps0, hostOps0_1, hostOps0_2, hostOps0_3, hostOps0_4, List.flatten_cons, List.flatten_nil,
    List.append_nil, List.cons_append, List.nil_append]
  after_results_simp
  rfl

/-- The inverse degree of each hyperedge, as the region finds it: one over the number of incidences naming the
    hyperedge, zero where there is none. -/
theorem V_main_v20 (c : Dev nD) :
    (V m c main_v20 : Cert.ReferenceIdeal.Hand.Ten F Cert.ReferenceIdeal.S4096 .f32) = Cert.ReferenceIdeal.Hand.invDegE (Cert.ReferenceIdeal.Hand.row1 (m ((c : Thread nD τ).loc main_arg3))) := by
  dsimp only [V, V0]
  simp only [hostOps0, hostOps0_1, hostOps0_2, hostOps0_3, hostOps0_4, List.flatten_cons, List.flatten_nil,
    List.append_nil, List.cons_append, List.nil_append]
  after_results_simp
  rfl

end Cert.KernelIdeal.Hand

end
-- ==== Proof.KernelIdealTailValue.lean ====
/-
  The host operations after the region, read as one function of the region's result.

  After its pipelined launch @main applies 86 host operations to the launch's result array: the result's 32768 rows
  go through a first round of aggregation over the incidence list (summed from nodes into hyperedges, scaled by the
  inverse hyperedge degree, summed back into nodes, scaled by the inverse node degree), a bias, a rectifier and a
  widening to 32 features, then a second round at width 32, a bias, a contraction to one feature, a bias and a leaky
  rectifier. The index rows and the two inverse degrees are computed before the region. This module shows that what
  the last operation's result buffer holds is `tail_ref` — the composition of the same pure functions, written once
  for the reference program — of the launch's result reshaped to a column, the incidence list and the five parameter
  arrays as launched. The chain is followed stretch by stretch; each stretch is a short literal list of operations whose
  results are read off one after the other, and between stretches only the buffers a later stretch reads are tracked.
-/
import proofs.«144840_j44049184588034_2_alg».proof.Proof.KernelIdealFrame
import proofs.«144840_j44049184588034_2_alg».proof.Proof.KernelIdealPrefix
import proofs.«144840_j44049184588034_2_alg».proof.Proof.RefTerms
import proofs.«144840_j44049184588034_2_alg».proof.Proof.Gen.ReferenceIdeal

set_option maxRecDepth 16384

noncomputable section

namespace Cert.KernelIdeal.Hand

open Cert.KernelIdeal Cert.KernelIdeal.Gen
open Idealize.ShloMosaic Idealize.ShloMosaic.TcCoe
open Idealize.SL Idealize.SL.Sem
open Cert.ReferenceIdeal.Hand (Ten tail_ref hid node32 edge32 node1 edge1 row0 row1 col wrap ones degV invDegV degE invDegE biasCol biasRow relu leaky)

variable {F : FTy → Type} [FloatOps F] [Named F]

variable (m : (ℓ : Loc nD τ sig) → Buf (Elt F) ℓ)

/-! ## The leaves of the chain -/

/-- The buffers the operations after the region read but none of them writes: the two index rows and the two
    inverse degrees, computed before the region, and the five parameter arrays. -/
abbrev leafRefs : List (Ref sig .tc) := [main_v1, main_v3, main_v12, main_v20, main_arg5, main_arg6, main_arg7, main_arg8, main_arg9]

/-- A valuation holds the chain's leaves: the rows of the incidence list `hei`, the inverse degrees of its nodes and
    hyperedges, and the parameters. -/
structure Leaves (W : Valuation τ sig (Elt F)) (hei : Ten F Cert.ReferenceIdeal.S2x524288 .i32) (b1 : Ten F Cert.ReferenceIdeal.S1 .f32)
    (w2 : Ten F Cert.ReferenceIdeal.S1x32 .f32) (b2 : Ten F Cert.ReferenceIdeal.S32 .f32) (wlin : Ten F Cert.ReferenceIdeal.S32x1 .f32)
    (blin : Ten F Cert.ReferenceIdeal.S1 .f32) : Prop where
  v1 : W (Proc.devRef .tc main_v1) = row0 hei
  v3 : W (Proc.devRef .tc main_v3) = row1 hei
  v12 : W (Proc.devRef .tc main_v12) = invDegV (row0 hei)
  v20 : W (Proc.devRef .tc main_v20) = invDegE (row1 hei)
  a5 : W (Proc.devRef .tc main_arg5) = b1
  a6 : W (Proc.devRef .tc main_arg6) = w2
  a7 : W (Proc.devRef .tc main_arg7) = b2
  a8 : W (Proc.devRef .tc main_arg8) = wlin
  a9 : W (Proc.devRef .tc main_arg9) = blin

variable {hei : Ten F Cert.ReferenceIdeal.S2x524288 .i32} {b1 : Ten F Cert.ReferenceIdeal.S1 .f32}
    {w2 : Ten F Cert.ReferenceIdeal.S1x32 .f32} {b2 : Ten F Cert.ReferenceIdeal.S32 .f32} {wlin : Ten F Cert.ReferenceIdeal.S32x1 .f32}
    {blin : Ten F Cert.ReferenceIdeal.S1 .f32}

/-- No operation of `hostOps1` writes a leaf: each writes its own result buffer, which is none of them. -/
theorem hostOps1_leaves : (hostOps1 : List (HloOp τ sig (Elt F))).Forall fun op => ∀ r ∈ leafRefs, Proc.devRef (τ := τ) .tc r ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- No operation of `hostOps1_1` writes a leaf: each writes its own result buffer, which is none of them. -/
theorem hostOps1_1_leaves : (hostOps1_1 : List (HloOp τ sig (Elt F))).Forall fun op => ∀ r ∈ leafRefs, Proc.devRef (τ := τ) .tc r ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- No operation of `hostOps1_2` writes a leaf: each writes its own result buffer, which is none of them. -/
theorem hostOps1_2_leaves : (hostOps1_2 : List (HloOp τ sig (Elt F))).Forall fun op => ∀ r ∈ leafRefs, Proc.devRef (τ := τ) .tc r ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)
/-- No operation of `hostOps1_3` writes a leaf: each writes its own result buffer, which is none of them. -/
theorem hostOps1_3_leaves : (hostOps1_3 : List (HloOp τ sig (Elt F))).Forall fun op => ∀ r ∈ leafRefs, Proc.devRef (τ := τ) .tc r ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro r hr; refine StableHlo.devRef_ne_of_ne ?_; revert r; decide)

omit [Named F] in
/-- A line of operations that writes no leaf leaves them as they were. -/
theorem Leaves.after {W : Valuation τ sig (Elt F)} (h : Leaves W hei b1 w2 b2 wlin blin) (L : List (HloOp τ sig (Elt F)))
    (hL : ∀ op ∈ L, ∀ r ∈ leafRefs, Proc.devRef (τ := τ) .tc r ∉ op.writes) : Leaves (StableHlo.after L W) hei b1 w2 b2 wlin blin :=
  ⟨(StableHlo.after_of_forall_not_mem L W fun op hop => hL op hop main_v1 (by decide)).trans h.v1,
   (StableHlo.after_of_forall_not_mem L W fun op hop => hL op hop main_v3 (by decide)).trans h.v3,
   (StableHlo.after_of_forall_not_mem L W fun op hop => hL op hop main_v12 (by decide)).trans h.v12,
   (StableHlo.after_of_forall_not_mem L W fun op hop => hL op hop main_v20 (by decide)).trans h.v20,
   (StableHlo.after_of_forall_not_mem L W fun op hop => hL op hop main_arg5 (by decide)).trans h.a5,
   (StableHlo.after_of_forall_not_mem L W fun op hop => hL op hop main_arg6 (by decide)).trans h.a6,
   (StableHlo.after_of_forall_not_mem L W fun op hop => hL op hop main_arg7 (by decide)).trans h.a7,
   (StableHlo.after_of_forall_not_mem L W fun op hop => hL op hop main_arg8 (by decide)).trans h.a8,
   (StableHlo.after_of_forall_not_mem L W fun op hop => hL op hop main_arg9 (by decide)).trans h.a9⟩

/-! ## The stretches, from any valuation holding the leaves -/

set_option maxHeartbeats 1000000 in
/-- The first stretch (34 operations): the launch's result as a column, the first round of aggregation at width 1,
    and the first bias. -/
theorem tail1 (W : Valuation τ sig (Elt F)) (hL : Leaves W hei b1 w2 b2 wlin blin) :
    StableHlo.after (hostOps1 : List (HloOp τ sig (Elt F))) W (Proc.devRef .tc main_v51)
      = addf (node1 (edge1 (shapeCast S32768x1 (W (Proc.devRef .tc main_v23)) shapeCasts_S1024x32x1_S32768x1) (row0 hei) (row1 hei)) (row0 hei) (row1 hei)) (biasCol b1) := by
  simp only [hostOps1]
  after_results_simp
  rw [hL.v1, hL.v3, hL.v12, hL.v20, hL.a5]
  rfl

/-- The second stretch (the `relu` call): the rectifier. -/
theorem tail2 (W : Valuation τ sig (Elt F)) :
    StableHlo.after (hostOps1_1 : List (HloOp τ sig (Elt F))) W (Proc.devRef .tc main_v52) = relu (W (Proc.devRef .tc main_v51)) := by
  simp only [hostOps1_1]
  after_results
  rfl

set_option maxHeartbeats 1000000 in
/-- The third stretch (41 operations): the widening to 32 features, the second round of aggregation at width 32, the
    row of biases, the contraction to one feature and the last bias. -/
theorem tail3 (W : Valuation τ sig (Elt F)) (hL : Leaves W hei b1 w2 b2 wlin blin) :
    StableHlo.after (hostOps1_2 : List (HloOp τ sig (Elt F))) W (Proc.devRef .tc main_v86)
      = addf (Host.dotGeneral Cert.ReferenceIdeal.dot_S32768x32_S32x1_S32768x1_1_0_0_1_n_n none
          (addf (node32 (edge32 (Host.dotGeneral Cert.ReferenceIdeal.dot_S32768x1_S1x32_S32768x32_1_0_0_1_n_n none (W (Proc.devRef .tc main_v52)) w2)
            (row0 hei) (row1 hei)) (row0 hei) (row1 hei)) (biasRow b2)) wlin) (biasCol blin) := by
  simp only [hostOps1_2]
  after_results_simp
  rw [hL.v1, hL.v3, hL.v12, hL.v20, hL.a6, hL.a7, hL.a8, hL.a9]
  rfl

set_option maxHeartbeats 1000000 in
/-- The third stretch also sets the leaky rectifier's slope. -/
theorem tail3_slope (W : Valuation τ sig (Elt F)) :
    StableHlo.after (hostOps1_2 : List (HloOp τ sig (Elt F))) W (Proc.devRef .tc main_cst_19) = constant S_ .f32 0x3C23D70A#32 := by
  simp only [hostOps1_2]
  after_results_simp

/-- The fourth stretch (the `leaky_relu` call): the leaky rectifier, its slope read from the buffer the third stretch set. -/
theorem tail4 (W : Valuation τ sig (Elt F)) (h19 : W (Proc.devRef .tc main_cst_19) = constant S_ .f32 0x3C23D70A#32) :
    StableHlo.after (hostOps1_3 : List (HloOp τ sig (Elt F))) W (Proc.devRef .tc main_v87) = leaky (W (Proc.devRef .tc main_v86)) := by
  simp only [hostOps1_3]
  after_results
  rw [h19]
  rfl

/-- The last operation: the column of 32768 laid out as 64 x 16 x 32 x 1. -/
theorem tail5 (W : Valuation τ sig (Elt F)) :
    StableHlo.after (hostOps1_4 : List (HloOp τ sig (Elt F))) W (Proc.devRef .tc main_v88)
      = shapeCast Cert.ReferenceIdeal.S64x16x32x1 (W (Proc.devRef .tc main_v87)) Cert.ReferenceIdeal.Gen.shapeCasts_S32768x1_S64x16x32x1 := by
  simp only [hostOps1_4]
  after_results
  rfl

/-! ## The leaves when the region is entered -/

/-- The region's exit holds the leaves: none of them is an array of the pipeline, so each is as the region found it:
    the index rows and inverse degrees as the operations before the region computed them (`V_main_v1` … `V_main_v20`), the
    parameters as launched. -/
theorem leaves0 (c : Dev nD) (A : (w : Fin (cfgs 0).W) → Buf (Elt F) (((cfgs 0).spec w).arr.view.loc (c.tc : Thread nD τ))) :
    Leaves (Pipeline.withArrays (cfgs 0).spec c (V0 m c) A) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) :=
  ⟨(Pipeline.withArrays_of_ne _ c (V0 m c) A main_v1 (by exact (by decide : ∀ w, Pipeline.arrRef spec0 w ≠ main_v1))).trans (V_main_v1 m c),
   (Pipeline.withArrays_of_ne _ c (V0 m c) A main_v3 (by exact (by decide : ∀ w, Pipeline.arrRef spec0 w ≠ main_v3))).trans (V_main_v3 m c),
   (Pipeline.withArrays_of_ne _ c (V0 m c) A main_v12 (by exact (by decide : ∀ w, Pipeline.arrRef spec0 w ≠ main_v12))).trans (V_main_v12 m c),
   (Pipeline.withArrays_of_ne _ c (V0 m c) A main_v20 (by exact (by decide : ∀ w, Pipeline.arrRef spec0 w ≠ main_v20))).trans (V_main_v20 m c),
   (Pipeline.withArrays_of_ne _ c (V0 m c) A main_arg5 (by exact (by decide : ∀ w, Pipeline.arrRef spec0 w ≠ main_arg5))).trans (V_main_arg5 m c),
   (Pipeline.withArrays_of_ne _ c (V0 m c) A main_arg6 (by exact (by decide : ∀ w, Pipeline.arrRef spec0 w ≠ main_arg6))).trans (V_main_arg6 m c),
   (Pipeline.withArrays_of_ne _ c (V0 m c) A main_arg7 (by exact (by decide : ∀ w, Pipeline.arrRef spec0 w ≠ main_arg7))).trans (V_main_arg7 m c),
   (Pipeline.withArrays_of_ne _ c (V0 m c) A main_arg8 (by exact (by decide : ∀ w, Pipeline.arrRef spec0 w ≠ main_arg8))).trans (V_main_arg8 m c),
   (Pipeline.withArrays_of_ne _ c (V0 m c) A main_arg9 (by exact (by decide : ∀ w, Pipeline.arrRef spec0 w ≠ main_arg9))).trans (V_main_arg9 m c)⟩

/-! ## The whole tail -/

/-- What @main's last result buffer holds after the host operations that follow the region: `tail_ref` of the
    pipeline's result array (as the library computes it from the proof data) read as a column of 32768, the incidence
    list and the five parameter arrays as launched. -/
theorem tail_value (c : Dev nD) :
    Pipeline.afterTail₀ cfgs (dats m) 0 (V0 m) [hostOps1, hostOps1_1, hostOps1_2, hostOps1_3, hostOps1_4] c main_v88
      = tail_ref (shapeCast S32768x1 ((dats m 0 c).arrAt 3 cfg0.N) shapeCasts_S1024x32x1_S32768x1)
          (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  have hL0 := leaves0 m c (fun w => (dats m 0 c).arrAt w (cfgs 0).N)
  have hL1 := hL0.after hostOps1 (List.forall_iff_forall_mem.mp hostOps1_leaves)
  have hL2 := hL1.after hostOps1_1 (List.forall_iff_forall_mem.mp hostOps1_1_leaves)
  rw [show List.flatten ([hostOps1, hostOps1_1, hostOps1_2, hostOps1_3, hostOps1_4] : List (List (HloOp τ sig (Elt F))))
        = hostOps1 ++ (hostOps1_1 ++ (hostOps1_2 ++ (hostOps1_3 ++ hostOps1_4))) from by
      simp only [List.flatten_cons, List.flatten_nil, List.append_nil],
    StableHlo.after_append, StableHlo.after_append, StableHlo.after_append, StableHlo.after_append,
    tail5, tail4 _ (tail3_slope _), tail3 _ hL2, tail2, tail1 _ hL0,
    Pipeline.withArrays_arr (cfgs 0).spec launch0.win.arr_inj c (V0 m c) _ 3]
  rfl

/-- info: 'Cert.KernelIdeal.Hand.tail_value' depends on axioms: [propext, Classical.choice, Quot.sound] -/
#guard_msgs in #print axioms tail_value

end Cert.KernelIdeal.Hand

end
-- ==== Proof.lean ====
/-
  The certificate of the fused score projection.

  The kernel never forms the 32 × 32 score matrix of a head: for each head it first combines the key rows by the
  projection weights `w1`, then takes each query row's score against that one combined row, and scales by the
  reciprocal of the square root of 512; the reference scales the queries, forms all scores, and projects them by `w1`.
  For finite inputs the two are the same number, entry by entry (the scale and the weights move across finite sums);
  the scale is a named constant of the kernel, the exact reciprocal `524288 / 11863283` of the reference's divisor.
  Everything after the score column — two hypergraph aggregation steps normalised by node and hyperedge degrees, the
  rectifier, the widening to 32 features, the final contraction and the leaky rectifier — is the same chain of host
  operations in both programs and is carried as one function of the column.

  The three frames: both kernel programs run their one pipelined region between host operations and leave the ten
  arguments as launched; the reference is a host program whose run names its result.
-/
import proofs.«144840_j44049184588034_2_alg».proof.Defs
import proofs.«144840_j44049184588034_2_alg».proof.Proof.Gen.Kernel
import proofs.«144840_j44049184588034_2_alg».proof.Proof.Gen.Kernel.Skeleton
import proofs.«144840_j44049184588034_2_alg».proof.Proof.Gen.Kernel.Launch
import proofs.«144840_j44049184588034_2_alg».proof.Proof.Gen.Kernel.Points
import proofs.«144840_j44049184588034_2_alg».proof.Proof.Gen.KernelIdeal
import proofs.«144840_j44049184588034_2_alg».proof.Proof.Gen.KernelIdeal.Skeleton
import proofs.«144840_j44049184588034_2_alg».proof.Proof.Gen.KernelIdeal.Launch
import proofs.«144840_j44049184588034_2_alg».proof.Proof.Gen.KernelIdeal.Points
import proofs.«144840_j44049184588034_2_alg».proof.Proof.Gen.ReferenceIdeal
import proofs.«144840_j44049184588034_2_alg».proof.Proof.Gen.Pre_finite_inputs
import proofs.«144840_j44049184588034_2_alg».proof.Proof.KernelFrame
import proofs.«144840_j44049184588034_2_alg».proof.Proof.KernelIdealFrame
import proofs.«144840_j44049184588034_2_alg».proof.Proof.RefRun
import proofs.«144840_j44049184588034_2_alg».proof.Proof.Algebraic
import proofs.«144840_j44049184588034_2_alg».proof.Proof.KernelIdealTailValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Hand.frame m ρ

/-- The idealized kernel program runs and leaves its arguments unchanged. -/
theorem frame_kernelIdeal : Cert.frame_KernelIdeal := fun m ρ _ => Cert.KernelIdeal.Hand.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The one rewrite of the idealization: the kernel's scale constant is named, and the table gives the name the
    rational `524288 / 11863283`. -/
theorem preserves : Cert.preserves_Kernel_KernelIdeal :=
  IdealRules.named_const.statement Cert.KernelIdeal.κ "inv_temp" .f32 0x3D3504F3#32 ((524288 / 11863283 : ℝ) : EReal) rfl

/-- The two idealized programs end with equal results. -/
theorem algebraic : Cert.algebraic_KernelIdeal_ReferenceIdeal :=
  Cert.Proof.Parts.algebraic (fun m c => Cert.KernelIdeal.Hand.tail_value m c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
